-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x100000 : Shape := ⟨2, ![2, 100000]⟩
abbrev S2000x128 : Shape := ⟨2, ![2000, 128]⟩
abbrev S128x768 : Shape := ⟨2, ![128, 768]⟩
abbrev S256x6 : Shape := ⟨2, ![256, 6]⟩
abbrev S128x128 : Shape := ⟨2, ![128, 128]⟩
abbrev S128 : Shape := ⟨1, ![128]⟩
abbrev S768x40 : Shape := ⟨2, ![768, 40]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S128x768 : S_.BroadcastsInDim S128x768 (![] : Fin 0 → Fin S128x768.rank)
  reducesTo_S128x768_S_d0_1 : S128x768.ReducesTo [0, 1] S_
  bcast_S_S256x6 : S_.BroadcastsInDim S256x6 (![] : Fin 0 → Fin S256x6.rank)
  reducesTo_S256x6_S_d0_1 : S256x6.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S768x40 : S_.BroadcastsInDim S768x40 (![] : Fin 0 → Fin S768x40.rank)
  reducesTo_S768x40_S_d0_1 : S768x40.ReducesTo [0, 1] S_

variable [Facts]

def fn_part2 {F : FTy → Type} [FloatOps F] (main_arg8 : FVec F S128 .f32) (main_arg9 : FVec F S768x40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S768x40 .f32 := Host.absf main_arg9
  let main_cst_14 : FVec F S_ .f32 := constant S_ .f32 0x7F800000#32
  let main_v40 : FVec F S768x40 .f32 := broadcastInDim S768x40 ![] bcast_S_S768x40 main_cst_14
  let main_v41 : IVec S768x40 1 := cmpf .olt main_v39 main_v40
  let main_c_15 : IVec S_ 1 := constantI S_ 1 1#1
  let main_v42 : IVec S_ 1 := (fun x v => Host.reduce IntOp.andi x v reducesTo_S768x40_S_d0_1 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128 .f32) (main_arg9 : FVec F S768x40 .f32) (main_v13 : IVec S_ 1) (main_v16 : IVec S256x6 1) : IVec S_ 1 :=
  let main_c_5 : IVec S_ 1 := constantI S_ 1 1#1
  let main_v17 : IVec S_ 1 := (fun x v => Host.reduce IntOp.andi x v reducesTo_S256x6_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S20000x128 .f32) (main_arg1 : IVec S2x100000 32) (main_arg2 : FVec F S2000x128 .f32) (main_arg3 : FVec F S128x768 .f32) (main_arg4 : FVec F S256x6 .f32) (main_arg5 : FVec F S128x128 .f32) (main_arg6 : FVec F S128 .f32) (main_arg7 : FVec F S128x128 .f32) (main_arg8 : FVec F S128 .f32) (main_arg9 : FVec F S768x40 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S2000x128 .f32 := Host.absf main_arg2
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S128x768 .f32 := Host.absf main_arg3
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S256x6 .f32 := Host.absf main_arg4
  let main_cst_4 : FVec F S_ .f32 := constant S_ .f32 0x7F800000#32
  let main_v15 : FVec F S256x6 .f32 := broadcastInDim S256x6 ![] bcast_S_S256x6 main_cst_4
  let main_v16 : IVec S256x6 1 := cmpf .olt main_v14 main_v15
  fn_part1 (F := F) main_arg5 main_arg6 main_arg7 main_arg8 main_arg9 main_v13 main_v16
-- ==== Kernel.lean ====
abbrev S20000x128 : Shape := ⟨2, ![20000, 128]⟩
abbrev S2x100000 : Shape := ⟨2, ![2, 100000]⟩
abbrev S2000x128 : Shape := ⟨2, ![2000, 128]⟩
abbrev S128x768 : Shape := ⟨2, ![128, 768]⟩
abbrev S256x6 : Shape := ⟨2, ![256, 6]⟩
abbrev S128x128 : Shape := ⟨2, ![128, 128]⟩
abbrev S128 : Shape := ⟨1, ![128]⟩
abbrev S768x40 : Shape := ⟨2, ![768, 40]⟩
abbrev S1x100000 : Shape := ⟨2, ![1, 100000]⟩
abbrev S100000 : Shape := ⟨1, ![100000]⟩
abbrev S20000x768 : Shape := ⟨2, ![20000, 768]⟩
abbrev S2000x768 : Shape := ⟨2, ![2000, 768]⟩
abbrev S20000x6x128 : Shape := ⟨3, ![20000, 6, 128]⟩
abbrev S2000x6x128 : Shape := ⟨3, ![2000, 6, 128]⟩
abbrev S_ : Shape := ⟨0, ![]⟩
abbrev S100000x1 : Shape := ⟨2, ![100000, 1]⟩
abbrev S100000x128 : Shape := ⟨2, ![100000, 128]⟩
abbrev S100000x256 : Shape := ⟨2, ![100000, 256]⟩
abbrev S100000x6 : Shape := ⟨2, ![100000, 6]⟩
abbrev S2000x256 : Shape := ⟨2, ![2000, 256]⟩
abbrev S2000x6 : Shape := ⟨2, ![2000, 6]⟩
abbrev S120000x128 : Shape := ⟨2, ![120000, 128]⟩
abbrev S20000x6 : Shape := ⟨2, ![20000, 6]⟩
abbrev S100000x6x1 : Shape := ⟨3, ![100000, 6, 1]⟩
abbrev S100000x6x128 : Shape := ⟨3, ![100000, 6, 128]⟩
abbrev S1x1x128 : Shape := ⟨3, ![1, 1, 128]⟩
abbrev S1000x6x128 : Shape := ⟨3, ![1000, 6, 128]⟩
abbrev S20000x40 : Shape := ⟨2, ![20000, 40]⟩
abbrev S2000x40 : Shape := ⟨2, ![2000, 40]⟩

abbrev nBuf : Space → Nat
  | .hbm => 223
  | .vmem => 32
  | .smem => 0
  | _ => 0

abbrev hbmTy0_0 (i : Nat) : BufTy := match i % 128 with
  | 0 => ⟨S20000x128, .f32⟩
  | 1 => ⟨S2x100000, .i32⟩
  | 2 => ⟨S2000x128, .f32⟩
  | 3 => ⟨S128x768, .f32⟩
  | 4 => ⟨S256x6, .f32⟩
  | 5 => ⟨S128x128, .f32⟩
  | 6 => ⟨S128, .f32⟩
  | 7 => ⟨S128x128, .f32⟩
  | 8 => ⟨S128, .f32⟩
  | 9 => ⟨S768x40, .f32⟩
  | 10 => ⟨S1x100000, .i32⟩
  | 11 => ⟨S100000, .i32⟩
  | 12 => ⟨S1x100000, .i32⟩
  | 13 => ⟨S100000, .i32⟩
  | 14 => ⟨S20000x768, .f32⟩
  | 15 => ⟨S2000x768, .f32⟩
  | 16 => ⟨S20000x6x128, .f32⟩
  | 17 => ⟨S2000x6x128, .f32⟩
  | 18 => ⟨S_, .f32⟩
  | 19 => ⟨S20000x128, .f32⟩
  | 20 => ⟨S_, .f32⟩
  | 21 => ⟨S20000x128, .f32⟩
  | 22 => ⟨S20000x128, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S_, .f32⟩
  | 33 => ⟨S2000x128, .f32⟩
  | 34 => ⟨S_, .f32⟩
  | 35 => ⟨S2000x128, .f32⟩
  | 36 => ⟨S2000x128, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x128, .f32⟩
  | 46 => ⟨S100000x256, .f32⟩
  | 47 => ⟨S100000x6, .f32⟩
  | 48 => ⟨S120000x128, .f32⟩
  | 49 => ⟨S120000x128, .f32⟩
  | 50 => ⟨S20000x6x128, .f32⟩
  | 51 => ⟨S_, .f32⟩
  | 52 => ⟨S20000x6, .f32⟩
  | 53 => ⟨S100000x1, .i32⟩
  | 54 => ⟨S20000x6, .f32⟩
  | 55 => ⟨S_, .f32⟩
  | 56 => ⟨S2000x6, .f32⟩
  | 57 => ⟨S100000x1, .i32⟩
  | 58 => ⟨S2000x6, .f32⟩
  | 59 => ⟨S_, .f32⟩
  | 60 => ⟨S20000x6, .f32⟩
  | 61 => ⟨S20000x6, .i1⟩
  | 62 => ⟨S_, .f32⟩
  | 63 => ⟨S20000x6, .f32⟩
  | 64 => ⟨S20000x6, .f32⟩
  | 65 => ⟨S_, .f32⟩
  | 66 => ⟨S_, .f32⟩
  | 67 => ⟨S20000x6, .f32⟩
  | 68 => ⟨S20000x6, .f32⟩
  | 69 => ⟨S_, .f32⟩
  | 70 => ⟨S2000x6, .f32⟩
  | 71 => ⟨S2000x6, .i1⟩
  | 72 => ⟨S_, .f32⟩
  | 73 => ⟨S2000x6, .f32⟩
  | 74 => ⟨S2000x6, .f32⟩
  | 75 => ⟨S_, .f32⟩
  | 76 => ⟨S_, .f32⟩
  | 77 => ⟨S2000x6, .f32⟩
  | 78 => ⟨S2000x6, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x6, .f32⟩
  | 88 => ⟨S100000x6, .f32⟩
  | 89 => ⟨S100000x6x1, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x6x128, .f32⟩
  | 99 => ⟨S100000x6x128, .f32⟩
  | 100 => ⟨S100000x6x128, .f32⟩
  | 101 => ⟨S_, .f32⟩
  | 102 => ⟨S2000x6x128, .f32⟩
  | 103 => ⟨S100000x1, .i32⟩
  | 104 => ⟨S2000x6x128, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x6, .f32⟩
  | 114 => ⟨S100000x6, .f32⟩
  | 115 => ⟨S100000x6x1, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x6x128, .f32⟩
  | 125 => ⟨S100000x6x128, .f32⟩
  | 126 => ⟨S100000x6x128, .f32⟩
  | 127 => ⟨S_, .f32⟩
  | _ => ⟨S20000x128, .f32⟩

abbrev hbmTy0_1 (i : Nat) : BufTy := match i % 128 with
  | 0 => ⟨S20000x6x128, .f32⟩
  | 1 => ⟨S100000x1, .i32⟩
  | 2 => ⟨S20000x6x128, .f32⟩
  | 3 => ⟨S1x1x128, .f32⟩
  | 4 => ⟨S20000x6x128, .f32⟩
  | 5 => ⟨S20000x6x128, .f32⟩
  | 6 => ⟨S20000x6x128, .f32⟩
  | 7 => ⟨S120000x128, .f32⟩
  | 8 => ⟨S120000x128, .f32⟩
  | 9 => ⟨S20000x6x128, .f32⟩
  | 10 => ⟨S_, .f32⟩
  | 11 => ⟨S20000x6, .f32⟩
  | 12 => ⟨S100000x1, .i32⟩
  | 13 => ⟨S20000x6, .f32⟩
  | 14 => ⟨S_, .f32⟩
  | 15 => ⟨S2000x6, .f32⟩
  | 16 => ⟨S100000x1, .i32⟩
  | 17 => ⟨S2000x6, .f32⟩
  | 18 => ⟨S_, .f32⟩
  | 19 => ⟨S20000x6, .f32⟩
  | 20 => ⟨S20000x6, .i1⟩
  | 21 => ⟨S_, .f32⟩
  | 22 => ⟨S20000x6, .f32⟩
  | 23 => ⟨S20000x6, .f32⟩
  | 24 => ⟨S_, .f32⟩
  | 25 => ⟨S_, .f32⟩
  | 26 => ⟨S20000x6, .f32⟩
  | 27 => ⟨S20000x6, .f32⟩
  | 28 => ⟨S_, .f32⟩
  | 29 => ⟨S2000x6, .f32⟩
  | 30 => ⟨S2000x6, .i1⟩
  | 31 => ⟨S_, .f32⟩
  | 32 => ⟨S2000x6, .f32⟩
  | 33 => ⟨S2000x6, .f32⟩
  | 34 => ⟨S_, .f32⟩
  | 35 => ⟨S_, .f32⟩
  | 36 => ⟨S2000x6, .f32⟩
  | 37 => ⟨S2000x6, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x6, .f32⟩
  | 47 => ⟨S100000x6, .f32⟩
  | 48 => ⟨S100000x6x1, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x6x128, .f32⟩
  | 58 => ⟨S100000x6x128, .f32⟩
  | 59 => ⟨S100000x6x128, .f32⟩
  | 60 => ⟨S_, .f32⟩
  | 61 => ⟨S2000x6x128, .f32⟩
  | 62 => ⟨S100000x1, .i32⟩
  | 63 => ⟨S2000x6x128, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000x6, .f32⟩
  | 73 => ⟨S100000x6, .f32⟩
  | 74 => ⟨S100000x6x1, .f32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x6x128, .f32⟩
  | 84 => ⟨S100000x6x128, .f32⟩
  | 85 => ⟨S100000x6x128, .f32⟩
  | 86 => ⟨S_, .f32⟩
  | 87 => ⟨S20000x6x128, .f32⟩
  | 88 => ⟨S100000x1, .i32⟩
  | 89 => ⟨S20000x6x128, .f32⟩
  | 90 => ⟨S1x1x128, .f32⟩
  | 91 => ⟨S20000x6x128, .f32⟩
  | 92 => ⟨S20000x6x128, .f32⟩
  | 93 => ⟨S20000x768, .f32⟩
  | 94 => ⟨S20000x40, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x768, .f32⟩
  | .local _ .vmem, ⟨3, _⟩ => ⟨S2000x768, .f32⟩
  | .local _ .vmem, ⟨4, _⟩ => ⟨S2000x768, .f32⟩
  | .local _ .vmem, ⟨5, _⟩ => ⟨S2000x128, .f32⟩
  | .local _ .vmem, ⟨6, _⟩ => ⟨S128x768, .f32⟩
  | .local _ .vmem, ⟨7, _⟩ => ⟨S2000x768, .f32⟩
  | .local _ .vmem, ⟨8, _⟩ => ⟨S2000x256, .f32⟩
  | .local _ .vmem, ⟨9, _⟩ => ⟨S2000x256, .f32⟩
  | .local _ .vmem, ⟨10, _⟩ => ⟨S256x6, .f32⟩
  | .local _ .vmem, ⟨11, _⟩ => ⟨S2000x6, .f32⟩
  | .local _ .vmem, ⟨12, _⟩ => ⟨S2000x6, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S1000x6x128, .f32⟩
  | .local _ .vmem, ⟨19, _⟩ => ⟨S1000x6x128, .f32⟩
  | .local _ .vmem, ⟨20, _⟩ => ⟨S1000x6x128, .f32⟩
  | .local _ .vmem, ⟨21, _⟩ => ⟨S1000x6x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x768, .f32⟩
  | .local _ .vmem, ⟨28, _⟩ => ⟨S2000x768, .f32⟩
  | .local _ .vmem, ⟨29, _⟩ => ⟨S768x40, .f32⟩
  | .local _ .vmem, ⟨30, _⟩ => ⟨S2000x40, .f32⟩
  | .local _ .vmem, ⟨31, _⟩ => ⟨S2000x40, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_call0_v0 : Ref sig .tc := ⟨.hbm, 66, rfl⟩
abbrev main_call0_v1 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_v48 : Ref sig .tc := ⟨.hbm, 78, rfl⟩
abbrev main_c_14 : Ref sig .tc := ⟨.hbm, 79, rfl⟩
abbrev main_v49 : Ref sig .tc := ⟨.hbm, 80, rfl⟩
abbrev main_v50 : Ref sig .tc := ⟨.hbm, 81, rfl⟩
abbrev main_c_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_16 : Ref sig .tc := ⟨.hbm, 90, rfl⟩
abbrev main_v58 : Ref sig .tc := ⟨.hbm, 91, rfl⟩
abbrev main_v59 : Ref sig .tc := ⟨.hbm, 92, rfl⟩
abbrev main_c_17 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_19 : Ref sig .tc := ⟨.hbm, 105, rfl⟩
abbrev main_v70 : Ref sig .tc := ⟨.hbm, 106, rfl⟩
abbrev main_v71 : Ref sig .tc := ⟨.hbm, 107, rfl⟩
abbrev main_c_20 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_21 : Ref sig .tc := ⟨.hbm, 116, rfl⟩
abbrev main_v79 : Ref sig .tc := ⟨.hbm, 117, rfl⟩
abbrev main_v80 : Ref sig .tc := ⟨.hbm, 118, rfl⟩
abbrev main_c_22 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_23 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_24 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_25 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_26 : Ref sig .tc := ⟨.hbm, 146, rfl⟩
abbrev main_v104 : Ref sig .tc := ⟨.hbm, 147, rfl⟩
abbrev main_v105 : Ref sig .tc := ⟨.hbm, 148, rfl⟩
abbrev main_cst_27 : Ref sig .tc := ⟨.hbm, 149, rfl⟩
abbrev main_v106 : Ref sig .tc := ⟨.hbm, 150, rfl⟩
abbrev main_v107 : Ref sig .tc := ⟨.hbm, 151, rfl⟩
abbrev main_cst_28 : Ref sig .tc := ⟨.hbm, 152, rfl⟩
abbrev main_call2_v0 : Ref sig .tc := ⟨.hbm, 153, rfl⟩
abbrev main_call2_v1 : Ref sig .tc := ⟨.hbm, 154, rfl⟩
abbrev main_v108 : Ref sig .tc := ⟨.hbm, 155, rfl⟩
abbrev main_cst_29 : Ref sig .tc := ⟨.hbm, 156, rfl⟩
abbrev main_v109 : Ref sig .tc := ⟨.hbm, 157, rfl⟩
abbrev main_v110 : Ref sig .tc := ⟨.hbm, 158, rfl⟩
abbrev main_cst_30 : Ref sig .tc := ⟨.hbm, 159, rfl⟩
abbrev main_v111 : Ref sig .tc := ⟨.hbm, 160, rfl⟩
abbrev main_v112 : Ref sig .tc := ⟨.hbm, 161, rfl⟩
abbrev main_cst_31 : Ref sig .tc := ⟨.hbm, 162, rfl⟩
abbrev main_call3_v0 : Ref sig .tc := ⟨.hbm, 163, rfl⟩
abbrev main_call3_v1 : Ref sig .tc := ⟨.hbm, 164, rfl⟩
abbrev main_v113 : Ref sig .tc := ⟨.hbm, 165, rfl⟩
abbrev main_c_32 : Ref sig .tc := ⟨.hbm, 166, rfl⟩
abbrev main_v114 : Ref sig .tc := ⟨.hbm, 167, rfl⟩
abbrev main_v115 : Ref sig .tc := ⟨.hbm, 168, rfl⟩
abbrev main_c_33 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_34 : Ref sig .tc := ⟨.hbm, 177, rfl⟩
abbrev main_v123 : Ref sig .tc := ⟨.hbm, 178, rfl⟩
abbrev main_v124 : Ref sig .tc := ⟨.hbm, 179, rfl⟩
abbrev main_c_35 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_36 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_c_37 : Ref sig .tc := ⟨.hbm, 192, rfl⟩
abbrev main_v135 : Ref sig .tc := ⟨.hbm, 193, rfl⟩
abbrev main_v136 : Ref sig .tc := ⟨.hbm, 194, rfl⟩
abbrev main_c_38 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_c_39 : Ref sig .tc := ⟨.hbm, 203, rfl⟩
abbrev main_v144 : Ref sig .tc := ⟨.hbm, 204, rfl⟩
abbrev main_v145 : Ref sig .tc := ⟨.hbm, 205, rfl⟩
abbrev main_c_40 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_41 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg2_1 : Ref sig .tc := ⟨.vmem, 26, rfl⟩
abbrev cc6_stg0_0 : Ref sig .tc := ⟨.vmem, 27, rfl⟩
abbrev cc6_stg0_1 : Ref sig .tc := ⟨.vmem, 28, rfl⟩
abbrev cc6_stg1_0 : Ref sig .tc := ⟨.vmem, 29, rfl⟩
abbrev cc6_stg2_0 : Ref sig .tc := ⟨.vmem, 30, rfl⟩
abbrev cc6_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem1_1 : DmaSem sig := 21
abbrev cc5_sem0_0 : DmaSem sig := 22
abbrev cc5_sem0_1 : DmaSem sig := 23
abbrev cc5_sem1_0 : DmaSem sig := 24
abbrev cc5_sem2_0 : DmaSem sig := 25
abbrev cc5_sem2_1 : DmaSem sig := 26
abbrev cc6_sem0_0 : DmaSem sig := 27
abbrev cc6_sem0_1 : DmaSem sig := 28
abbrev cc6_sem1_0 : DmaSem sig := 29
abbrev cc6_sem2_0 : DmaSem sig := 30
abbrev cc6_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2000x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![60], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1000x6x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x6x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![60], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S768x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  inb_S2000x768_S2000x768_0_0 : ∀ a, (![0, 0] : Fin 2 → Nat) a + S2000x768.size a ≤ S2000x768.size a
  h_S2000x768 : 0 < S2000x768.numel
  shapeCasts_S20000x768_S20000x6x128 : S20000x768.ShapeCasts S20000x6x128
  shapeCasts_S2000x768_S2000x6x128 : S2000x768.ShapeCasts S2000x6x128
  reducesTo_S20000x6x128_S20000x128_d1 : S20000x6x128.ReducesTo [1] S20000x128
  h_S_ : 0 < S_.numel
  bcast_S_S20000x128 : S_.BroadcastsInDim S20000x128 (![] : Fin 0 → Fin S20000x128.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S2000x6x128_S2000x128_d1 : S2000x6x128.ReducesTo [1] S2000x128
  bcast_S_S2000x128 : S_.BroadcastsInDim S2000x128 (![] : Fin 0 → Fin S2000x128.rank)
  concatenates_S100000x128_S100000x128_S100000x256_d1 : Shape.Concatenates [S100000x128, S100000x128] S100000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x6_S256x6_0_0 : ∀ a, (![0, 0] : Fin 2 → Nat) a + S256x6.size a ≤ S256x6.size a
  h_S256x6 : 0 < S256x6.numel
  inb_S2000x6_S2000x6_0_0 : ∀ a, (![0, 0] : Fin 2 → Nat) a + S2000x6.size a ≤ S2000x6.size a
  h_S2000x6 : 0 < S2000x6.numel
  shapeCasts_S20000x6x128_S120000x128 : S20000x6x128.ShapeCasts S120000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S120000x128_S20000x6x128 : S120000x128.ShapeCasts S20000x6x128
  bcast_S_S20000x6 : S_.BroadcastsInDim S20000x6 (![] : Fin 0 → Fin S20000x6.rank)
  bcast_S_S2000x6 : S_.BroadcastsInDim S2000x6 (![] : Fin 0 → Fin S2000x6.rank)
  bcast_S100000x6_S100000x6x1_0_1 : S100000x6.BroadcastsInDim S100000x6x1 (![0, 1] : Fin 2 → Fin S100000x6x1.rank)
  bcast_S100000x6x1_S100000x6x128_0_1_2 : S100000x6x1.BroadcastsInDim S100000x6x128 (![0, 1, 2] : Fin 3 → Fin S100000x6x128.rank)
  bcast_S_S2000x6x128 : S_.BroadcastsInDim S2000x6x128 (![] : Fin 0 → Fin S2000x6x128.rank)
  bcast_S_S20000x6x128 : S_.BroadcastsInDim S20000x6x128 (![] : Fin 0 → Fin S20000x6x128.rank)
  bcast_S128_S1x1x128_2 : S128.BroadcastsInDim S1x1x128 (![2] : Fin 1 → Fin S1x1x128.rank)
  bcast_S1x1x128_S20000x6x128_0_1_2 : S1x1x128.BroadcastsInDim S20000x6x128 (![0, 1, 2] : Fin 3 → Fin S20000x6x128.rank)
  inb_S1000x6x128_S1000x6x128_0_0_0 : ∀ a, (![0, 0, 0] : Fin 3 → Nat) a + S1000x6x128.size a ≤ S1000x6x128.size a
  h_S1000x6x128 : 0 < S1000x6x128.numel
  shapeCasts_S1000x6x128_S1000x6x128 : S1000x6x128.ShapeCasts S1000x6x128
  shapeCasts_S20000x6x128_S20000x768 : S20000x6x128.ShapeCasts S20000x768
  shapeCasts_S2000x768_S2000x768 : S2000x768.ShapeCasts S2000x768
  inb_S768x40_S768x40_0_0 : ∀ a, (![0, 0] : Fin 2 → Nat) a + S768x40.size a ≤ S768x40.size a
  h_S768x40 : 0 < S768x40.numel
  inb_S2000x40_S2000x40_0_0 : ∀ a, (![0, 0] : Fin 2 → Nat) a + S2000x40.size a ≤ S2000x40.size a
  h_S2000x40 : 0 < S2000x40.numel
  dot_S2000x128_S128x768_S2000x768_1_0_0_1_n_n_wf : DotDims.WF S2000x128 S128x768 S2000x768 [1] [0] [0] [1] [] []
  gather_S20000x128_S100000x1_S100000x128_1_0_n_n_0_1_1128_wf : GatherDims.WF S20000x128 S100000x1 S100000x128 [1] [0] [] [0] [] 1 ![1, 128]
  gather_S2000x128_S100000x1_S100000x128_1_0_n_n_0_1_1128_wf : GatherDims.WF S2000x128 S100000x1 S100000x128 [1] [0] [] [0] [] 1 ![1, 128]
  dot_S2000x256_S256x6_S2000x6_1_0_0_1_n_n_wf : DotDims.WF S2000x256 S256x6 S2000x6 [1] [0] [0] [1] [] []
  dot_S2000x128_S128x128_S2000x128_1_0_0_1_n_n_wf : DotDims.WF S2000x128 S128x128 S2000x128 [1] [0] [0] [1] [] []
  scatter_S20000x6_S100000x1_S100000x6_1_0_0_1_wf : ScatterDims.WF S20000x6 S100000x1 S100000x6 [1] [0] [0] 1
  scatter_S2000x6_S100000x1_S100000x6_1_0_0_1_wf : ScatterDims.WF S2000x6 S100000x1 S100000x6 [1] [0] [0] 1
  gather_S2000x6_S100000x1_S100000x6_1_0_n_n_0_1_16_wf : GatherDims.WF S2000x6 S100000x1 S100000x6 [1] [0] [] [0] [] 1 ![1, 6]
  gather_S20000x6x128_S100000x1_S100000x6x128_12_0_n_n_0_1_16128_wf : GatherDims.WF S20000x6x128 S100000x1 S100000x6x128 [1, 2] [0] [] [0] [] 1 ![1, 6, 128]
  scatter_S2000x6x128_S100000x1_S100000x6x128_12_0_0_1_wf : ScatterDims.WF S2000x6x128 S100000x1 S100000x6x128 [1, 2] [0] [0] 1
  gather_S20000x6_S100000x1_S100000x6_1_0_n_n_0_1_16_wf : GatherDims.WF S20000x6 S100000x1 S100000x6 [1] [0] [] [0] [] 1 ![1, 6]
  gather_S2000x6x128_S100000x1_S100000x6x128_12_0_n_n_0_1_16128_wf : GatherDims.WF S2000x6x128 S100000x1 S100000x6x128 [1, 2] [0] [] [0] [] 1 ![1, 6, 128]
  scatter_S20000x6x128_S100000x1_S100000x6x128_12_0_0_1_wf : ScatterDims.WF S20000x6x128 S100000x1 S100000x6x128 [1, 2] [0] [0] 1
  dot_S2000x768_S768x40_S2000x40_1_0_0_1_n_n_wf : DotDims.WF S2000x768 S768x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x768.size a ≤ S20000x768.size a
  hwx0_2 : ∀ i : grid0.Coords, EltTy.bits .f32 = 32 ∨ (Rect.block (s := S20000x768) S2000x768.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S2000x128.size a
  hwx1_0 : ∀ i : grid1.Coords, EltTy.bits .f32 = 32 ∨ (Rect.block (s := S2000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x768.size a ≤ S128x768.size a
  hwx1_1 : ∀ i : grid1.Coords, EltTy.bits .f32 = 32 ∨ (Rect.block (s := S128x768) S128x768.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S2000x768.size a ≤ S2000x768.size a
  hwx1_2 : ∀ i : grid1.Coords, EltTy.bits .f32 = 32 ∨ (Rect.block (s := S2000x768) S2000x768.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x6.size a ≤ S256x6.size a
  hwx2_1 : ∀ i : grid2.Coords, EltTy.bits .f32 = 32 ∨ (Rect.block (s := S256x6) S256x6.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x6.size a ≤ S100000x6.size a
  hwx2_2 : ∀ i : grid2.Coords, EltTy.bits .f32 = 32 ∨ (Rect.block (s := S100000x6) S2000x6.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S120000x128.size a
  hwx3_0 : ∀ i : grid3.Coords, EltTy.bits .f32 = 32 ∨ (Rect.block (s := S120000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S120000x128.size a
  hwx3_2 : ∀ i : grid3.Coords, EltTy.bits .f32 = 32 ∨ (Rect.block (s := S120000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x6x128.size a ≤ S20000x6x128.size a
  hwx4_0 : ∀ i : grid4.Coords, EltTy.bits .f32 = 32 ∨ (Rect.block (s := S20000x6x128) S1000x6x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x6x128.size a ≤ S20000x6x128.size a
  hwx4_1 : ∀ i : grid4.Coords, EltTy.bits .f32 = 32 ∨ (Rect.block (s := S20000x6x128) S1000x6x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S120000x128.size a
  hwx5_0 : ∀ i : grid5.Coords, EltTy.bits .f32 = 32 ∨ (Rect.block (s := S120000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S120000x128.size a
  hwx5_2 : ∀ i : grid5.Coords, EltTy.bits .f32 = 32 ∨ (Rect.block (s := S120000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x768.size a ≤ S20000x768.size a
  hwx6_0 : ∀ i : grid6.Coords, EltTy.bits .f32 = 32 ∨ (Rect.block (s := S20000x768) S2000x768.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S768x40.size a ≤ S768x40.size a
  hwx6_1 : ∀ i : grid6.Coords, EltTy.bits .f32 = 32 ∨ (Rect.block (s := S768x40) S768x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S20000x40.size a
  hwx6_2 : ∀ i : grid6.Coords, EltTy.bits .f32 = 32 ∨ (Rect.block (s := S20000x40) S2000x40.size (cc6_transform_2 i) (hinb6_2 i)).WholeWords (EltTy.packing .f32)

variable [Facts₀]

def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S2000x256_S256x6_S2000x6_1_0_0_1_n_n : DotDims S2000x256 S256x6 S2000x6 where
  lhsContracting := [1]
  rhsContracting := [0]
  lhsNonContracting := [0]
  rhsNonContracting := [1]
  lhsBatch := []
  rhsBatch := []
  wf := dot_S2000x256_S256x6_S2000x6_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S20000x6_S100000x1_S100000x6_1_0_0_1 : ScatterDims S20000x6 S100000x1 S100000x6 where
  updateWindowDims := [1]
  insertedWindowDims := [0]
  scatterDimsToOperandDims := [0]
  indexVectorDim := 1
  wf := scatter_S20000x6_S100000x1_S100000x6_1_0_0_1_wf
def scatter_S2000x6_S100000x1_S100000x6_1_0_0_1 : ScatterDims S2000x6 S100000x1 S100000x6 where
  updateWindowDims := [1]
  insertedWindowDims := [0]
  scatterDimsToOperandDims := [0]
  indexVectorDim := 1
  wf := scatter_S2000x6_S100000x1_S100000x6_1_0_0_1_wf
def gather_S2000x6_S100000x1_S100000x6_1_0_n_n_0_1_16 : GatherDims S2000x6 S100000x1 S100000x6 where
  offsetDims := [1]
  collapsedSliceDims := [0]
  operandBatchingDims := []
  startIndicesBatchingDims := []
  startIndexMap := [0]
  indexVectorDim := 1
  sliceSizes := ![1, 6]
  wf := gather_S2000x6_S100000x1_S100000x6_1_0_n_n_0_1_16_wf
def gather_S20000x6x128_S100000x1_S100000x6x128_12_0_n_n_0_1_16128 : GatherDims S20000x6x128 S100000x1 S100000x6x128 where
  offsetDims := [1, 2]
  collapsedSliceDims := [0]
  operandBatchingDims := []
  startIndicesBatchingDims := []
  startIndexMap := [0]
  indexVectorDim := 1
  sliceSizes := ![1, 6, 128]
  wf := gather_S20000x6x128_S100000x1_S100000x6x128_12_0_n_n_0_1_16128_wf
def scatter_S2000x6x128_S100000x1_S100000x6x128_12_0_0_1 : ScatterDims S2000x6x128 S100000x1 S100000x6x128 where
  updateWindowDims := [1, 2]
  insertedWindowDims := [0]
  scatterDimsToOperandDims := [0]
  indexVectorDim := 1
  wf := scatter_S2000x6x128_S100000x1_S100000x6x128_12_0_0_1_wf
def gather_S20000x6_S100000x1_S100000x6_1_0_n_n_0_1_16 : GatherDims S20000x6 S100000x1 S100000x6 where
  offsetDims := [1]
  collapsedSliceDims := [0]
  operandBatchingDims := []
  startIndicesBatchingDims := []
  startIndexMap := [0]
  indexVectorDim := 1
  sliceSizes := ![1, 6]
  wf := gather_S20000x6_S100000x1_S100000x6_1_0_n_n_0_1_16_wf
def gather_S2000x6x128_S100000x1_S100000x6x128_12_0_n_n_0_1_16128 : GatherDims S2000x6x128 S100000x1 S100000x6x128 where
  offsetDims := [1, 2]
  collapsedSliceDims := [0]
  operandBatchingDims := []
  startIndicesBatchingDims := []
  startIndexMap := [0]
  indexVectorDim := 1
  sliceSizes := ![1, 6, 128]
  wf := gather_S2000x6x128_S100000x1_S100000x6x128_12_0_n_n_0_1_16128_wf
def scatter_S20000x6x128_S100000x1_S100000x6x128_12_0_0_1 : ScatterDims S20000x6x128 S100000x1 S100000x6x128 where
  updateWindowDims := [1, 2]
  insertedWindowDims := [0]
  scatterDimsToOperandDims := [0]
  indexVectorDim := 1
  wf := scatter_S20000x6x128_S100000x1_S100000x6x128_12_0_0_1_wf
def dot_S2000x768_S768x40_S2000x40_1_0_0_1_n_n : DotDims S2000x768 S768x40 S2000x40 where
  lhsContracting := [1]
  rhsContracting := [0]
  lhsNonContracting := [0]
  rhsNonContracting := [1]
  lhsBatch := []
  rhsBatch := []
  wf := dot_S2000x768_S768x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2000x768.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S2000x6.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S1000x6x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S1000x6x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v95) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v96) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v159) S2000x768.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S768x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v160) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S20000x128 : Shape := ⟨2, ![20000, 128]⟩
abbrev S2x100000 : Shape := ⟨2, ![2, 100000]⟩
abbrev S2000x128 : Shape := ⟨2, ![2000, 128]⟩
abbrev S128x768 : Shape := ⟨2, ![128, 768]⟩
abbrev S256x6 : Shape := ⟨2, ![256, 6]⟩
abbrev S128x128 : Shape := ⟨2, ![128, 128]⟩
abbrev S128 : Shape := ⟨1, ![128]⟩
abbrev S768x40 : Shape := ⟨2, ![768, 40]⟩
abbrev S1x100000 : Shape := ⟨2, ![1, 100000]⟩
abbrev S100000 : Shape := ⟨1, ![100000]⟩
abbrev S20000x768 : Shape := ⟨2, ![20000, 768]⟩
abbrev S20000x6x128 : Shape := ⟨3, ![20000, 6, 128]⟩
abbrev S2000x768 : Shape := ⟨2, ![2000, 768]⟩
abbrev S2000x6x128 : Shape := ⟨3, ![2000, 6, 128]⟩
abbrev S_ : Shape := ⟨0, ![]⟩
abbrev S100000x1 : Shape := ⟨2, ![100000, 1]⟩
abbrev S100000x128 : Shape := ⟨2, ![100000, 128]⟩
abbrev S100000x256 : Shape := ⟨2, ![100000, 256]⟩
abbrev S100000x6 : Shape := ⟨2, ![100000, 6]⟩
abbrev S20000x6 : Shape := ⟨2, ![20000, 6]⟩
abbrev S2000x6 : Shape := ⟨2, ![2000, 6]⟩
abbrev S100000x6x1 : Shape := ⟨3, ![100000, 6, 1]⟩
abbrev S100000x6x128 : Shape := ⟨3, ![100000, 6, 128]⟩
abbrev S1x1x128 : Shape := ⟨3, ![1, 1, 128]⟩
abbrev S20000x40 : Shape := ⟨2, ![20000, 40]⟩

abbrev nBuf : Space → Nat
  | .hbm => 241
  | .vmem => 0
  | .smem => 0
  | _ => 0

abbrev hbmTy0_0 (i : Nat) : BufTy := match i % 128 with
  | 0 => ⟨S20000x128, .f32⟩
  | 1 => ⟨S2x100000, .i32⟩
  | 2 => ⟨S2000x128, .f32⟩
  | 3 => ⟨S128x768, .f32⟩
  | 4 => ⟨S256x6, .f32⟩
  | 5 => ⟨S128x128, .f32⟩
  | 6 => ⟨S128, .f32⟩
  | 7 => ⟨S128x128, .f32⟩
  | 8 => ⟨S128, .f32⟩
  | 9 => ⟨S768x40, .f32⟩
  | 10 => ⟨S1x100000, .i32⟩
  | 11 => ⟨S100000, .i32⟩
  | 12 => ⟨S1x100000, .i32⟩
  | 13 => ⟨S100000, .i32⟩
  | 14 => ⟨S20000x768, .f32⟩
  | 15 => ⟨S20000x6x128, .f32⟩
  | 16 => ⟨S2000x768, .f32⟩
  | 17 => ⟨S2000x6x128, .f32⟩
  | 18 => ⟨S_, .f32⟩
  | 19 => ⟨S20000x128, .f32⟩
  | 20 => ⟨S_, .f32⟩
  | 21 => ⟨S20000x128, .f32⟩
  | 22 => ⟨S20000x128, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S_, .f32⟩
  | 33 => ⟨S2000x128, .f32⟩
  | 34 => ⟨S_, .f32⟩
  | 35 => ⟨S2000x128, .f32⟩
  | 36 => ⟨S2000x128, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x128, .f32⟩
  | 46 => ⟨S100000x256, .f32⟩
  | 47 => ⟨S100000x6, .f32⟩
  | 48 => ⟨S100000x6, .f32⟩
  | 49 => ⟨S100000x6, .f32⟩
  | 50 => ⟨S_, .f32⟩
  | 51 => ⟨S100000x6, .f32⟩
  | 52 => ⟨S100000x6, .f32⟩
  | 53 => ⟨S_, .f32⟩
  | 54 => ⟨S100000x6, .f32⟩
  | 55 => ⟨S100000x6, .f32⟩
  | 56 => ⟨S20000x6x128, .f32⟩
  | 57 => ⟨S_, .f32⟩
  | 58 => ⟨S20000x6, .f32⟩
  | 59 => ⟨S100000x1, .i32⟩
  | 60 => ⟨S20000x6, .f32⟩
  | 61 => ⟨S_, .f32⟩
  | 62 => ⟨S2000x6, .f32⟩
  | 63 => ⟨S100000x1, .i32⟩
  | 64 => ⟨S2000x6, .f32⟩
  | 65 => ⟨S_, .f32⟩
  | 66 => ⟨S20000x6, .f32⟩
  | 67 => ⟨S20000x6, .i1⟩
  | 68 => ⟨S_, .f32⟩
  | 69 => ⟨S20000x6, .f32⟩
  | 70 => ⟨S20000x6, .f32⟩
  | 71 => ⟨S_, .f32⟩
  | 72 => ⟨S_, .f32⟩
  | 73 => ⟨S20000x6, .f32⟩
  | 74 => ⟨S20000x6, .f32⟩
  | 75 => ⟨S_, .f32⟩
  | 76 => ⟨S2000x6, .f32⟩
  | 77 => ⟨S2000x6, .i1⟩
  | 78 => ⟨S_, .f32⟩
  | 79 => ⟨S2000x6, .f32⟩
  | 80 => ⟨S2000x6, .f32⟩
  | 81 => ⟨S_, .f32⟩
  | 82 => ⟨S_, .f32⟩
  | 83 => ⟨S2000x6, .f32⟩
  | 84 => ⟨S2000x6, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000x6, .f32⟩
  | 94 => ⟨S100000x6, .f32⟩
  | 95 => ⟨S100000x6x1, .f32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000x6x128, .f32⟩
  | 105 => ⟨S100000x6x128, .f32⟩
  | 106 => ⟨S100000x6x128, .f32⟩
  | 107 => ⟨S_, .f32⟩
  | 108 => ⟨S2000x6x128, .f32⟩
  | 109 => ⟨S100000x1, .i32⟩
  | 110 => ⟨S2000x6x128, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x6, .f32⟩
  | 120 => ⟨S100000x6, .f32⟩
  | 121 => ⟨S100000x6x1, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S20000x128, .f32⟩

abbrev hbmTy0_1 (i : Nat) : BufTy := match i % 128 with
  | 0 => ⟨S100000, .i32⟩
  | 1 => ⟨S100000x1, .i32⟩
  | 2 => ⟨S100000x6x128, .f32⟩
  | 3 => ⟨S100000x6x128, .f32⟩
  | 4 => ⟨S100000x6x128, .f32⟩
  | 5 => ⟨S_, .f32⟩
  | 6 => ⟨S20000x6x128, .f32⟩
  | 7 => ⟨S100000x1, .i32⟩
  | 8 => ⟨S20000x6x128, .f32⟩
  | 9 => ⟨S1x1x128, .f32⟩
  | 10 => ⟨S20000x6x128, .f32⟩
  | 11 => ⟨S20000x6x128, .f32⟩
  | 12 => ⟨S_, .f32⟩
  | 13 => ⟨S20000x6x128, .f32⟩
  | 14 => ⟨S20000x6x128, .i1⟩
  | 15 => ⟨S_, .f32⟩
  | 16 => ⟨S20000x6x128, .f32⟩
  | 17 => ⟨S20000x6x128, .i1⟩
  | 18 => ⟨S_, .f32⟩
  | 19 => ⟨S_, .f32⟩
  | 20 => ⟨S20000x6x128, .f32⟩
  | 21 => ⟨S20000x6x128, .f32⟩
  | 22 => ⟨S20000x6x128, .f32⟩
  | 23 => ⟨S_, .f32⟩
  | 24 => ⟨S20000x6x128, .f32⟩
  | 25 => ⟨S20000x6x128, .f32⟩
  | 26 => ⟨S20000x6x128, .f32⟩
  | 27 => ⟨S20000x6x128, .f32⟩
  | 28 => ⟨S_, .f32⟩
  | 29 => ⟨S20000x6, .f32⟩
  | 30 => ⟨S100000x1, .i32⟩
  | 31 => ⟨S20000x6, .f32⟩
  | 32 => ⟨S_, .f32⟩
  | 33 => ⟨S2000x6, .f32⟩
  | 34 => ⟨S100000x1, .i32⟩
  | 35 => ⟨S2000x6, .f32⟩
  | 36 => ⟨S_, .f32⟩
  | 37 => ⟨S20000x6, .f32⟩
  | 38 => ⟨S20000x6, .i1⟩
  | 39 => ⟨S_, .f32⟩
  | 40 => ⟨S20000x6, .f32⟩
  | 41 => ⟨S20000x6, .f32⟩
  | 42 => ⟨S_, .f32⟩
  | 43 => ⟨S_, .f32⟩
  | 44 => ⟨S20000x6, .f32⟩
  | 45 => ⟨S20000x6, .f32⟩
  | 46 => ⟨S_, .f32⟩
  | 47 => ⟨S2000x6, .f32⟩
  | 48 => ⟨S2000x6, .i1⟩
  | 49 => ⟨S_, .f32⟩
  | 50 => ⟨S2000x6, .f32⟩
  | 51 => ⟨S2000x6, .f32⟩
  | 52 => ⟨S_, .f32⟩
  | 53 => ⟨S_, .f32⟩
  | 54 => ⟨S2000x6, .f32⟩
  | 55 => ⟨S2000x6, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x6, .f32⟩
  | 65 => ⟨S100000x6, .f32⟩
  | 66 => ⟨S100000x6x1, .f32⟩
  | 67 => ⟨S_, .i32⟩
  | 68 => ⟨S100000, .i32⟩
  | 69 => ⟨S100000, .i1⟩
  | 70 => ⟨S_, .i32⟩
  | 71 => ⟨S100000, .i32⟩
  | 72 => ⟨S100000, .i32⟩
  | 73 => ⟨S100000, .i32⟩
  | 74 => ⟨S100000x1, .i32⟩
  | 75 => ⟨S100000x6x128, .f32⟩
  | 76 => ⟨S100000x6x128, .f32⟩
  | 77 => ⟨S100000x6x128, .f32⟩
  | 78 => ⟨S_, .f32⟩
  | 79 => ⟨S2000x6x128, .f32⟩
  | 80 => ⟨S100000x1, .i32⟩
  | 81 => ⟨S2000x6x128, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x6, .f32⟩
  | 91 => ⟨S100000x6, .f32⟩
  | 92 => ⟨S100000x6x1, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x6x128, .f32⟩
  | 102 => ⟨S100000x6x128, .f32⟩
  | 103 => ⟨S100000x6x128, .f32⟩
  | 104 => ⟨S_, .f32⟩
  | 105 => ⟨S20000x6x128, .f32⟩
  | 106 => ⟨S100000x1, .i32⟩
  | 107 => ⟨S20000x6x128, .f32⟩
  | 108 => ⟨S1x1x128, .f32⟩
  | 109 => ⟨S20000x6x128, .f32⟩
  | 110 => ⟨S20000x6x128, .f32⟩
  | 111 => ⟨S20000x768, .f32⟩
  | 112 => ⟨S20000x40, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_call0_v0 : Ref sig .tc := ⟨.hbm, 72, rfl⟩
abbrev main_call0_v1 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_call1_v0 : Ref sig .tc := ⟨.hbm, 82, rfl⟩
abbrev main_call1_v1 : Ref sig .tc := ⟨.hbm, 83, rfl⟩
abbrev main_v52 : Ref sig .tc := ⟨.hbm, 84, rfl⟩
abbrev main_c_16 : Ref sig .tc := ⟨.hbm, 85, rfl⟩
abbrev main_v53 : Ref sig .tc := ⟨.hbm, 86, rfl⟩
abbrev main_v54 : Ref sig .tc := ⟨.hbm, 87, rfl⟩
abbrev main_c_17 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_18 : Ref sig .tc := ⟨.hbm, 96, rfl⟩
abbrev main_v62 : Ref sig .tc := ⟨.hbm, 97, rfl⟩
abbrev main_v63 : Ref sig .tc := ⟨.hbm, 98, rfl⟩
abbrev main_c_19 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_20 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_21 : Ref sig .tc := ⟨.hbm, 111, rfl⟩
abbrev main_v74 : Ref sig .tc := ⟨.hbm, 112, rfl⟩
abbrev main_v75 : Ref sig .tc := ⟨.hbm, 113, rfl⟩
abbrev main_c_22 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_23 : Ref sig .tc := ⟨.hbm, 122, rfl⟩
abbrev main_v83 : Ref sig .tc := ⟨.hbm, 123, rfl⟩
abbrev main_v84 : Ref sig .tc := ⟨.hbm, 124, rfl⟩
abbrev main_c_24 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_25 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call2_cst : Ref sig .tc := ⟨.hbm, 140, rfl⟩
abbrev main_call2_v0 : Ref sig .tc := ⟨.hbm, 141, rfl⟩
abbrev main_call2_v1 : Ref sig .tc := ⟨.hbm, 142, rfl⟩
abbrev main_call2_cst_0 : Ref sig .tc := ⟨.hbm, 143, rfl⟩
abbrev main_call2_v2 : Ref sig .tc := ⟨.hbm, 144, rfl⟩
abbrev main_call2_v3 : Ref sig .tc := ⟨.hbm, 145, rfl⟩
abbrev main_call2_cst_1 : Ref sig .tc := ⟨.hbm, 146, rfl⟩
abbrev main_call2_call0_v0 : Ref sig .tc := ⟨.hbm, 147, rfl⟩
abbrev main_call2_call0_v1 : Ref sig .tc := ⟨.hbm, 148, rfl⟩
abbrev main_call2_v4 : Ref sig .tc := ⟨.hbm, 149, rfl⟩
abbrev main_call2_v5 : Ref sig .tc := ⟨.hbm, 150, rfl⟩
abbrev main_call2_cst_2 : Ref sig .tc := ⟨.hbm, 151, rfl⟩
abbrev main_call2_v6 : Ref sig .tc := ⟨.hbm, 152, rfl⟩
abbrev main_call2_v7 : Ref sig .tc := ⟨.hbm, 153, rfl⟩
abbrev main_v98 : Ref sig .tc := ⟨.hbm, 154, rfl⟩
abbrev main_v99 : Ref sig .tc := ⟨.hbm, 155, rfl⟩
abbrev main_cst_26 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_27 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_28 : Ref sig .tc := ⟨.hbm, 164, rfl⟩
abbrev main_v106 : Ref sig .tc := ⟨.hbm, 165, rfl⟩
abbrev main_v107 : Ref sig .tc := ⟨.hbm, 166, rfl⟩
abbrev main_cst_29 : Ref sig .tc := ⟨.hbm, 167, rfl⟩
abbrev main_v108 : Ref sig .tc := ⟨.hbm, 168, rfl⟩
abbrev main_v109 : Ref sig .tc := ⟨.hbm, 169, rfl⟩
abbrev main_cst_30 : Ref sig .tc := ⟨.hbm, 170, rfl⟩
abbrev main_call3_v0 : Ref sig .tc := ⟨.hbm, 171, rfl⟩
abbrev main_call3_v1 : Ref sig .tc := ⟨.hbm, 172, rfl⟩
abbrev main_v110 : Ref sig .tc := ⟨.hbm, 173, rfl⟩
abbrev main_cst_31 : Ref sig .tc := ⟨.hbm, 174, rfl⟩
abbrev main_v111 : Ref sig .tc := ⟨.hbm, 175, rfl⟩
abbrev main_v112 : Ref sig .tc := ⟨.hbm, 176, rfl⟩
abbrev main_cst_32 : Ref sig .tc := ⟨.hbm, 177, rfl⟩
abbrev main_v113 : Ref sig .tc := ⟨.hbm, 178, rfl⟩
abbrev main_v114 : Ref sig .tc := ⟨.hbm, 179, rfl⟩
abbrev main_cst_33 : Ref sig .tc := ⟨.hbm, 180, rfl⟩
abbrev main_call4_v0 : Ref sig .tc := ⟨.hbm, 181, rfl⟩
abbrev main_call4_v1 : Ref sig .tc := ⟨.hbm, 182, rfl⟩
abbrev main_v115 : Ref sig .tc := ⟨.hbm, 183, rfl⟩
abbrev main_c_34 : Ref sig .tc := ⟨.hbm, 184, rfl⟩
abbrev main_v116 : Ref sig .tc := ⟨.hbm, 185, rfl⟩
abbrev main_v117 : Ref sig .tc := ⟨.hbm, 186, rfl⟩
abbrev main_c_35 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_c_36 : Ref sig .tc := ⟨.hbm, 195, rfl⟩
abbrev main_v125 : Ref sig .tc := ⟨.hbm, 196, rfl⟩
abbrev main_v126 : Ref sig .tc := ⟨.hbm, 197, rfl⟩
abbrev main_c_37 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_38 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_c_39 : Ref sig .tc := ⟨.hbm, 210, rfl⟩
abbrev main_v137 : Ref sig .tc := ⟨.hbm, 211, rfl⟩
abbrev main_v138 : Ref sig .tc := ⟨.hbm, 212, rfl⟩
abbrev main_c_40 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_41 : Ref sig .tc := ⟨.hbm, 221, rfl⟩
abbrev main_v146 : Ref sig .tc := ⟨.hbm, 222, rfl⟩
abbrev main_v147 : Ref sig .tc := ⟨.hbm, 223, rfl⟩
abbrev main_c_42 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_cst_43 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  shapeCasts_S20000x768_S20000x6x128 : S20000x768.ShapeCasts S20000x6x128
  shapeCasts_S2000x768_S2000x6x128 : S2000x768.ShapeCasts S2000x6x128
  reducesTo_S20000x6x128_S20000x128_d1 : S20000x6x128.ReducesTo [1] S20000x128
  h_S_ : 0 < S_.numel
  bcast_S_S20000x128 : S_.BroadcastsInDim S20000x128 (![] : Fin 0 → Fin S20000x128.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S2000x6x128_S2000x128_d1 : S2000x6x128.ReducesTo [1] S2000x128
  bcast_S_S2000x128 : S_.BroadcastsInDim S2000x128 (![] : Fin 0 → Fin S2000x128.rank)
  concatenates_S100000x128_S100000x128_S100000x256_d1 : Shape.Concatenates [S100000x128, S100000x128] S100000x256 1
  bcast_S_S100000x6 : S_.BroadcastsInDim S100000x6 (![] : Fin 0 → Fin S100000x6.rank)
  bcast_S_S20000x6 : S_.BroadcastsInDim S20000x6 (![] : Fin 0 → Fin S20000x6.rank)
  bcast_S_S2000x6 : S_.BroadcastsInDim S2000x6 (![] : Fin 0 → Fin S2000x6.rank)
  bcast_S100000x6_S100000x6x1_0_1 : S100000x6.BroadcastsInDim S100000x6x1 (![0, 1] : Fin 2 → Fin S100000x6x1.rank)
  bcast_S100000x6x1_S100000x6x128_0_1_2 : S100000x6x1.BroadcastsInDim S100000x6x128 (![0, 1, 2] : Fin 3 → Fin S100000x6x128.rank)
  bcast_S_S2000x6x128 : S_.BroadcastsInDim S2000x6x128 (![] : Fin 0 → Fin S2000x6x128.rank)
  bcast_S_S20000x6x128 : S_.BroadcastsInDim S20000x6x128 (![] : Fin 0 → Fin S20000x6x128.rank)
  bcast_S128_S1x1x128_2 : S128.BroadcastsInDim S1x1x128 (![2] : Fin 1 → Fin S1x1x128.rank)
  bcast_S1x1x128_S20000x6x128_0_1_2 : S1x1x128.BroadcastsInDim S20000x6x128 (![0, 1, 2] : Fin 3 → Fin S20000x6x128.rank)
  shapeCasts_S20000x6x128_S20000x768 : S20000x6x128.ShapeCasts S20000x768
  dot_S20000x128_S128x768_S20000x768_1_0_0_1_n_n_wf : DotDims.WF S20000x128 S128x768 S20000x768 [1] [0] [0] [1] [] []
  dot_S2000x128_S128x768_S2000x768_1_0_0_1_n_n_wf : DotDims.WF S2000x128 S128x768 S2000x768 [1] [0] [0] [1] [] []
  gather_S20000x128_S100000x1_S100000x128_1_0_n_n_0_1_1128_wf : GatherDims.WF S20000x128 S100000x1 S100000x128 [1] [0] [] [0] [] 1 ![1, 128]
  gather_S2000x128_S100000x1_S100000x128_1_0_n_n_0_1_1128_wf : GatherDims.WF S2000x128 S100000x1 S100000x128 [1] [0] [] [0] [] 1 ![1, 128]
  dot_S100000x256_S256x6_S100000x6_1_0_0_1_n_n_wf : DotDims.WF S100000x256 S256x6 S100000x6 [1] [0] [0] [1] [] []
  dot_S20000x6x128_S128x128_S20000x6x128_2_0_01_1_n_n_wf : DotDims.WF S20000x6x128 S128x128 S20000x6x128 [2] [0] [0, 1] [1] [] []
  scatter_S20000x6_S100000x1_S100000x6_1_0_0_1_wf : ScatterDims.WF S20000x6 S100000x1 S100000x6 [1] [0] [0] 1
  scatter_S2000x6_S100000x1_S100000x6_1_0_0_1_wf : ScatterDims.WF S2000x6 S100000x1 S100000x6 [1] [0] [0] 1
  gather_S2000x6_S100000x1_S100000x6_1_0_n_n_0_1_16_wf : GatherDims.WF S2000x6 S100000x1 S100000x6 [1] [0] [] [0] [] 1 ![1, 6]
  gather_S20000x6x128_S100000x1_S100000x6x128_12_0_n_n_0_1_16128_wf : GatherDims.WF S20000x6x128 S100000x1 S100000x6x128 [1, 2] [0] [] [0] [] 1 ![1, 6, 128]
  scatter_S2000x6x128_S100000x1_S100000x6x128_12_0_0_1_wf : ScatterDims.WF S2000x6x128 S100000x1 S100000x6x128 [1, 2] [0] [0] 1
  gather_S20000x6_S100000x1_S100000x6_1_0_n_n_0_1_16_wf : GatherDims.WF S20000x6 S100000x1 S100000x6 [1] [0] [] [0] [] 1 ![1, 6]
  gather_S2000x6x128_S100000x1_S100000x6x128_12_0_n_n_0_1_16128_wf : GatherDims.WF S2000x6x128 S100000x1 S100000x6x128 [1, 2] [0] [] [0] [] 1 ![1, 6, 128]
  scatter_S20000x6x128_S100000x1_S100000x6x128_12_0_0_1_wf : ScatterDims.WF S20000x6x128 S100000x1 S100000x6x128 [1, 2] [0] [0] 1
  dot_S20000x768_S768x40_S20000x40_1_0_0_1_n_n_wf : DotDims.WF S20000x768 S768x40 S20000x40 [1] [0] [0] [1] [] []

variable [Facts₀]

def dot_S20000x128_S128x768_S20000x768_1_0_0_1_n_n : DotDims S20000x128 S128x768 S20000x768 where
  lhsContracting := [1]
  rhsContracting := [0]
  lhsNonContracting := [0]
  rhsNonContracting := [1]
  lhsBatch := []
  rhsBatch := []
  wf := dot_S20000x128_S128x768_S20000x768_1_0_0_1_n_n_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S100000x256_S256x6_S100000x6_1_0_0_1_n_n : DotDims S100000x256 S256x6 S100000x6 where
  lhsContracting := [1]
  rhsContracting := [0]
  lhsNonContracting := [0]
  rhsNonContracting := [1]
  lhsBatch := []
  rhsBatch := []
  wf := dot_S100000x256_S256x6_S100000x6_1_0_0_1_n_n_wf
def dot_S20000x6x128_S128x128_S20000x6x128_2_0_01_1_n_n : DotDims S20000x6x128 S128x128 S20000x6x128 where
  lhsContracting := [2]
  rhsContracting := [0]
  lhsNonContracting := [0, 1]
  rhsNonContracting := [1]
  lhsBatch := []
  rhsBatch := []
  wf := dot_S20000x6x128_S128x128_S20000x6x128_2_0_01_1_n_n_wf
def scatter_S20000x6_S100000x1_S100000x6_1_0_0_1 : ScatterDims S20000x6 S100000x1 S100000x6 where
  updateWindowDims := [1]
  insertedWindowDims := [0]
  scatterDimsToOperandDims := [0]
  indexVectorDim := 1
  wf := scatter_S20000x6_S100000x1_S100000x6_1_0_0_1_wf
def scatter_S2000x6_S100000x1_S100000x6_1_0_0_1 : ScatterDims S2000x6 S100000x1 S100000x6 where
  updateWindowDims := [1]
  insertedWindowDims := [0]
  scatterDimsToOperandDims := [0]
  indexVectorDim := 1
  wf := scatter_S2000x6_S100000x1_S100000x6_1_0_0_1_wf
def gather_S2000x6_S100000x1_S100000x6_1_0_n_n_0_1_16 : GatherDims S2000x6 S100000x1 S100000x6 where
  offsetDims := [1]
  collapsedSliceDims := [0]
  operandBatchingDims := []
  startIndicesBatchingDims := []
  startIndexMap := [0]
  indexVectorDim := 1
  sliceSizes := ![1, 6]
  wf := gather_S2000x6_S100000x1_S100000x6_1_0_n_n_0_1_16_wf
def gather_S20000x6x128_S100000x1_S100000x6x128_12_0_n_n_0_1_16128 : GatherDims S20000x6x128 S100000x1 S100000x6x128 where
  offsetDims := [1, 2]
  collapsedSliceDims := [0]
  operandBatchingDims := []
  startIndicesBatchingDims := []
  startIndexMap := [0]
  indexVectorDim := 1
  sliceSizes := ![1, 6, 128]
  wf := gather_S20000x6x128_S100000x1_S100000x6x128_12_0_n_n_0_1_16128_wf
def scatter_S2000x6x128_S100000x1_S100000x6x128_12_0_0_1 : ScatterDims S2000x6x128 S100000x1 S100000x6x128 where
  updateWindowDims := [1, 2]
  insertedWindowDims := [0]
  scatterDimsToOperandDims := [0]
  indexVectorDim := 1
  wf := scatter_S2000x6x128_S100000x1_S100000x6x128_12_0_0_1_wf
def gather_S20000x6_S100000x1_S100000x6_1_0_n_n_0_1_16 : GatherDims S20000x6 S100000x1 S100000x6 where
  offsetDims := [1]
  collapsedSliceDims := [0]
  operandBatchingDims := []
  startIndicesBatchingDims := []
  startIndexMap := [0]
  indexVectorDim := 1
  sliceSizes := ![1, 6]
  wf := gather_S20000x6_S100000x1_S100000x6_1_0_n_n_0_1_16_wf
def gather_S2000x6x128_S100000x1_S100000x6x128_12_0_n_n_0_1_16128 : GatherDims S2000x6x128 S100000x1 S100000x6x128 where
  offsetDims := [1, 2]
  collapsedSliceDims := [0]
  operandBatchingDims := []
  startIndicesBatchingDims := []
  startIndexMap := [0]
  indexVectorDim := 1
  sliceSizes := ![1, 6, 128]
  wf := gather_S2000x6x128_S100000x1_S100000x6x128_12_0_n_n_0_1_16128_wf
def scatter_S20000x6x128_S100000x1_S100000x6x128_12_0_0_1 : ScatterDims S20000x6x128 S100000x1 S100000x6x128 where
  updateWindowDims := [1, 2]
  insertedWindowDims := [0]
  scatterDimsToOperandDims := [0]
  indexVectorDim := 1
  wf := scatter_S20000x6x128_S100000x1_S100000x6x128_12_0_0_1_wf
def dot_S20000x768_S768x40_S20000x40_1_0_0_1_n_n : DotDims S20000x768 S768x40 S20000x40 where
  lhsContracting := [1]
  rhsContracting := [0]
  lhsNonContracting := [0]
  rhsNonContracting := [1]
  lhsBatch := []
  rhsBatch := []
  wf := dot_S20000x768_S768x40_S20000x40_1_0_0_1_n_n_wf

class Facts : Prop extends Facts₀ where

variable [Facts]
-- ==== Proof.KRun.lean ====
/-
  The idealized kernel program's run with its RESULT named: every weakly fair execution from a memory with zero counters
  terminates without a fault; the returned array ends at the last boundary's contents of its buffer (the fold of the host
  stretches and the seven regions' write-backs from the launch memory), and the ten argument arrays end as launched.
  The launch over the program's twenty-one segments is the frame's; only the final reading also reads the result buffer.
-/
import proofs.«106504_j2594160246965_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the returned buffer read at the last boundary's contents. -/
theorem run_result : θ_run defs (onTc (τ := τ) (main (F := F))) ⟨m, fun _ => 0, ρ⟩ (fun r => ∀ c : Dev nD,
      r.2.mem ((c.tc : Thread nD τ).loc main_v160) = W21 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v160 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c)⟩)

end Cert.KernelIdeal.Gen

end
-- ==== Proof.RefOps.lean ====
/- The reference program's @main as ten consecutive stretches of host operations: the index vectors; the two feature
   projections and their reshapes; the per-incidence means, gathers and their concatenation; the logistic map of the sheaf
   logits; the first channel mixing; the first message passing with its bias; the exponential linear unit; the second
   channel mixing; the second message passing with its bias; the final reshape and classifier product. -/
import proofs.«106504_j2594160246965_1_alg».proof.Proof.Gen.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo
open Cert.ReferenceIdeal.Facts₀

variable {F : FTy → Type} [FloatOps F]

/-- Stretch 0: 4 operations. -/
abbrev seg0 : List (HloOp τ sig (Elt F)) :=
  [ StableHlo.unary main_arg1 main_v0 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v0 main_v1 rfl shapeCasts_S1x100000_S100000,
    StableHlo.unary main_arg1 main_v2 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v2 main_v3 rfl shapeCasts_S1x100000_S100000 ]
theorem seg0_sub : (seg0 : List (HloOp τ sig (Elt F))).Forall fun op => op.bufs ⊆ tcRefs τ sig :=
  ⟨StableHlo.unary_bufs_sub .., StableHlo.reshape_bufs_sub .., StableHlo.unary_bufs_sub .., StableHlo.reshape_bufs_sub ..⟩

/-- Stretch 1: 4 operations. -/
abbrev seg1 : List (HloOp τ sig (Elt F)) :=
  [ StableHlo.binary main_arg0 main_arg3 main_v4 ((fun l r => Host.dotGeneral dot_S20000x128_S128x768_S20000x768_1_0_0_1_n_n none l r) : (⟨S20000x128, .f32⟩ : BufTy).Contents (Elt F) → (⟨S128x768, .f32⟩ : BufTy).Contents (Elt F) → (⟨S20000x768, .f32⟩ : BufTy).Contents (Elt F)),
    StableHlo.reshape main_v4 main_v5 rfl shapeCasts_S20000x768_S20000x6x128,
    StableHlo.binary main_arg2 main_arg3 main_v6 ((fun l r => Host.dotGeneral dot_S2000x128_S128x768_S2000x768_1_0_0_1_n_n none l r) : (⟨S2000x128, .f32⟩ : BufTy).Contents (Elt F) → (⟨S128x768, .f32⟩ : BufTy).Contents (Elt F) → (⟨S2000x768, .f32⟩ : BufTy).Contents (Elt F)),
    StableHlo.reshape main_v6 main_v7 rfl shapeCasts_S2000x768_S2000x6x128 ]
theorem seg1_sub : (seg1 : List (HloOp τ sig (Elt F))).Forall fun op => op.bufs ⊆ tcRefs τ sig :=
  ⟨StableHlo.binary_bufs_sub .., StableHlo.reshape_bufs_sub .., StableHlo.binary_bufs_sub .., StableHlo.reshape_bufs_sub ..⟩

/-- Stretch 2: 29 operations. -/
abbrev seg2 : List (HloOp τ sig (Elt F)) :=
  [ StableHlo.nullary main_cst (constant S_ .f32 0x00000000#32),
    StableHlo.binary main_v5 main_cst main_v8 ((fun x v => Host.reduceAdd x v reducesTo_S20000x6x128_S20000x128_d1 h_S_) : (⟨S20000x6x128, .f32⟩ : BufTy).Contents (Elt F) → (⟨S_, .f32⟩ : BufTy).Contents (Elt F) → (⟨S20000x128, .f32⟩ : BufTy).Contents (Elt F)),
    StableHlo.nullary main_cst_0 (constant S_ .f32 0x40C00000#32),
    StableHlo.unary main_cst_0 main_v9 (broadcastInDim S20000x128 ![] bcast_S_S20000x128 : (⟨S_, .f32⟩ : BufTy).Contents (Elt F) → (⟨S20000x128, .f32⟩ : BufTy).Contents (Elt F)),
    StableHlo.binary main_v8 main_v9 main_v10 (Host.divf : (⟨S20000x128, .f32⟩ : BufTy).Contents (Elt F) → (⟨S20000x128, .f32⟩ : BufTy).Contents (Elt F) → (⟨S20000x128, .f32⟩ : BufTy).Contents (Elt F)),
    StableHlo.nullary main_c (constantI S_ 32 0#32),
    StableHlo.unary main_c main_v11 (broadcastInDim S100000 ![] bcast_S_S100000 : (⟨S_, .i32⟩ : BufTy).Contents (Elt F) → (⟨S100000, .i32⟩ : BufTy).Contents (Elt F)),
    StableHlo.binary main_v1 main_v11 main_v12 (cmpi .slt : (⟨S100000, .i32⟩ : BufTy).Contents (Elt F) → (⟨S100000, .i32⟩ : BufTy).Contents (Elt F) → (⟨S100000, .i1⟩ : BufTy).Contents (Elt F)),
    StableHlo.nullary main_c_1 (constantI S_ 32 20000#32),
    StableHlo.unary main_c_1 main_v13 (broadcastInDim S100000 ![] bcast_S_S100000 : (⟨S_, .i32⟩ : BufTy).Contents (Elt F) → (⟨S100000, .i32⟩ : BufTy).Contents (Elt F)),
    StableHlo.binary main_v1 main_v13 main_v14 (addi : (⟨S100000, .i32⟩ : BufTy).Contents (Elt F) → (⟨S100000, .i32⟩ : BufTy).Contents (Elt F) → (⟨S100000, .i32⟩ : BufTy).Contents (Elt F)),
    StableHlo.ternary main_v12 main_v14 main_v1 main_v15 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v15 main_v16 (broadcastInDim S100000x1 ![0] bcast_S100000_S100000x1_0 : (⟨S100000, .i32⟩ : BufTy).Contents (Elt F) → (⟨S100000x1, .i32⟩ : BufTy).Contents (Elt F)),
    StableHlo.binary main_v10 main_v16 main_v17 ((fun x i => Host.gather gather_S20000x128_S100000x1_S100000x128_1_0_n_n_0_1_1128 x i) : (⟨S20000x128, .f32⟩ : BufTy).Contents (Elt F) → (⟨S100000x1, .i32⟩ : BufTy).Contents (Elt F) → (⟨S100000x128, .f32⟩ : BufTy).Contents (Elt F)),
    StableHlo.nullary main_cst_2 (constant S_ .f32 0x00000000#32),
    StableHlo.binary main_v7 main_cst_2 main_v18 ((fun x v => Host.reduceAdd x v reducesTo_S2000x6x128_S2000x128_d1 h_S_) : (⟨S2000x6x128, .f32⟩ : BufTy).Contents (Elt F) → (⟨S_, .f32⟩ : BufTy).Contents (Elt F) → (⟨S2000x128, .f32⟩ : BufTy).Contents (Elt F)),
    StableHlo.nullary main_cst_3 (constant S_ .f32 0x40C00000#32),
    StableHlo.unary main_cst_3 main_v19 (broadcastInDim S2000x128 ![] bcast_S_S2000x128 : (⟨S_, .f32⟩ : BufTy).Contents (Elt F) → (⟨S2000x128, .f32⟩ : BufTy).Contents (Elt F)),
    StableHlo.binary main_v18 main_v19 main_v20 (Host.divf : (⟨S2000x128, .f32⟩ : BufTy).Contents (Elt F) → (⟨S2000x128, .f32⟩ : BufTy).Contents (Elt F) → (⟨S2000x128, .f32⟩ : BufTy).Contents (Elt F)),
    StableHlo.nullary main_c_4 (constantI S_ 32 0#32),
    StableHlo.unary main_c_4 main_v21 (broadcastInDim S100000 ![] bcast_S_S100000 : (⟨S_, .i32⟩ : BufTy).Contents (Elt F) → (⟨S100000, .i32⟩ : BufTy).Contents (Elt F)),
    StableHlo.binary main_v3 main_v21 main_v22 (cmpi .slt : (⟨S100000, .i32⟩ : BufTy).Contents (Elt F) → (⟨S100000, .i32⟩ : BufTy).Contents (Elt F) → (⟨S100000, .i1⟩ : BufTy).Contents (Elt F)),
    StableHlo.nullary main_c_5 (constantI S_ 32 2000#32),
    StableHlo.unary main_c_5 main_v23 (broadcastInDim S100000 ![] bcast_S_S100000 : (⟨S_, .i32⟩ : BufTy).Contents (Elt F) → (⟨S100000, .i32⟩ : BufTy).Contents (Elt F)),
    StableHlo.binary main_v3 main_v23 main_v24 (addi : (⟨S100000, .i32⟩ : BufTy).Contents (Elt F) → (⟨S100000, .i32⟩ : BufTy).Contents (Elt F) → (⟨S100000, .i32⟩ : BufTy).Contents (Elt F)),
    StableHlo.ternary main_v22 main_v24 main_v3 main_v25 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v25 main_v26 (broadcastInDim S100000x1 ![0] bcast_S100000_S100000x1_0 : (⟨S100000, .i32⟩ : BufTy).Contents (Elt F) → (⟨S100000x1, .i32⟩ : BufTy).Contents (Elt F)),
    StableHlo.binary main_v20 main_v26 main_v27 ((fun x i => Host.gather gather_S2000x128_S100000x1_S100000x128_1_0_n_n_0_1_1128 x i) : (⟨S2000x128, .f32⟩ : BufTy).Contents (Elt F) → (⟨S100000x1, .i32⟩ : BufTy).Contents (Elt F) → (⟨S100000x128, .f32⟩ : BufTy).Contents (Elt F)),
    StableHlo.binary main_v17 main_v27 main_v28 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]
theorem seg2_sub : (seg2 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Stretch 3: 9 operations. -/
abbrev seg3 : List (HloOp τ sig (Elt F)) :=
  [ StableHlo.binary main_v28 main_arg4 main_v29 ((fun l r => Host.dotGeneral dot_S100000x256_S256x6_S100000x6_1_0_0_1_n_n none l r) : (⟨S100000x256, .f32⟩ : BufTy).Contents (Elt F) → (⟨S256x6, .f32⟩ : BufTy).Contents (Elt F) → (⟨S100000x6, .f32⟩ : BufTy).Contents (Elt F)),
    StableHlo.unary main_v29 main_v30 (Host.negf : (⟨S100000x6, .f32⟩ : BufTy).Contents (Elt F) → (⟨S100000x6, .f32⟩ : BufTy).Contents (Elt F)),
    StableHlo.unary main_v30 main_v31 (Host.exp : (⟨S100000x6, .f32⟩ : BufTy).Contents (Elt F) → (⟨S100000x6, .f32⟩ : BufTy).Contents (Elt F)),
    StableHlo.nullary main_cst_6 (constant S_ .f32 0x3F800000#32),
    StableHlo.unary main_cst_6 main_v32 (broadcastInDim S100000x6 ![] bcast_S_S100000x6 : (⟨S_, .f32⟩ : BufTy).Contents (Elt F) → (⟨S100000x6, .f32⟩ : BufTy).Contents (Elt F)),
    StableHlo.binary main_v32 main_v31 main_v33 (addf : (⟨S100000x6, .f32⟩ : BufTy).Contents (Elt F) → (⟨S100000x6, .f32⟩ : BufTy).Contents (Elt F) → (⟨S100000x6, .f32⟩ : BufTy).Contents (Elt F)),
    StableHlo.nullary main_cst_7 (constant S_ .f32 0x3F800000#32),
    StableHlo.unary main_cst_7 main_v34 (broadcastInDim S100000x6 ![] bcast_S_S100000x6 : (⟨S_, .f32⟩ : BufTy).Contents (Elt F) → (⟨S100000x6, .f32⟩ : BufTy).Contents (Elt F)),
    StableHlo.binary main_v34 main_v33 main_v35 (Host.divf : (⟨S100000x6, .f32⟩ : BufTy).Contents (Elt F) → (⟨S100000x6, .f32⟩ : BufTy).Contents (Elt F) → (⟨S100000x6, .f32⟩ : BufTy).Contents (Elt F)) ]
theorem seg3_sub : (seg3 : List (HloOp τ sig (Elt F))).Forall fun op => op.bufs ⊆ tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- Stretch 4: 1 operations. -/
abbrev seg4 : List (HloOp τ sig (Elt F)) :=
  [ StableHlo.binary main_v5 main_arg5 main_v36 ((fun l r => Host.dotGeneral dot_S20000x6x128_S128x128_S20000x6x128_2_0_01_1_n_n none l r) : (⟨S20000x6x128, .f32⟩ : BufTy).Contents (Elt F) → (⟨S128x128, .f32⟩ : BufTy).Contents (Elt F) → (⟨S20000x6x128, .f32⟩ : BufTy).Contents (Elt F)) ]
theorem seg4_sub : (seg4 : List (HloOp τ sig (Elt F))).Forall fun op => op.bufs ⊆ tcRefs τ sig :=
  StableHlo.binary_bufs_sub ..

/-- Stretch 5: 83 operations. -/
abbrev seg5 : List (HloOp τ sig (Elt F)) :=
  [ StableHlo.nullary main_cst_8 (constant S_ .f32 0x00000000#32),
    StableHlo.unary main_cst_8 main_v37 (broadcastInDim S20000x6 ![] bcast_S_S20000x6 : (⟨S_, .f32⟩ : BufTy).Contents (Elt F) → (⟨S20000x6, .f32⟩ : BufTy).Contents (Elt F)),
    StableHlo.unary main_v1 main_v38 (broadcastInDim S100000x1 ![0] bcast_S100000_S100000x1_0 : (⟨S100000, .i32⟩ : BufTy).Contents (Elt F) → (⟨S100000x1, .i32⟩ : BufTy).Contents (Elt F)),
    StableHlo.ternary main_v37 main_v38 main_v35 main_v39 ((fun x i u => Host.scatterAdd scatter_S20000x6_S100000x1_S100000x6_1_0_0_1 x i u) : (⟨S20000x6, .f32⟩ : BufTy).Contents (Elt F) → (⟨S100000x1, .i32⟩ : BufTy).Contents (Elt F) → (⟨S100000x6, .f32⟩ : BufTy).Contents (Elt F) → (⟨S20000x6, .f32⟩ : BufTy).Contents (Elt F)),
    StableHlo.nullary main_cst_9 (constant S_ .f32 0x00000000#32),
    StableHlo.unary main_cst_9 main_v40 (broadcastInDim S2000x6 ![] bcast_S_S2000x6 : (⟨S_, .f32⟩ : BufTy).Contents (Elt F) → (⟨S2000x6, .f32⟩ : BufTy).Contents (Elt F)),
    StableHlo.unary main_v3 main_v41 (broadcastInDim S100000x1 ![0] bcast_S100000_S100000x1_0 : (⟨S100000, .i32⟩ : BufTy).Contents (Elt F) → (⟨S100000x1, .i32⟩ : BufTy).Contents (Elt F)),
    StableHlo.ternary main_v40 main_v41 main_v35 main_v42 ((fun x i u => Host.scatterAdd scatter_S2000x6_S100000x1_S100000x6_1_0_0_1 x i u) : (⟨S2000x6, .f32⟩ : BufTy).Contents (Elt F) → (⟨S100000x1, .i32⟩ : BufTy).Contents (Elt F) → (⟨S100000x6, .f32⟩ : BufTy).Contents (Elt F) → (⟨S2000x6, .f32⟩ : BufTy).Contents (Elt F)),
    StableHlo.nullary main_cst_10 (constant S_ .f32 0x00000000#32),
    StableHlo.unary main_cst_10 main_v43 (broadcastInDim S20000x6 ![] bcast_S_S20000x6 : (⟨S_, .f32⟩ : BufTy).Contents (Elt F) → (⟨S20000x6, .f32⟩ : BufTy).Contents (Elt F)),
    StableHlo.binary main_v39 main_v43 main_v44 (cmpf .une : (⟨S20000x6, .f32⟩ : BufTy).Contents (Elt F) → (⟨S20000x6, .f32⟩ : BufTy).Contents (Elt F) → (⟨S20000x6, .i1⟩ : BufTy).Contents (Elt F)),
    StableHlo.nullary main_cst_11 (constant S_ .f32 0x3F800000#32),
    StableHlo.unary main_cst_11 main_v45 (broadcastInDim S20000x6 ![] bcast_S_S20000x6 : (⟨S_, .f32⟩ : BufTy).Contents (Elt F) → (⟨S20000x6, .f32⟩ : BufTy).Contents (Elt F)),
    StableHlo.binary main_v45 main_v39 main_v46 (Host.divf : (⟨S20000x6, .f32⟩ : BufTy).Contents (Elt F) → (⟨S20000x6, .f32⟩ : BufTy).Contents (Elt F) → (⟨S20000x6, .f32⟩ : BufTy).Contents (Elt F)),
    StableHlo.nullary main_cst_12 (constant S_ .f32 0x00000000#32),
    StableHlo.TRef.unary (.of main_cst_12) main_call0.v0 id,
    StableHlo.TRef.unary main_call0.v0 main_call0.v1 (broadcastInDim S20000x6 ![] bcast_S_S20000x6),
    StableHlo.TRef.ternary (.of main_v44) (.of main_v46) main_call0.v1 main_call0.v2 select,
    StableHlo.nullary main_cst_13 (constant S_ .f32 0x00000000#32),
    StableHlo.unary main_cst_13 main_v48 (broadcastInDim S2000x6 ![] bcast_S_S2000x6 : (⟨S_, .f32⟩ : BufTy).Contents (Elt F) → (⟨S2000x6, .f32⟩ : BufTy).Contents (Elt F)),
    StableHlo.binary main_v42 main_v48 main_v49 (cmpf .une : (⟨S2000x6, .f32⟩ : BufTy).Contents (Elt F) → (⟨S2000x6, .f32⟩ : BufTy).Contents (Elt F) → (⟨S2000x6, .i1⟩ : BufTy).Contents (Elt F)),
    StableHlo.nullary main_cst_14 (constant S_ .f32 0x3F800000#32),
    StableHlo.unary main_cst_14 main_v50 (broadcastInDim S2000x6 ![] bcast_S_S2000x6 : (⟨S_, .f32⟩ : BufTy).Contents (Elt F) → (⟨S2000x6, .f32⟩ : BufTy).Contents (Elt F)),
    StableHlo.binary main_v50 main_v42 main_v51 (Host.divf : (⟨S2000x6, .f32⟩ : BufTy).Contents (Elt F) → (⟨S2000x6, .f32⟩ : BufTy).Contents (Elt F) → (⟨S2000x6, .f32⟩ : BufTy).Contents (Elt F)),
    StableHlo.nullary main_cst_15 (constant S_ .f32 0x00000000#32),
    StableHlo.TRef.unary (.of main_cst_15) main_call1.v0 id,
    StableHlo.TRef.unary main_call1.v0 main_call1.v1 (broadcastInDim S2000x6 ![] bcast_S_S2000x6),
    StableHlo.TRef.ternary (.of main_v49) (.of main_v51) main_call1.v1 main_call1.v2 select,
    StableHlo.nullary main_c_16 (constantI S_ 32 0#32),
    StableHlo.unary main_c_16 main_v53 (broadcastInDim S100000 ![] bcast_S_S100000 : (⟨S_, .i32⟩ : BufTy).Contents (Elt F) → (⟨S100000, .i32⟩ : BufTy).Contents (Elt F)),
    StableHlo.binary main_v3 main_v53 main_v54 (cmpi .slt : (⟨S100000, .i32⟩ : BufTy).Contents (Elt F) → (⟨S100000, .i32⟩ : BufTy).Contents (Elt F) → (⟨S100000, .i1⟩ : BufTy).Contents (Elt F)),
    StableHlo.nullary main_c_17 (constantI S_ 32 2000#32),
    StableHlo.unary main_c_17 main_v55 (broadcastInDim S100000 ![] bcast_S_S100000 : (⟨S_, .i32⟩ : BufTy).Contents (Elt F) → (⟨S100000, .i32⟩ : BufTy).Contents (Elt F)),
    StableHlo.binary main_v3 main_v55 main_v56 (addi : (⟨S100000, .i32⟩ : BufTy).Contents (Elt F) → (⟨S100000, .i32⟩ : BufTy).Contents (Elt F) → (⟨S100000, .i32⟩ : BufTy).Contents (Elt F)),
    StableHlo.ternary main_v54 main_v56 main_v3 main_v57 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v57 main_v58 (broadcastInDim S100000x1 ![0] bcast_S100000_S100000x1_0 : (⟨S100000, .i32⟩ : BufTy).Contents (Elt F) → (⟨S100000x1, .i32⟩ : BufTy).Contents (Elt F)),
    StableHlo.binary main_v52 main_v58 main_v59 ((fun x i => Host.gather gather_S2000x6_S100000x1_S100000x6_1_0_n_n_0_1_16 x i) : (⟨S2000x6, .f32⟩ : BufTy).Contents (Elt F) → (⟨S100000x1, .i32⟩ : BufTy).Contents (Elt F) → (⟨S100000x6, .f32⟩ : BufTy).Contents (Elt F)),
    StableHlo.binary main_v59 main_v35 main_v60 (mulf : (⟨S100000x6, .f32⟩ : BufTy).Contents (Elt F) → (⟨S100000x6, .f32⟩ : BufTy).Contents (Elt F) → (⟨S100000x6, .f32⟩ : BufTy).Contents (Elt F)),
    StableHlo.unary main_v60 main_v61 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_18 (constantI S_ 32 0#32),
    StableHlo.unary main_c_18 main_v62 (broadcastInDim S100000 ![] bcast_S_S100000 : (⟨S_, .i32⟩ : BufTy).Contents (Elt F) → (⟨S100000, .i32⟩ : BufTy).Contents (Elt F)),
    StableHlo.binary main_v1 main_v62 main_v63 (cmpi .slt : (⟨S100000, .i32⟩ : BufTy).Contents (Elt F) → (⟨S100000, .i32⟩ : BufTy).Contents (Elt F) → (⟨S100000, .i1⟩ : BufTy).Contents (Elt F)),
    StableHlo.nullary main_c_19 (constantI S_ 32 20000#32),
    StableHlo.unary main_c_19 main_v64 (broadcastInDim S100000 ![] bcast_S_S100000 : (⟨S_, .i32⟩ : BufTy).Contents (Elt F) → (⟨S100000, .i32⟩ : BufTy).Contents (Elt F)),
    StableHlo.binary main_v1 main_v64 main_v65 (addi : (⟨S100000, .i32⟩ : BufTy).Contents (Elt F) → (⟨S100000, .i32⟩ : BufTy).Contents (Elt F) → (⟨S100000, .i32⟩ : BufTy).Contents (Elt F)),
    StableHlo.ternary main_v63 main_v65 main_v1 main_v66 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v66 main_v67 (broadcastInDim S100000x1 ![0] bcast_S100000_S100000x1_0 : (⟨S100000, .i32⟩ : BufTy).Contents (Elt F) → (⟨S100000x1, .i32⟩ : BufTy).Contents (Elt F)),
    StableHlo.binary main_v36 main_v67 main_v68 ((fun x i => Host.gather gather_S20000x6x128_S100000x1_S100000x6x128_12_0_n_n_0_1_16128 x i) : (⟨S20000x6x128, .f32⟩ : BufTy).Contents (Elt F) → (⟨S100000x1, .i32⟩ : BufTy).Contents (Elt F) → (⟨S100000x6x128, .f32⟩ : BufTy).Contents (Elt F)),
    StableHlo.unary main_v61 main_v69 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v69 main_v68 main_v70 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_20 (constant S_ .f32 0x00000000#32),
    StableHlo.unary main_cst_20 main_v71 (broadcastInDim S2000x6x128 ![] bcast_S_S2000x6x128 : (⟨S_, .f32⟩ : BufTy).Contents (Elt F) → (⟨S2000x6x128, .f32⟩ : BufTy).Contents (Elt F)),
    StableHlo.unary main_v3 main_v72 (broadcastInDim S100000x1 ![0] bcast_S100000_S100000x1_0 : (⟨S100000, .i32⟩ : BufTy).Contents (Elt F) → (⟨S100000x1, .i32⟩ : BufTy).Contents (Elt F)),
    StableHlo.ternary main_v71 main_v72 main_v70 main_v73 ((fun x i u => Host.scatterAdd scatter_S2000x6x128_S100000x1_S100000x6x128_12_0_0_1 x i u) : (⟨S2000x6x128, .f32⟩ : BufTy).Contents (Elt F) → (⟨S100000x1, .i32⟩ : BufTy).Contents (Elt F) → (⟨S100000x6x128, .f32⟩ : BufTy).Contents (Elt F) → (⟨S2000x6x128, .f32⟩ : BufTy).Contents (Elt F)),
    StableHlo.nullary main_c_21 (constantI S_ 32 0#32),
    StableHlo.unary main_c_21 main_v74 (broadcastInDim S100000 ![] bcast_S_S100000 : (⟨S_, .i32⟩ : BufTy).Contents (Elt F) → (⟨S100000, .i32⟩ : BufTy).Contents (Elt F)),
    StableHlo.binary main_v1 main_v74 main_v75 (cmpi .slt : (⟨S100000, .i32⟩ : BufTy).Contents (Elt F) → (⟨S100000, .i32⟩ : BufTy).Contents (Elt F) → (⟨S100000, .i1⟩ : BufTy).Contents (Elt F)),
    StableHlo.nullary main_c_22 (constantI S_ 32 20000#32),
    StableHlo.unary main_c_22 main_v76 (broadcastInDim S100000 ![] bcast_S_S100000 : (⟨S_, .i32⟩ : BufTy).Contents (Elt F) → (⟨S100000, .i32⟩ : BufTy).Contents (Elt F)),
    StableHlo.binary main_v1 main_v76 main_v77 (addi : (⟨S100000, .i32⟩ : BufTy).Contents (Elt F) → (⟨S100000, .i32⟩ : BufTy).Contents (Elt F) → (⟨S100000, .i32⟩ : BufTy).Contents (Elt F)),
    StableHlo.ternary main_v75 main_v77 main_v1 main_v78 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v78 main_v79 (broadcastInDim S100000x1 ![0] bcast_S100000_S100000x1_0 : (⟨S100000, .i32⟩ : BufTy).Contents (Elt F) → (⟨S100000x1, .i32⟩ : BufTy).Contents (Elt F)),
    StableHlo.binary main_v47 main_v79 main_v80 ((fun x i => Host.gather gather_S20000x6_S100000x1_S100000x6_1_0_n_n_0_1_16 x i) : (⟨S20000x6, .f32⟩ : BufTy).Contents (Elt F) → (⟨S100000x1, .i32⟩ : BufTy).Contents (Elt F) → (⟨S100000x6, .f32⟩ : BufTy).Contents (Elt F)),
    StableHlo.binary main_v80 main_v35 main_v81 (mulf : (⟨S100000x6, .f32⟩ : BufTy).Contents (Elt F) → (⟨S100000x6, .f32⟩ : BufTy).Contents (Elt F) → (⟨S100000x6, .f32⟩ : BufTy).Contents (Elt F)),
    StableHlo.unary main_v81 main_v82 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_23 (constantI S_ 32 0#32),
    StableHlo.unary main_c_23 main_v83 (broadcastInDim S100000 ![] bcast_S_S100000 : (⟨S_, .i32⟩ : BufTy).Contents (Elt F) → (⟨S100000, .i32⟩ : BufTy).Contents (Elt F)),
    StableHlo.binary main_v3 main_v83 main_v84 (cmpi .slt : (⟨S100000, .i32⟩ : BufTy).Contents (Elt F) → (⟨S100000, .i32⟩ : BufTy).Contents (Elt F) → (⟨S100000, .i1⟩ : BufTy).Contents (Elt F)),
    StableHlo.nullary main_c_24 (constantI S_ 32 2000#32),
    StableHlo.unary main_c_24 main_v85 (broadcastInDim S100000 ![] bcast_S_S100000 : (⟨S_, .i32⟩ : BufTy).Contents (Elt F) → (⟨S100000, .i32⟩ : BufTy).Contents (Elt F)),
    StableHlo.binary main_v3 main_v85 main_v86 (addi : (⟨S100000, .i32⟩ : BufTy).Contents (Elt F) → (⟨S100000, .i32⟩ : BufTy).Contents (Elt F) → (⟨S100000, .i32⟩ : BufTy).Contents (Elt F)),
    StableHlo.ternary main_v84 main_v86 main_v3 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v87 main_v88 (broadcastInDim S100000x1 ![0] bcast_S100000_S100000x1_0 : (⟨S100000, .i32⟩ : BufTy).Contents (Elt F) → (⟨S100000x1, .i32⟩ : BufTy).Contents (Elt F)),
    StableHlo.binary main_v73 main_v88 main_v89 ((fun x i => Host.gather gather_S2000x6x128_S100000x1_S100000x6x128_12_0_n_n_0_1_16128 x i) : (⟨S2000x6x128, .f32⟩ : BufTy).Contents (Elt F) → (⟨S100000x1, .i32⟩ : BufTy).Contents (Elt F) → (⟨S100000x6x128, .f32⟩ : BufTy).Contents (Elt F)),
    StableHlo.unary main_v82 main_v90 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v90 main_v89 main_v91 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_25 (constant S_ .f32 0x00000000#32),
    StableHlo.unary main_cst_25 main_v92 (broadcastInDim S20000x6x128 ![] bcast_S_S20000x6x128 : (⟨S_, .f32⟩ : BufTy).Contents (Elt F) → (⟨S20000x6x128, .f32⟩ : BufTy).Contents (Elt F)),
    StableHlo.unary main_v1 main_v93 (broadcastInDim S100000x1 ![0] bcast_S100000_S100000x1_0 : (⟨S100000, .i32⟩ : BufTy).Contents (Elt F) → (⟨S100000x1, .i32⟩ : BufTy).Contents (Elt F)),
    StableHlo.ternary main_v92 main_v93 main_v91 main_v94 ((fun x i u => Host.scatterAdd scatter_S20000x6x128_S100000x1_S100000x6x128_12_0_0_1 x i u) : (⟨S20000x6x128, .f32⟩ : BufTy).Contents (Elt F) → (⟨S100000x1, .i32⟩ : BufTy).Contents (Elt F) → (⟨S100000x6x128, .f32⟩ : BufTy).Contents (Elt F) → (⟨S20000x6x128, .f32⟩ : BufTy).Contents (Elt F)),
    StableHlo.unary main_arg6 main_v95 (broadcastInDim S1x1x128 ![2] bcast_S128_S1x1x128_2 : (⟨S128, .f32⟩ : BufTy).Contents (Elt F) → (⟨S1x1x128, .f32⟩ : BufTy).Contents (Elt F)),
    StableHlo.unary main_v95 main_v96 (broadcastInDim S20000x6x128 ![0, 1, 2] bcast_S1x1x128_S20000x6x128_0_1_2 : (⟨S1x1x128, .f32⟩ : BufTy).Contents (Elt F) → (⟨S20000x6x128, .f32⟩ : BufTy).Contents (Elt F)),
    StableHlo.binary main_v94 main_v96 main_v97 (addf : (⟨S20000x6x128, .f32⟩ : BufTy).Contents (Elt F) → (⟨S20000x6x128, .f32⟩ : BufTy).Contents (Elt F) → (⟨S20000x6x128, .f32⟩ : BufTy).Contents (Elt F)) ]
theorem seg5_sub : (seg5 : List (HloOp τ sig (Elt F))).Forall fun op => op.bufs ⊆ tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Stretch 6: 15 operations. -/
abbrev seg6 : List (HloOp τ sig (Elt F)) :=
  [ StableHlo.TRef.nullary main_call2.cst (constant S_ .f32 0x00000000#32),
    StableHlo.TRef.unary main_call2.cst main_call2.v0 (broadcastInDim S20000x6x128 ![] bcast_S_S20000x6x128),
    StableHlo.TRef.binary (.of main_v97) main_call2.v0 main_call2.v1 (cmpf .ogt),
    StableHlo.TRef.nullary main_call2.cst_0 (constant S_ .f32 0x00000000#32),
    StableHlo.TRef.unary main_call2.cst_0 main_call2.v2 (broadcastInDim S20000x6x128 ![] bcast_S_S20000x6x128),
    StableHlo.TRef.binary (.of main_v97) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S20000x6x128 ![] bcast_S_S20000x6x128),
    StableHlo.TRef.ternary main_call2.v3 main_call2.call0.v1 (.of main_v97) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S20000x6x128 ![] bcast_S_S20000x6x128),
    StableHlo.TRef.binary main_call2.v6 main_call2.v5 main_call2.v7 mulf,
    StableHlo.TRef.ternary main_call2.v1 (.of main_v97) main_call2.v7 main_call2.call1.v0 select ]
theorem seg6_sub : (seg6 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- Stretch 7: 1 operations. -/
abbrev seg7 : List (HloOp τ sig (Elt F)) :=
  [ StableHlo.binary main_v98 main_arg7 main_v99 ((fun l r => Host.dotGeneral dot_S20000x6x128_S128x128_S20000x6x128_2_0_01_1_n_n none l r) : (⟨S20000x6x128, .f32⟩ : BufTy).Contents (Elt F) → (⟨S128x128, .f32⟩ : BufTy).Contents (Elt F) → (⟨S20000x6x128, .f32⟩ : BufTy).Contents (Elt F)) ]
theorem seg7_sub : (seg7 : List (HloOp τ sig (Elt F))).Forall fun op => op.bufs ⊆ tcRefs τ sig :=
  StableHlo.binary_bufs_sub ..

/-- Stretch 8: 83 operations. -/
abbrev seg8 : List (HloOp τ sig (Elt F)) :=
  [ StableHlo.nullary main_cst_26 (constant S_ .f32 0x00000000#32),
    StableHlo.unary main_cst_26 main_v100 (broadcastInDim S20000x6 ![] bcast_S_S20000x6 : (⟨S_, .f32⟩ : BufTy).Contents (Elt F) → (⟨S20000x6, .f32⟩ : BufTy).Contents (Elt F)),
    StableHlo.unary main_v1 main_v101 (broadcastInDim S100000x1 ![0] bcast_S100000_S100000x1_0 : (⟨S100000, .i32⟩ : BufTy).Contents (Elt F) → (⟨S100000x1, .i32⟩ : BufTy).Contents (Elt F)),
    StableHlo.ternary main_v100 main_v101 main_v35 main_v102 ((fun x i u => Host.scatterAdd scatter_S20000x6_S100000x1_S100000x6_1_0_0_1 x i u) : (⟨S20000x6, .f32⟩ : BufTy).Contents (Elt F) → (⟨S100000x1, .i32⟩ : BufTy).Contents (Elt F) → (⟨S100000x6, .f32⟩ : BufTy).Contents (Elt F) → (⟨S20000x6, .f32⟩ : BufTy).Contents (Elt F)),
    StableHlo.nullary main_cst_27 (constant S_ .f32 0x00000000#32),
    StableHlo.unary main_cst_27 main_v103 (broadcastInDim S2000x6 ![] bcast_S_S2000x6 : (⟨S_, .f32⟩ : BufTy).Contents (Elt F) → (⟨S2000x6, .f32⟩ : BufTy).Contents (Elt F)),
    StableHlo.unary main_v3 main_v104 (broadcastInDim S100000x1 ![0] bcast_S100000_S100000x1_0 : (⟨S100000, .i32⟩ : BufTy).Contents (Elt F) → (⟨S100000x1, .i32⟩ : BufTy).Contents (Elt F)),
    StableHlo.ternary main_v103 main_v104 main_v35 main_v105 ((fun x i u => Host.scatterAdd scatter_S2000x6_S100000x1_S100000x6_1_0_0_1 x i u) : (⟨S2000x6, .f32⟩ : BufTy).Contents (Elt F) → (⟨S100000x1, .i32⟩ : BufTy).Contents (Elt F) → (⟨S100000x6, .f32⟩ : BufTy).Contents (Elt F) → (⟨S2000x6, .f32⟩ : BufTy).Contents (Elt F)),
    StableHlo.nullary main_cst_28 (constant S_ .f32 0x00000000#32),
    StableHlo.unary main_cst_28 main_v106 (broadcastInDim S20000x6 ![] bcast_S_S20000x6 : (⟨S_, .f32⟩ : BufTy).Contents (Elt F) → (⟨S20000x6, .f32⟩ : BufTy).Contents (Elt F)),
    StableHlo.binary main_v102 main_v106 main_v107 (cmpf .une : (⟨S20000x6, .f32⟩ : BufTy).Contents (Elt F) → (⟨S20000x6, .f32⟩ : BufTy).Contents (Elt F) → (⟨S20000x6, .i1⟩ : BufTy).Contents (Elt F)),
    StableHlo.nullary main_cst_29 (constant S_ .f32 0x3F800000#32),
    StableHlo.unary main_cst_29 main_v108 (broadcastInDim S20000x6 ![] bcast_S_S20000x6 : (⟨S_, .f32⟩ : BufTy).Contents (Elt F) → (⟨S20000x6, .f32⟩ : BufTy).Contents (Elt F)),
    StableHlo.binary main_v108 main_v102 main_v109 (Host.divf : (⟨S20000x6, .f32⟩ : BufTy).Contents (Elt F) → (⟨S20000x6, .f32⟩ : BufTy).Contents (Elt F) → (⟨S20000x6, .f32⟩ : BufTy).Contents (Elt F)),
    StableHlo.nullary main_cst_30 (constant S_ .f32 0x00000000#32),
    StableHlo.TRef.unary (.of main_cst_30) main_call3.v0 id,
    StableHlo.TRef.unary main_call3.v0 main_call3.v1 (broadcastInDim S20000x6 ![] bcast_S_S20000x6),
    StableHlo.TRef.ternary (.of main_v107) (.of main_v109) main_call3.v1 main_call3.v2 select,
    StableHlo.nullary main_cst_31 (constant S_ .f32 0x00000000#32),
    StableHlo.unary main_cst_31 main_v111 (broadcastInDim S2000x6 ![] bcast_S_S2000x6 : (⟨S_, .f32⟩ : BufTy).Contents (Elt F) → (⟨S2000x6, .f32⟩ : BufTy).Contents (Elt F)),
    StableHlo.binary main_v105 main_v111 main_v112 (cmpf .une : (⟨S2000x6, .f32⟩ : BufTy).Contents (Elt F) → (⟨S2000x6, .f32⟩ : BufTy).Contents (Elt F) → (⟨S2000x6, .i1⟩ : BufTy).Contents (Elt F)),
    StableHlo.nullary main_cst_32 (constant S_ .f32 0x3F800000#32),
    StableHlo.unary main_cst_32 main_v113 (broadcastInDim S2000x6 ![] bcast_S_S2000x6 : (⟨S_, .f32⟩ : BufTy).Contents (Elt F) → (⟨S2000x6, .f32⟩ : BufTy).Contents (Elt F)),
    StableHlo.binary main_v113 main_v105 main_v114 (Host.divf : (⟨S2000x6, .f32⟩ : BufTy).Contents (Elt F) → (⟨S2000x6, .f32⟩ : BufTy).Contents (Elt F) → (⟨S2000x6, .f32⟩ : BufTy).Contents (Elt F)),
    StableHlo.nullary main_cst_33 (constant S_ .f32 0x00000000#32),
    StableHlo.TRef.unary (.of main_cst_33) main_call4.v0 id,
    StableHlo.TRef.unary main_call4.v0 main_call4.v1 (broadcastInDim S2000x6 ![] bcast_S_S2000x6),
    StableHlo.TRef.ternary (.of main_v112) (.of main_v114) main_call4.v1 main_call4.v2 select,
    StableHlo.nullary main_c_34 (constantI S_ 32 0#32),
    StableHlo.unary main_c_34 main_v116 (broadcastInDim S100000 ![] bcast_S_S100000 : (⟨S_, .i32⟩ : BufTy).Contents (Elt F) → (⟨S100000, .i32⟩ : BufTy).Contents (Elt F)),
    StableHlo.binary main_v3 main_v116 main_v117 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 2000#32),
    StableHlo.unary main_c_35 main_v118 (broadcastInDim S100000 ![] bcast_S_S100000 : (⟨S_, .i32⟩ : BufTy).Contents (Elt F) → (⟨S100000, .i32⟩ : BufTy).Contents (Elt F)),
    StableHlo.binary main_v3 main_v118 main_v119 (addi : (⟨S100000, .i32⟩ : BufTy).Contents (Elt F) → (⟨S100000, .i32⟩ : BufTy).Contents (Elt F) → (⟨S100000, .i32⟩ : BufTy).Contents (Elt F)),
    StableHlo.ternary main_v117 main_v119 main_v3 main_v120 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v120 main_v121 (broadcastInDim S100000x1 ![0] bcast_S100000_S100000x1_0 : (⟨S100000, .i32⟩ : BufTy).Contents (Elt F) → (⟨S100000x1, .i32⟩ : BufTy).Contents (Elt F)),
    StableHlo.binary main_v115 main_v121 main_v122 ((fun x i => Host.gather gather_S2000x6_S100000x1_S100000x6_1_0_n_n_0_1_16 x i) : (⟨S2000x6, .f32⟩ : BufTy).Contents (Elt F) → (⟨S100000x1, .i32⟩ : BufTy).Contents (Elt F) → (⟨S100000x6, .f32⟩ : BufTy).Contents (Elt F)),
    StableHlo.binary main_v122 main_v35 main_v123 (mulf : (⟨S100000x6, .f32⟩ : BufTy).Contents (Elt F) → (⟨S100000x6, .f32⟩ : BufTy).Contents (Elt F) → (⟨S100000x6, .f32⟩ : BufTy).Contents (Elt F)),
    StableHlo.unary main_v123 main_v124 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_36 (constantI S_ 32 0#32),
    StableHlo.unary main_c_36 main_v125 (broadcastInDim S100000 ![] bcast_S_S100000 : (⟨S_, .i32⟩ : BufTy).Contents (Elt F) → (⟨S100000, .i32⟩ : BufTy).Contents (Elt F)),
    StableHlo.binary main_v1 main_v125 main_v126 (cmpi .slt : (⟨S100000, .i32⟩ : BufTy).Contents (Elt F) → (⟨S100000, .i32⟩ : BufTy).Contents (Elt F) → (⟨S100000, .i1⟩ : BufTy).Contents (Elt F)),
    StableHlo.nullary main_c_37 (constantI S_ 32 20000#32),
    StableHlo.unary main_c_37 main_v127 (broadcastInDim S100000 ![] bcast_S_S100000 : (⟨S_, .i32⟩ : BufTy).Contents (Elt F) → (⟨S100000, .i32⟩ : BufTy).Contents (Elt F)),
    StableHlo.binary main_v1 main_v127 main_v128 (addi : (⟨S100000, .i32⟩ : BufTy).Contents (Elt F) → (⟨S100000, .i32⟩ : BufTy).Contents (Elt F) → (⟨S100000, .i32⟩ : BufTy).Contents (Elt F)),
    StableHlo.ternary main_v126 main_v128 main_v1 main_v129 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v129 main_v130 (broadcastInDim S100000x1 ![0] bcast_S100000_S100000x1_0 : (⟨S100000, .i32⟩ : BufTy).Contents (Elt F) → (⟨S100000x1, .i32⟩ : BufTy).Contents (Elt F)),
    StableHlo.binary main_v99 main_v130 main_v131 ((fun x i => Host.gather gather_S20000x6x128_S100000x1_S100000x6x128_12_0_n_n_0_1_16128 x i) : (⟨S20000x6x128, .f32⟩ : BufTy).Contents (Elt F) → (⟨S100000x1, .i32⟩ : BufTy).Contents (Elt F) → (⟨S100000x6x128, .f32⟩ : BufTy).Contents (Elt F)),
    StableHlo.unary main_v124 main_v132 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v132 main_v131 main_v133 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_38 (constant S_ .f32 0x00000000#32),
    StableHlo.unary main_cst_38 main_v134 (broadcastInDim S2000x6x128 ![] bcast_S_S2000x6x128 : (⟨S_, .f32⟩ : BufTy).Contents (Elt F) → (⟨S2000x6x128, .f32⟩ : BufTy).Contents (Elt F)),
    StableHlo.unary main_v3 main_v135 (broadcastInDim S100000x1 ![0] bcast_S100000_S100000x1_0 : (⟨S100000, .i32⟩ : BufTy).Contents (Elt F) → (⟨S100000x1, .i32⟩ : BufTy).Contents (Elt F)),
    StableHlo.ternary main_v134 main_v135 main_v133 main_v136 ((fun x i u => Host.scatterAdd scatter_S2000x6x128_S100000x1_S100000x6x128_12_0_0_1 x i u) : (⟨S2000x6x128, .f32⟩ : BufTy).Contents (Elt F) → (⟨S100000x1, .i32⟩ : BufTy).Contents (Elt F) → (⟨S100000x6x128, .f32⟩ : BufTy).Contents (Elt F) → (⟨S2000x6x128, .f32⟩ : BufTy).Contents (Elt F)),
    StableHlo.nullary main_c_39 (constantI S_ 32 0#32),
    StableHlo.unary main_c_39 main_v137 (broadcastInDim S100000 ![] bcast_S_S100000 : (⟨S_, .i32⟩ : BufTy).Contents (Elt F) → (⟨S100000, .i32⟩ : BufTy).Contents (Elt F)),
    StableHlo.binary main_v1 main_v137 main_v138 (cmpi .slt : (⟨S100000, .i32⟩ : BufTy).Contents (Elt F) → (⟨S100000, .i32⟩ : BufTy).Contents (Elt F) → (⟨S100000, .i1⟩ : BufTy).Contents (Elt F)),
    StableHlo.nullary main_c_40 (constantI S_ 32 20000#32),
    StableHlo.unary main_c_40 main_v139 (broadcastInDim S100000 ![] bcast_S_S100000 : (⟨S_, .i32⟩ : BufTy).Contents (Elt F) → (⟨S100000, .i32⟩ : BufTy).Contents (Elt F)),
    StableHlo.binary main_v1 main_v139 main_v140 (addi : (⟨S100000, .i32⟩ : BufTy).Contents (Elt F) → (⟨S100000, .i32⟩ : BufTy).Contents (Elt F) → (⟨S100000, .i32⟩ : BufTy).Contents (Elt F)),
    StableHlo.ternary main_v138 main_v140 main_v1 main_v141 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v141 main_v142 (broadcastInDim S100000x1 ![0] bcast_S100000_S100000x1_0 : (⟨S100000, .i32⟩ : BufTy).Contents (Elt F) → (⟨S100000x1, .i32⟩ : BufTy).Contents (Elt F)),
    StableHlo.binary main_v110 main_v142 main_v143 ((fun x i => Host.gather gather_S20000x6_S100000x1_S100000x6_1_0_n_n_0_1_16 x i) : (⟨S20000x6, .f32⟩ : BufTy).Contents (Elt F) → (⟨S100000x1, .i32⟩ : BufTy).Contents (Elt F) → (⟨S100000x6, .f32⟩ : BufTy).Contents (Elt F)),
    StableHlo.binary main_v143 main_v35 main_v144 (mulf : (⟨S100000x6, .f32⟩ : BufTy).Contents (Elt F) → (⟨S100000x6, .f32⟩ : BufTy).Contents (Elt F) → (⟨S100000x6, .f32⟩ : BufTy).Contents (Elt F)),
    StableHlo.unary main_v144 main_v145 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_41 (constantI S_ 32 0#32),
    StableHlo.unary main_c_41 main_v146 (broadcastInDim S100000 ![] bcast_S_S100000 : (⟨S_, .i32⟩ : BufTy).Contents (Elt F) → (⟨S100000, .i32⟩ : BufTy).Contents (Elt F)),
    StableHlo.binary main_v3 main_v146 main_v147 (cmpi .slt : (⟨S100000, .i32⟩ : BufTy).Contents (Elt F) → (⟨S100000, .i32⟩ : BufTy).Contents (Elt F) → (⟨S100000, .i1⟩ : BufTy).Contents (Elt F)),
    StableHlo.nullary main_c_42 (constantI S_ 32 2000#32),
    StableHlo.unary main_c_42 main_v148 (broadcastInDim S100000 ![] bcast_S_S100000 : (⟨S_, .i32⟩ : BufTy).Contents (Elt F) → (⟨S100000, .i32⟩ : BufTy).Contents (Elt F)),
    StableHlo.binary main_v3 main_v148 main_v149 (addi : (⟨S100000, .i32⟩ : BufTy).Contents (Elt F) → (⟨S100000, .i32⟩ : BufTy).Contents (Elt F) → (⟨S100000, .i32⟩ : BufTy).Contents (Elt F)),
    StableHlo.ternary main_v147 main_v149 main_v3 main_v150 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v150 main_v151 (broadcastInDim S100000x1 ![0] bcast_S100000_S100000x1_0 : (⟨S100000, .i32⟩ : BufTy).Contents (Elt F) → (⟨S100000x1, .i32⟩ : BufTy).Contents (Elt F)),
    StableHlo.binary main_v136 main_v151 main_v152 ((fun x i => Host.gather gather_S2000x6x128_S100000x1_S100000x6x128_12_0_n_n_0_1_16128 x i) : (⟨S2000x6x128, .f32⟩ : BufTy).Contents (Elt F) → (⟨S100000x1, .i32⟩ : BufTy).Contents (Elt F) → (⟨S100000x6x128, .f32⟩ : BufTy).Contents (Elt F)),
    StableHlo.unary main_v145 main_v153 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v153 main_v152 main_v154 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_43 (constant S_ .f32 0x00000000#32),
    StableHlo.unary main_cst_43 main_v155 (broadcastInDim S20000x6x128 ![] bcast_S_S20000x6x128 : (⟨S_, .f32⟩ : BufTy).Contents (Elt F) → (⟨S20000x6x128, .f32⟩ : BufTy).Contents (Elt F)),
    StableHlo.unary main_v1 main_v156 (broadcastInDim S100000x1 ![0] bcast_S100000_S100000x1_0 : (⟨S100000, .i32⟩ : BufTy).Contents (Elt F) → (⟨S100000x1, .i32⟩ : BufTy).Contents (Elt F)),
    StableHlo.ternary main_v155 main_v156 main_v154 main_v157 ((fun x i u => Host.scatterAdd scatter_S20000x6x128_S100000x1_S100000x6x128_12_0_0_1 x i u) : (⟨S20000x6x128, .f32⟩ : BufTy).Contents (Elt F) → (⟨S100000x1, .i32⟩ : BufTy).Contents (Elt F) → (⟨S100000x6x128, .f32⟩ : BufTy).Contents (Elt F) → (⟨S20000x6x128, .f32⟩ : BufTy).Contents (Elt F)),
    StableHlo.unary main_arg8 main_v158 (broadcastInDim S1x1x128 ![2] bcast_S128_S1x1x128_2 : (⟨S128, .f32⟩ : BufTy).Contents (Elt F) → (⟨S1x1x128, .f32⟩ : BufTy).Contents (Elt F)),
    StableHlo.unary main_v158 main_v159 (broadcastInDim S20000x6x128 ![0, 1, 2] bcast_S1x1x128_S20000x6x128_0_1_2 : (⟨S1x1x128, .f32⟩ : BufTy).Contents (Elt F) → (⟨S20000x6x128, .f32⟩ : BufTy).Contents (Elt F)),
    StableHlo.binary main_v157 main_v159 main_v160 (addf : (⟨S20000x6x128, .f32⟩ : BufTy).Contents (Elt F) → (⟨S20000x6x128, .f32⟩ : BufTy).Contents (Elt F) → (⟨S20000x6x128, .f32⟩ : BufTy).Contents (Elt F)) ]
theorem seg8_sub : (seg8 : List (HloOp τ sig (Elt F))).Forall fun op => op.bufs ⊆ tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Stretch 9: 2 operations. -/
abbrev seg9 : List (HloOp τ sig (Elt F)) :=
  [ StableHlo.reshape main_v160 main_v161 rfl shapeCasts_S20000x6x128_S20000x768,
    StableHlo.binary main_v161 main_arg9 main_v162 ((fun l r => Host.dotGeneral dot_S20000x768_S768x40_S20000x40_1_0_0_1_n_n none l r) : (⟨S20000x768, .f32⟩ : BufTy).Contents (Elt F) → (⟨S768x40, .f32⟩ : BufTy).Contents (Elt F) → (⟨S20000x40, .f32⟩ : BufTy).Contents (Elt F)) ]
theorem seg9_sub : (seg9 : List (HloOp τ sig (Elt F))).Forall fun op => op.bufs ⊆ tcRefs τ sig :=
  ⟨StableHlo.reshape_bufs_sub .., StableHlo.binary_bufs_sub ..⟩

/-- The whole line. -/
abbrev ops : List (HloOp τ sig (Elt F)) := seg0 ++ seg1 ++ seg2 ++ seg3 ++ seg4 ++ seg5 ++ seg6 ++ seg7 ++ seg8 ++ seg9

end Cert.ReferenceIdeal.RefOps

end
-- ==== Proof.RefRunDefs.lean ====
/-
  What the run of the reference program asks of each of its operations.
-/
import proofs.«106504_j2594160246965_1_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- What the run asks of one operation besides touching TensorCore references only: it determines its results, and it
    writes exactly one buffer, an HBM buffer that is not one of the ten arguments (those are the first ten). -/
def OpOk (op : HloOp τ sig (Elt F)) : Prop :=
  op.fresh = ∅ ∧ ∃ y : Ref sig .tc, op.writes = {Proc.devRef .tc y} ∧ y.space = .hbm ∧ 10 ≤ y.idx.val

end Cert.ReferenceIdeal.RefRun

end
-- ==== Proof.RefRunA.lean ====
/-
  The stretches of the reference program's line of operations, part A: each operation determines its results and writes
  one buffer that is no argument; and a stretch that a call or a window of the printed program cuts, as the
  concatenation of its pieces (a called function's operations one piece).
-/
import proofs.«106504_j2594160246965_1_alg».proof.Proof.RefRunDefs

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- Stretch 0 (4 operations, results %0 … %3): each is such an operation. -/
theorem seg0_ok : (RefOps.seg0 : List (HloOp τ sig (Elt F))).Forall OpOk :=
  ⟨⟨rfl, main_v0, rfl, rfl, by decide⟩,
   ⟨rfl, main_v1, rfl, rfl, by decide⟩,
   ⟨rfl, main_v2, rfl, rfl, by decide⟩,
   ⟨rfl, main_v3, rfl, rfl, by decide⟩⟩

/-- Stretch 1 (4 operations, results %4 … %7): each is such an operation. -/
theorem seg1_ok : (RefOps.seg1 : List (HloOp τ sig (Elt F))).Forall OpOk :=
  ⟨⟨rfl, main_v4, rfl, rfl, by decide⟩,
   ⟨rfl, main_v5, rfl, rfl, by decide⟩,
   ⟨rfl, main_v6, rfl, rfl, by decide⟩,
   ⟨rfl, main_v7, rfl, rfl, by decide⟩⟩

/-- Stretch 2 (29 operations, results %cst … %28): each is such an operation. -/
theorem seg2_ok : (RefOps.seg2 : List (HloOp τ sig (Elt F))).Forall OpOk :=
  ⟨⟨rfl, main_cst, rfl, rfl, by decide⟩,
   ⟨rfl, main_v8, rfl, rfl, by decide⟩,
   ⟨rfl, main_cst_0, rfl, rfl, by decide⟩,
   ⟨rfl, main_v9, rfl, rfl, by decide⟩,
   ⟨rfl, main_v10, rfl, rfl, by decide⟩,
   ⟨rfl, main_c, rfl, rfl, by decide⟩,
   ⟨rfl, main_v11, rfl, rfl, by decide⟩,
   ⟨rfl, main_v12, rfl, rfl, by decide⟩,
   ⟨rfl, main_c_1, rfl, rfl, by decide⟩,
   ⟨rfl, main_v13, rfl, rfl, by decide⟩,
   ⟨rfl, main_v14, rfl, rfl, by decide⟩,
   ⟨rfl, main_v15, rfl, rfl, by decide⟩,
   ⟨rfl, main_v16, rfl, rfl, by decide⟩,
   ⟨rfl, main_v17, rfl, rfl, by decide⟩,
   ⟨rfl, main_cst_2, rfl, rfl, by decide⟩,
   ⟨rfl, main_v18, rfl, rfl, by decide⟩,
   ⟨rfl, main_cst_3, rfl, rfl, by decide⟩,
   ⟨rfl, main_v19, rfl, rfl, by decide⟩,
   ⟨rfl, main_v20, rfl, rfl, by decide⟩,
   ⟨rfl, main_c_4, rfl, rfl, by decide⟩,
   ⟨rfl, main_v21, rfl, rfl, by decide⟩,
   ⟨rfl, main_v22, rfl, rfl, by decide⟩,
   ⟨rfl, main_c_5, rfl, rfl, by decide⟩,
   ⟨rfl, main_v23, rfl, rfl, by decide⟩,
   ⟨rfl, main_v24, rfl, rfl, by decide⟩,
   ⟨rfl, main_v25, rfl, rfl, by decide⟩,
   ⟨rfl, main_v26, rfl, rfl, by decide⟩,
   ⟨rfl, main_v27, rfl, rfl, by decide⟩,
   ⟨rfl, main_v28, rfl, rfl, by decide⟩⟩

/-- Stretch 3 (9 operations, results %29 … %35): each is such an operation. -/
theorem seg3_ok : (RefOps.seg3 : List (HloOp τ sig (Elt F))).Forall OpOk :=
  ⟨⟨rfl, main_v29, rfl, rfl, by decide⟩,
   ⟨rfl, main_v30, rfl, rfl, by decide⟩,
   ⟨rfl, main_v31, rfl, rfl, by decide⟩,
   ⟨rfl, main_cst_6, rfl, rfl, by decide⟩,
   ⟨rfl, main_v32, rfl, rfl, by decide⟩,
   ⟨rfl, main_v33, rfl, rfl, by decide⟩,
   ⟨rfl, main_cst_7, rfl, rfl, by decide⟩,
   ⟨rfl, main_v34, rfl, rfl, by decide⟩,
   ⟨rfl, main_v35, rfl, rfl, by decide⟩⟩

/-- Stretch 4 (1 operations, results %36 … %36): each is such an operation. -/
theorem seg4_ok : (RefOps.seg4 : List (HloOp τ sig (Elt F))).Forall OpOk :=
  ⟨rfl, main_v36, rfl, rfl, by decide⟩

/-- Stretch 5 (83 operations, results %cst_8 … %97): each is such an operation. -/
theorem seg5_ok : (RefOps.seg5 : List (HloOp τ sig (Elt F))).Forall OpOk :=
  ⟨⟨rfl, main_cst_8, rfl, rfl, by decide⟩,
   ⟨rfl, main_v37, rfl, rfl, by decide⟩,
   ⟨rfl, main_v38, rfl, rfl, by decide⟩,
   ⟨rfl, main_v39, rfl, rfl, by decide⟩,
   ⟨rfl, main_cst_9, rfl, rfl, by decide⟩,
   ⟨rfl, main_v40, rfl, rfl, by decide⟩,
   ⟨rfl, main_v41, rfl, rfl, by decide⟩,
   ⟨rfl, main_v42, rfl, rfl, by decide⟩,
   ⟨rfl, main_cst_10, rfl, rfl, by decide⟩,
   ⟨rfl, main_v43, rfl, rfl, by decide⟩,
   ⟨rfl, main_v44, rfl, rfl, by decide⟩,
   ⟨rfl, main_cst_11, rfl, rfl, by decide⟩,
   ⟨rfl, main_v45, rfl, rfl, by decide⟩,
   ⟨rfl, main_v46, rfl, rfl, by decide⟩,
   ⟨rfl, main_cst_12, rfl, rfl, by decide⟩,
   ⟨rfl, (main_call0.v0).ref, rfl, rfl, by decide⟩,
   ⟨rfl, (main_call0.v1).ref, rfl, rfl, by decide⟩,
   ⟨rfl, (main_call0.v2).ref, rfl, rfl, by decide⟩,
   ⟨rfl, main_cst_13, rfl, rfl, by decide⟩,
   ⟨rfl, main_v48, rfl, rfl, by decide⟩,
   ⟨rfl, main_v49, rfl, rfl, by decide⟩,
   ⟨rfl, main_cst_14, rfl, rfl, by decide⟩,
   ⟨rfl, main_v50, rfl, rfl, by decide⟩,
   ⟨rfl, main_v51, rfl, rfl, by decide⟩,
   ⟨rfl, main_cst_15, rfl, rfl, by decide⟩,
   ⟨rfl, (main_call1.v0).ref, rfl, rfl, by decide⟩,
   ⟨rfl, (main_call1.v1).ref, rfl, rfl, by decide⟩,
   ⟨rfl, (main_call1.v2).ref, rfl, rfl, by decide⟩,
   ⟨rfl, main_c_16, rfl, rfl, by decide⟩,
   ⟨rfl, main_v53, rfl, rfl, by decide⟩,
   ⟨rfl, main_v54, rfl, rfl, by decide⟩,
   ⟨rfl, main_c_17, rfl, rfl, by decide⟩,
   ⟨rfl, main_v55, rfl, rfl, by decide⟩,
   ⟨rfl, main_v56, rfl, rfl, by decide⟩,
   ⟨rfl, main_v57, rfl, rfl, by decide⟩,
   ⟨rfl, main_v58, rfl, rfl, by decide⟩,
   ⟨rfl, main_v59, rfl, rfl, by decide⟩,
   ⟨rfl, main_v60, rfl, rfl, by decide⟩,
   ⟨rfl, main_v61, rfl, rfl, by decide⟩,
   ⟨rfl, main_c_18, rfl, rfl, by decide⟩,
   ⟨rfl, main_v62, rfl, rfl, by decide⟩,
   ⟨rfl, main_v63, rfl, rfl, by decide⟩,
   ⟨rfl, main_c_19, rfl, rfl, by decide⟩,
   ⟨rfl, main_v64, rfl, rfl, by decide⟩,
   ⟨rfl, main_v65, rfl, rfl, by decide⟩,
   ⟨rfl, main_v66, rfl, rfl, by decide⟩,
   ⟨rfl, main_v67, rfl, rfl, by decide⟩,
   ⟨rfl, main_v68, rfl, rfl, by decide⟩,
   ⟨rfl, main_v69, rfl, rfl, by decide⟩,
   ⟨rfl, main_v70, rfl, rfl, by decide⟩,
   ⟨rfl, main_cst_20, rfl, rfl, by decide⟩,
   ⟨rfl, main_v71, rfl, rfl, by decide⟩,
   ⟨rfl, main_v72, rfl, rfl, by decide⟩,
   ⟨rfl, main_v73, rfl, rfl, by decide⟩,
   ⟨rfl, main_c_21, rfl, rfl, by decide⟩,
   ⟨rfl, main_v74, rfl, rfl, by decide⟩,
   ⟨rfl, main_v75, rfl, rfl, by decide⟩,
   ⟨rfl, main_c_22, rfl, rfl, by decide⟩,
   ⟨rfl, main_v76, rfl, rfl, by decide⟩,
   ⟨rfl, main_v77, rfl, rfl, by decide⟩,
   ⟨rfl, main_v78, rfl, rfl, by decide⟩,
   ⟨rfl, main_v79, rfl, rfl, by decide⟩,
   ⟨rfl, main_v80, rfl, rfl, by decide⟩,
   ⟨rfl, main_v81, rfl, rfl, by decide⟩,
   ⟨rfl, main_v82, rfl, rfl, by decide⟩,
   ⟨rfl, main_c_23, rfl, rfl, by decide⟩,
   ⟨rfl, main_v83, rfl, rfl, by decide⟩,
   ⟨rfl, main_v84, rfl, rfl, by decide⟩,
   ⟨rfl, main_c_24, rfl, rfl, by decide⟩,
   ⟨rfl, main_v85, rfl, rfl, by decide⟩,
   ⟨rfl, main_v86, rfl, rfl, by decide⟩,
   ⟨rfl, main_v87, rfl, rfl, by decide⟩,
   ⟨rfl, main_v88, rfl, rfl, by decide⟩,
   ⟨rfl, main_v89, rfl, rfl, by decide⟩,
   ⟨rfl, main_v90, rfl, rfl, by decide⟩,
   ⟨rfl, main_v91, rfl, rfl, by decide⟩,
   ⟨rfl, main_cst_25, rfl, rfl, by decide⟩,
   ⟨rfl, main_v92, rfl, rfl, by decide⟩,
   ⟨rfl, main_v93, rfl, rfl, by decide⟩,
   ⟨rfl, main_v94, rfl, rfl, by decide⟩,
   ⟨rfl, main_v95, rfl, rfl, by decide⟩,
   ⟨rfl, main_v96, rfl, rfl, by decide⟩,
   ⟨rfl, main_v97, rfl, rfl, by decide⟩⟩

/-- A piece of stretch 5: 13 operations, window 0. -/
abbrev a5_0 : List (HloOp τ sig (Elt F)) :=
  [ StableHlo.nullary main_cst_8 (constant S_ .f32 0x00000000#32),
    StableHlo.unary main_cst_8 main_v37 (broadcastInDim S20000x6 ![] bcast_S_S20000x6 : (⟨S_, .f32⟩ : BufTy).Contents (Elt F) → (⟨S20000x6, .f32⟩ : BufTy).Contents (Elt F)),
    StableHlo.unary main_v1 main_v38 (broadcastInDim S100000x1 ![0] bcast_S100000_S100000x1_0 : (⟨S100000, .i32⟩ : BufTy).Contents (Elt F) → (⟨S100000x1, .i32⟩ : BufTy).Contents (Elt F)),
    StableHlo.ternary main_v37 main_v38 main_v35 main_v39 ((fun x i u => Host.scatterAdd scatter_S20000x6_S100000x1_S100000x6_1_0_0_1 x i u) : (⟨S20000x6, .f32⟩ : BufTy).Contents (Elt F) → (⟨S100000x1, .i32⟩ : BufTy).Contents (Elt F) → (⟨S100000x6, .f32⟩ : BufTy).Contents (Elt F) → (⟨S20000x6, .f32⟩ : BufTy).Contents (Elt F)),
    StableHlo.nullary main_cst_9 (constant S_ .f32 0x00000000#32),
    StableHlo.unary main_cst_9 main_v40 (broadcastInDim S2000x6 ![] bcast_S_S2000x6 : (⟨S_, .f32⟩ : BufTy).Contents (Elt F) → (⟨S2000x6, .f32⟩ : BufTy).Contents (Elt F)),
    StableHlo.unary main_v3 main_v41 (broadcastInDim S100000x1 ![0] bcast_S100000_S100000x1_0 : (⟨S100000, .i32⟩ : BufTy).Contents (Elt F) → (⟨S100000x1, .i32⟩ : BufTy).Contents (Elt F)),
    StableHlo.ternary main_v40 main_v41 main_v35 main_v42 ((fun x i u => Host.scatterAdd scatter_S2000x6_S100000x1_S100000x6_1_0_0_1 x i u) : (⟨S2000x6, .f32⟩ : BufTy).Contents (Elt F) → (⟨S100000x1, .i32⟩ : BufTy).Contents (Elt F) → (⟨S100000x6, .f32⟩ : BufTy).Contents (Elt F) → (⟨S2000x6, .f32⟩ : BufTy).Contents (Elt F)),
    StableHlo.nullary main_cst_10 (constant S_ .f32 0x00000000#32),
    StableHlo.unary main_cst_10 main_v43 (broadcastInDim S20000x6 ![] bcast_S_S20000x6 : (⟨S_, .f32⟩ : BufTy).Contents (Elt F) → (⟨S20000x6, .f32⟩ : BufTy).Contents (Elt F)),
    StableHlo.binary main_v39 main_v43 main_v44 (cmpf .une : (⟨S20000x6, .f32⟩ : BufTy).Contents (Elt F) → (⟨S20000x6, .f32⟩ : BufTy).Contents (Elt F) → (⟨S20000x6, .i1⟩ : BufTy).Contents (Elt F)),
    StableHlo.nullary main_cst_11 (constant S_ .f32 0x3F800000#32),
    StableHlo.unary main_cst_11 main_v45 (broadcastInDim S20000x6 ![] bcast_S_S20000x6 : (⟨S_, .f32⟩ : BufTy).Contents (Elt F) → (⟨S20000x6, .f32⟩ : BufTy).Contents (Elt F)) ]

/-- A piece of stretch 5: 2 operations, window 1. -/
abbrev a5_1 : List (HloOp τ sig (Elt F)) :=
  [ StableHlo.binary main_v45 main_v39 main_v46 (Host.divf : (⟨S20000x6, .f32⟩ : BufTy).Contents (Elt F) → (⟨S20000x6, .f32⟩ : BufTy).Contents (Elt F) → (⟨S20000x6, .f32⟩ : BufTy).Contents (Elt F)),
    StableHlo.nullary main_cst_12 (constant S_ .f32 0x00000000#32) ]

/-- A piece of stretch 5: 3 operations of the call with record main_call0, window 1. -/
abbrev a5_2 : List (HloOp τ sig (Elt F)) :=
  [ StableHlo.TRef.unary (.of main_cst_12) main_call0.v0 id,
    StableHlo.TRef.unary main_call0.v0 main_call0.v1 (broadcastInDim S20000x6 ![] bcast_S_S20000x6),
    StableHlo.TRef.ternary (.of main_v44) (.of main_v46) main_call0.v1 main_call0.v2 select ]

/-- A piece of stretch 5: 7 operations, window 1. -/
abbrev a5_3 : List (HloOp τ sig (Elt F)) :=
  [ StableHlo.nullary main_cst_13 (constant S_ .f32 0x00000000#32),
    StableHlo.unary main_cst_13 main_v48 (broadcastInDim S2000x6 ![] bcast_S_S2000x6 : (⟨S_, .f32⟩ : BufTy).Contents (Elt F) → (⟨S2000x6, .f32⟩ : BufTy).Contents (Elt F)),
    StableHlo.binary main_v42 main_v48 main_v49 (cmpf .une : (⟨S2000x6, .f32⟩ : BufTy).Contents (Elt F) → (⟨S2000x6, .f32⟩ : BufTy).Contents (Elt F) → (⟨S2000x6, .i1⟩ : BufTy).Contents (Elt F)),
    StableHlo.nullary main_cst_14 (constant S_ .f32 0x3F800000#32),
    StableHlo.unary main_cst_14 main_v50 (broadcastInDim S2000x6 ![] bcast_S_S2000x6 : (⟨S_, .f32⟩ : BufTy).Contents (Elt F) → (⟨S2000x6, .f32⟩ : BufTy).Contents (Elt F)),
    StableHlo.binary main_v50 main_v42 main_v51 (Host.divf : (⟨S2000x6, .f32⟩ : BufTy).Contents (Elt F) → (⟨S2000x6, .f32⟩ : BufTy).Contents (Elt F) → (⟨S2000x6, .f32⟩ : BufTy).Contents (Elt F)),
    StableHlo.nullary main_cst_15 (constant S_ .f32 0x00000000#32) ]

/-- A piece of stretch 5: 3 operations of the call with record main_call1, window 1. -/
abbrev a5_4 : List (HloOp τ sig (Elt F)) :=
  [ StableHlo.TRef.unary (.of main_cst_15) main_call1.v0 id,
    StableHlo.TRef.unary main_call1.v0 main_call1.v1 (broadcastInDim S2000x6 ![] bcast_S_S2000x6),
    StableHlo.TRef.ternary (.of main_v49) (.of main_v51) main_call1.v1 main_call1.v2 select ]

/-- A piece of stretch 5: 49 operations, window 1. -/
abbrev a5_5 : List (HloOp τ sig (Elt F)) :=
  [ StableHlo.nullary main_c_16 (constantI S_ 32 0#32),
    StableHlo.unary main_c_16 main_v53 (broadcastInDim S100000 ![] bcast_S_S100000 : (⟨S_, .i32⟩ : BufTy).Contents (Elt F) → (⟨S100000, .i32⟩ : BufTy).Contents (Elt F)),
    StableHlo.binary main_v3 main_v53 main_v54 (cmpi .slt : (⟨S100000, .i32⟩ : BufTy).Contents (Elt F) → (⟨S100000, .i32⟩ : BufTy).Contents (Elt F) → (⟨S100000, .i1⟩ : BufTy).Contents (Elt F)),
    StableHlo.nullary main_c_17 (constantI S_ 32 2000#32),
    StableHlo.unary main_c_17 main_v55 (broadcastInDim S100000 ![] bcast_S_S100000 : (⟨S_, .i32⟩ : BufTy).Contents (Elt F) → (⟨S100000, .i32⟩ : BufTy).Contents (Elt F)),
    StableHlo.binary main_v3 main_v55 main_v56 (addi : (⟨S100000, .i32⟩ : BufTy).Contents (Elt F) → (⟨S100000, .i32⟩ : BufTy).Contents (Elt F) → (⟨S100000, .i32⟩ : BufTy).Contents (Elt F)),
    StableHlo.ternary main_v54 main_v56 main_v3 main_v57 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v57 main_v58 (broadcastInDim S100000x1 ![0] bcast_S100000_S100000x1_0 : (⟨S100000, .i32⟩ : BufTy).Contents (Elt F) → (⟨S100000x1, .i32⟩ : BufTy).Contents (Elt F)),
    StableHlo.binary main_v52 main_v58 main_v59 ((fun x i => Host.gather gather_S2000x6_S100000x1_S100000x6_1_0_n_n_0_1_16 x i) : (⟨S2000x6, .f32⟩ : BufTy).Contents (Elt F) → (⟨S100000x1, .i32⟩ : BufTy).Contents (Elt F) → (⟨S100000x6, .f32⟩ : BufTy).Contents (Elt F)),
    StableHlo.binary main_v59 main_v35 main_v60 (mulf : (⟨S100000x6, .f32⟩ : BufTy).Contents (Elt F) → (⟨S100000x6, .f32⟩ : BufTy).Contents (Elt F) → (⟨S100000x6, .f32⟩ : BufTy).Contents (Elt F)),
    StableHlo.unary main_v60 main_v61 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_18 (constantI S_ 32 0#32),
    StableHlo.unary main_c_18 main_v62 (broadcastInDim S100000 ![] bcast_S_S100000 : (⟨S_, .i32⟩ : BufTy).Contents (Elt F) → (⟨S100000, .i32⟩ : BufTy).Contents (Elt F)),
    StableHlo.binary main_v1 main_v62 main_v63 (cmpi .slt : (⟨S100000, .i32⟩ : BufTy).Contents (Elt F) → (⟨S100000, .i32⟩ : BufTy).Contents (Elt F) → (⟨S100000, .i1⟩ : BufTy).Contents (Elt F)),
    StableHlo.nullary main_c_19 (constantI S_ 32 20000#32),
    StableHlo.unary main_c_19 main_v64 (broadcastInDim S100000 ![] bcast_S_S100000 : (⟨S_, .i32⟩ : BufTy).Contents (Elt F) → (⟨S100000, .i32⟩ : BufTy).Contents (Elt F)),
    StableHlo.binary main_v1 main_v64 main_v65 (addi : (⟨S100000, .i32⟩ : BufTy).Contents (Elt F) → (⟨S100000, .i32⟩ : BufTy).Contents (Elt F) → (⟨S100000, .i32⟩ : BufTy).Contents (Elt F)),
    StableHlo.ternary main_v63 main_v65 main_v1 main_v66 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v66 main_v67 (broadcastInDim S100000x1 ![0] bcast_S100000_S100000x1_0 : (⟨S100000, .i32⟩ : BufTy).Contents (Elt F) → (⟨S100000x1, .i32⟩ : BufTy).Contents (Elt F)),
    StableHlo.binary main_v36 main_v67 main_v68 ((fun x i => Host.gather gather_S20000x6x128_S100000x1_S100000x6x128_12_0_n_n_0_1_16128 x i) : (⟨S20000x6x128, .f32⟩ : BufTy).Contents (Elt F) → (⟨S100000x1, .i32⟩ : BufTy).Contents (Elt F) → (⟨S100000x6x128, .f32⟩ : BufTy).Contents (Elt F)),
    StableHlo.unary main_v61 main_v69 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v69 main_v68 main_v70 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_20 (constant S_ .f32 0x00000000#32),
    StableHlo.unary main_cst_20 main_v71 (broadcastInDim S2000x6x128 ![] bcast_S_S2000x6x128 : (⟨S_, .f32⟩ : BufTy).Contents (Elt F) → (⟨S2000x6x128, .f32⟩ : BufTy).Contents (Elt F)),
    StableHlo.unary main_v3 main_v72 (broadcastInDim S100000x1 ![0] bcast_S100000_S100000x1_0 : (⟨S100000, .i32⟩ : BufTy).Contents (Elt F) → (⟨S100000x1, .i32⟩ : BufTy).Contents (Elt F)),
    StableHlo.ternary main_v71 main_v72 main_v70 main_v73 ((fun x i u => Host.scatterAdd scatter_S2000x6x128_S100000x1_S100000x6x128_12_0_0_1 x i u) : (⟨S2000x6x128, .f32⟩ : BufTy).Contents (Elt F) → (⟨S100000x1, .i32⟩ : BufTy).Contents (Elt F) → (⟨S100000x6x128, .f32⟩ : BufTy).Contents (Elt F) → (⟨S2000x6x128, .f32⟩ : BufTy).Contents (Elt F)),
    StableHlo.nullary main_c_21 (constantI S_ 32 0#32),
    StableHlo.unary main_c_21 main_v74 (broadcastInDim S100000 ![] bcast_S_S100000 : (⟨S_, .i32⟩ : BufTy).Contents (Elt F) → (⟨S100000, .i32⟩ : BufTy).Contents (Elt F)),
    StableHlo.binary main_v1 main_v74 main_v75 (cmpi .slt : (⟨S100000, .i32⟩ : BufTy).Contents (Elt F) → (⟨S100000, .i32⟩ : BufTy).Contents (Elt F) → (⟨S100000, .i1⟩ : BufTy).Contents (Elt F)),
    StableHlo.nullary main_c_22 (constantI S_ 32 20000#32),
    StableHlo.unary main_c_22 main_v76 (broadcastInDim S100000 ![] bcast_S_S100000 : (⟨S_, .i32⟩ : BufTy).Contents (Elt F) → (⟨S100000, .i32⟩ : BufTy).Contents (Elt F)),
    StableHlo.binary main_v1 main_v76 main_v77 (addi : (⟨S100000, .i32⟩ : BufTy).Contents (Elt F) → (⟨S100000, .i32⟩ : BufTy).Contents (Elt F) → (⟨S100000, .i32⟩ : BufTy).Contents (Elt F)),
    StableHlo.ternary main_v75 main_v77 main_v1 main_v78 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v78 main_v79 (broadcastInDim S100000x1 ![0] bcast_S100000_S100000x1_0 : (⟨S100000, .i32⟩ : BufTy).Contents (Elt F) → (⟨S100000x1, .i32⟩ : BufTy).Contents (Elt F)),
    StableHlo.binary main_v47 main_v79 main_v80 ((fun x i => Host.gather gather_S20000x6_S100000x1_S100000x6_1_0_n_n_0_1_16 x i) : (⟨S20000x6, .f32⟩ : BufTy).Contents (Elt F) → (⟨S100000x1, .i32⟩ : BufTy).Contents (Elt F) → (⟨S100000x6, .f32⟩ : BufTy).Contents (Elt F)),
    StableHlo.binary main_v80 main_v35 main_v81 (mulf : (⟨S100000x6, .f32⟩ : BufTy).Contents (Elt F) → (⟨S100000x6, .f32⟩ : BufTy).Contents (Elt F) → (⟨S100000x6, .f32⟩ : BufTy).Contents (Elt F)),
    StableHlo.unary main_v81 main_v82 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_23 (constantI S_ 32 0#32),
    StableHlo.unary main_c_23 main_v83 (broadcastInDim S100000 ![] bcast_S_S100000 : (⟨S_, .i32⟩ : BufTy).Contents (Elt F) → (⟨S100000, .i32⟩ : BufTy).Contents (Elt F)),
    StableHlo.binary main_v3 main_v83 main_v84 (cmpi .slt : (⟨S100000, .i32⟩ : BufTy).Contents (Elt F) → (⟨S100000, .i32⟩ : BufTy).Contents (Elt F) → (⟨S100000, .i1⟩ : BufTy).Contents (Elt F)),
    StableHlo.nullary main_c_24 (constantI S_ 32 2000#32),
    StableHlo.unary main_c_24 main_v85 (broadcastInDim S100000 ![] bcast_S_S100000 : (⟨S_, .i32⟩ : BufTy).Contents (Elt F) → (⟨S100000, .i32⟩ : BufTy).Contents (Elt F)),
    StableHlo.binary main_v3 main_v85 main_v86 (addi : (⟨S100000, .i32⟩ : BufTy).Contents (Elt F) → (⟨S100000, .i32⟩ : BufTy).Contents (Elt F) → (⟨S100000, .i32⟩ : BufTy).Contents (Elt F)),
    StableHlo.ternary main_v84 main_v86 main_v3 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v87 main_v88 (broadcastInDim S100000x1 ![0] bcast_S100000_S100000x1_0 : (⟨S100000, .i32⟩ : BufTy).Contents (Elt F) → (⟨S100000x1, .i32⟩ : BufTy).Contents (Elt F)),
    StableHlo.binary main_v73 main_v88 main_v89 ((fun x i => Host.gather gather_S2000x6x128_S100000x1_S100000x6x128_12_0_n_n_0_1_16128 x i) : (⟨S2000x6x128, .f32⟩ : BufTy).Contents (Elt F) → (⟨S100000x1, .i32⟩ : BufTy).Contents (Elt F) → (⟨S100000x6x128, .f32⟩ : BufTy).Contents (Elt F)),
    StableHlo.unary main_v82 main_v90 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v90 main_v89 main_v91 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_25 (constant S_ .f32 0x00000000#32) ]

/-- A piece of stretch 5: 6 operations, window 2. -/
abbrev a5_6 : List (HloOp τ sig (Elt F)) :=
  [ StableHlo.unary main_cst_25 main_v92 (broadcastInDim S20000x6x128 ![] bcast_S_S20000x6x128 : (⟨S_, .f32⟩ : BufTy).Contents (Elt F) → (⟨S20000x6x128, .f32⟩ : BufTy).Contents (Elt F)),
    StableHlo.unary main_v1 main_v93 (broadcastInDim S100000x1 ![0] bcast_S100000_S100000x1_0 : (⟨S100000, .i32⟩ : BufTy).Contents (Elt F) → (⟨S100000x1, .i32⟩ : BufTy).Contents (Elt F)),
    StableHlo.ternary main_v92 main_v93 main_v91 main_v94 ((fun x i u => Host.scatterAdd scatter_S20000x6x128_S100000x1_S100000x6x128_12_0_0_1 x i u) : (⟨S20000x6x128, .f32⟩ : BufTy).Contents (Elt F) → (⟨S100000x1, .i32⟩ : BufTy).Contents (Elt F) → (⟨S100000x6x128, .f32⟩ : BufTy).Contents (Elt F) → (⟨S20000x6x128, .f32⟩ : BufTy).Contents (Elt F)),
    StableHlo.unary main_arg6 main_v95 (broadcastInDim S1x1x128 ![2] bcast_S128_S1x1x128_2 : (⟨S128, .f32⟩ : BufTy).Contents (Elt F) → (⟨S1x1x128, .f32⟩ : BufTy).Contents (Elt F)),
    StableHlo.unary main_v95 main_v96 (broadcastInDim S20000x6x128 ![0, 1, 2] bcast_S1x1x128_S20000x6x128_0_1_2 : (⟨S1x1x128, .f32⟩ : BufTy).Contents (Elt F) → (⟨S20000x6x128, .f32⟩ : BufTy).Contents (Elt F)),
    StableHlo.binary main_v94 main_v96 main_v97 (addf : (⟨S20000x6x128, .f32⟩ : BufTy).Contents (Elt F) → (⟨S20000x6x128, .f32⟩ : BufTy).Contents (Elt F) → (⟨S20000x6x128, .f32⟩ : BufTy).Contents (Elt F)) ]

theorem seg5_pieces : (RefOps.seg5 : List (HloOp τ sig (Elt F))) = a5_0 ++ a5_1 ++ a5_2 ++ a5_3 ++ a5_4 ++ a5_5 ++ a5_6 := rfl

end Cert.ReferenceIdeal.RefRun

end
-- ==== Proof.RefRunB.lean ====
/-
  The stretches of the reference program's line of operations, part B: each operation determines its results and writes
  one buffer that is no argument; and a stretch that a call or a window of the printed program cuts, as the
  concatenation of its pieces (a called function's operations one piece).
-/
import proofs.«106504_j2594160246965_1_alg».proof.Proof.RefRunDefs

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- Stretch 6 (15 operations, results %98 … %98): each is such an operation. -/
theorem seg6_ok : (RefOps.seg6 : List (HloOp τ sig (Elt F))).Forall OpOk :=
  ⟨⟨rfl, (main_call2.cst).ref, rfl, rfl, by decide⟩,
   ⟨rfl, (main_call2.v0).ref, rfl, rfl, by decide⟩,
   ⟨rfl, (main_call2.v1).ref, rfl, rfl, by decide⟩,
   ⟨rfl, (main_call2.cst_0).ref, rfl, rfl, by decide⟩,
   ⟨rfl, (main_call2.v2).ref, rfl, rfl, by decide⟩,
   ⟨rfl, (main_call2.v3).ref, rfl, rfl, by decide⟩,
   ⟨rfl, (main_call2.cst_1).ref, rfl, rfl, by decide⟩,
   ⟨rfl, (main_call2.call0.v0).ref, rfl, rfl, by decide⟩,
   ⟨rfl, (main_call2.call0.v1).ref, rfl, rfl, by decide⟩,
   ⟨rfl, (main_call2.call0.v2).ref, rfl, rfl, by decide⟩,
   ⟨rfl, (main_call2.v5).ref, rfl, rfl, by decide⟩,
   ⟨rfl, (main_call2.cst_2).ref, rfl, rfl, by decide⟩,
   ⟨rfl, (main_call2.v6).ref, rfl, rfl, by decide⟩,
   ⟨rfl, (main_call2.v7).ref, rfl, rfl, by decide⟩,
   ⟨rfl, (main_call2.call1.v0).ref, rfl, rfl, by decide⟩⟩

/-- A piece of stretch 6: 7 operations of the call with record main_call2, window 2. -/
abbrev a6_0 : List (HloOp τ sig (Elt F)) :=
  [ StableHlo.TRef.nullary main_call2.cst (constant S_ .f32 0x00000000#32),
    StableHlo.TRef.unary main_call2.cst main_call2.v0 (broadcastInDim S20000x6x128 ![] bcast_S_S20000x6x128),
    StableHlo.TRef.binary (.of main_v97) main_call2.v0 main_call2.v1 (cmpf .ogt),
    StableHlo.TRef.nullary main_call2.cst_0 (constant S_ .f32 0x00000000#32),
    StableHlo.TRef.unary main_call2.cst_0 main_call2.v2 (broadcastInDim S20000x6x128 ![] bcast_S_S20000x6x128),
    StableHlo.TRef.binary (.of main_v97) main_call2.v2 main_call2.v3 (cmpf .ogt),
    StableHlo.TRef.nullary main_call2.cst_1 (constant S_ .f32 0x00000000#32) ]

/-- A piece of stretch 6: 3 operations of the call with record main_call2.call0, window 2. -/
abbrev a6_1 : List (HloOp τ sig (Elt F)) :=
  [ StableHlo.TRef.unary main_call2.cst_1 main_call2.call0.v0 id,
    StableHlo.TRef.unary main_call2.call0.v0 main_call2.call0.v1 (broadcastInDim S20000x6x128 ![] bcast_S_S20000x6x128),
    StableHlo.TRef.ternary main_call2.v3 main_call2.call0.v1 (.of main_v97) main_call2.call0.v2 select ]

/-- A piece of stretch 6: 4 operations of the call with record main_call2, window 2. -/
abbrev a6_2 : List (HloOp τ sig (Elt F)) :=
  [ StableHlo.TRef.unary main_call2.call0.v2 main_call2.v5 Host.expm1,
    StableHlo.TRef.nullary main_call2.cst_2 (constant S_ .f32 0x3F800000#32),
    StableHlo.TRef.unary main_call2.cst_2 main_call2.v6 (broadcastInDim S20000x6x128 ![] bcast_S_S20000x6x128),
    StableHlo.TRef.binary main_call2.v6 main_call2.v5 main_call2.v7 mulf ]

/-- A piece of stretch 6: 1 operations of the call with record main_call2.call1, window 2. -/
abbrev a6_3 : List (HloOp τ sig (Elt F)) :=
  [ StableHlo.TRef.ternary main_call2.v1 (.of main_v97) main_call2.v7 main_call2.call1.v0 select ]

theorem seg6_pieces : (RefOps.seg6 : List (HloOp τ sig (Elt F))) = a6_0 ++ a6_1 ++ a6_2 ++ a6_3 := rfl

/-- Stretch 7 (1 operations, results %99 … %99): each is such an operation. -/
theorem seg7_ok : (RefOps.seg7 : List (HloOp τ sig (Elt F))).Forall OpOk :=
  ⟨rfl, main_v99, rfl, rfl, by decide⟩

/-- Stretch 8 (83 operations, results %cst_26 … %160): each is such an operation. -/
theorem seg8_ok : (RefOps.seg8 : List (HloOp τ sig (Elt F))).Forall OpOk :=
  ⟨⟨rfl, main_cst_26, rfl, rfl, by decide⟩,
   ⟨rfl, main_v100, rfl, rfl, by decide⟩,
   ⟨rfl, main_v101, rfl, rfl, by decide⟩,
   ⟨rfl, main_v102, rfl, rfl, by decide⟩,
   ⟨rfl, main_cst_27, rfl, rfl, by decide⟩,
   ⟨rfl, main_v103, rfl, rfl, by decide⟩,
   ⟨rfl, main_v104, rfl, rfl, by decide⟩,
   ⟨rfl, main_v105, rfl, rfl, by decide⟩,
   ⟨rfl, main_cst_28, rfl, rfl, by decide⟩,
   ⟨rfl, main_v106, rfl, rfl, by decide⟩,
   ⟨rfl, main_v107, rfl, rfl, by decide⟩,
   ⟨rfl, main_cst_29, rfl, rfl, by decide⟩,
   ⟨rfl, main_v108, rfl, rfl, by decide⟩,
   ⟨rfl, main_v109, rfl, rfl, by decide⟩,
   ⟨rfl, main_cst_30, rfl, rfl, by decide⟩,
   ⟨rfl, (main_call3.v0).ref, rfl, rfl, by decide⟩,
   ⟨rfl, (main_call3.v1).ref, rfl, rfl, by decide⟩,
   ⟨rfl, (main_call3.v2).ref, rfl, rfl, by decide⟩,
   ⟨rfl, main_cst_31, rfl, rfl, by decide⟩,
   ⟨rfl, main_v111, rfl, rfl, by decide⟩,
   ⟨rfl, main_v112, rfl, rfl, by decide⟩,
   ⟨rfl, main_cst_32, rfl, rfl, by decide⟩,
   ⟨rfl, main_v113, rfl, rfl, by decide⟩,
   ⟨rfl, main_v114, rfl, rfl, by decide⟩,
   ⟨rfl, main_cst_33, rfl, rfl, by decide⟩,
   ⟨rfl, (main_call4.v0).ref, rfl, rfl, by decide⟩,
   ⟨rfl, (main_call4.v1).ref, rfl, rfl, by decide⟩,
   ⟨rfl, (main_call4.v2).ref, rfl, rfl, by decide⟩,
   ⟨rfl, main_c_34, rfl, rfl, by decide⟩,
   ⟨rfl, main_v116, rfl, rfl, by decide⟩,
   ⟨rfl, main_v117, rfl, rfl, by decide⟩,
   ⟨rfl, main_c_35, rfl, rfl, by decide⟩,
   ⟨rfl, main_v118, rfl, rfl, by decide⟩,
   ⟨rfl, main_v119, rfl, rfl, by decide⟩,
   ⟨rfl, main_v120, rfl, rfl, by decide⟩,
   ⟨rfl, main_v121, rfl, rfl, by decide⟩,
   ⟨rfl, main_v122, rfl, rfl, by decide⟩,
   ⟨rfl, main_v123, rfl, rfl, by decide⟩,
   ⟨rfl, main_v124, rfl, rfl, by decide⟩,
   ⟨rfl, main_c_36, rfl, rfl, by decide⟩,
   ⟨rfl, main_v125, rfl, rfl, by decide⟩,
   ⟨rfl, main_v126, rfl, rfl, by decide⟩,
   ⟨rfl, main_c_37, rfl, rfl, by decide⟩,
   ⟨rfl, main_v127, rfl, rfl, by decide⟩,
   ⟨rfl, main_v128, rfl, rfl, by decide⟩,
   ⟨rfl, main_v129, rfl, rfl, by decide⟩,
   ⟨rfl, main_v130, rfl, rfl, by decide⟩,
   ⟨rfl, main_v131, rfl, rfl, by decide⟩,
   ⟨rfl, main_v132, rfl, rfl, by decide⟩,
   ⟨rfl, main_v133, rfl, rfl, by decide⟩,
   ⟨rfl, main_cst_38, rfl, rfl, by decide⟩,
   ⟨rfl, main_v134, rfl, rfl, by decide⟩,
   ⟨rfl, main_v135, rfl, rfl, by decide⟩,
   ⟨rfl, main_v136, rfl, rfl, by decide⟩,
   ⟨rfl, main_c_39, rfl, rfl, by decide⟩,
   ⟨rfl, main_v137, rfl, rfl, by decide⟩,
   ⟨rfl, main_v138, rfl, rfl, by decide⟩,
   ⟨rfl, main_c_40, rfl, rfl, by decide⟩,
   ⟨rfl, main_v139, rfl, rfl, by decide⟩,
   ⟨rfl, main_v140, rfl, rfl, by decide⟩,
   ⟨rfl, main_v141, rfl, rfl, by decide⟩,
   ⟨rfl, main_v142, rfl, rfl, by decide⟩,
   ⟨rfl, main_v143, rfl, rfl, by decide⟩,
   ⟨rfl, main_v144, rfl, rfl, by decide⟩,
   ⟨rfl, main_v145, rfl, rfl, by decide⟩,
   ⟨rfl, main_c_41, rfl, rfl, by decide⟩,
   ⟨rfl, main_v146, rfl, rfl, by decide⟩,
   ⟨rfl, main_v147, rfl, rfl, by decide⟩,
   ⟨rfl, main_c_42, rfl, rfl, by decide⟩,
   ⟨rfl, main_v148, rfl, rfl, by decide⟩,
   ⟨rfl, main_v149, rfl, rfl, by decide⟩,
   ⟨rfl, main_v150, rfl, rfl, by decide⟩,
   ⟨rfl, main_v151, rfl, rfl, by decide⟩,
   ⟨rfl, main_v152, rfl, rfl, by decide⟩,
   ⟨rfl, main_v153, rfl, rfl, by decide⟩,
   ⟨rfl, main_v154, rfl, rfl, by decide⟩,
   ⟨rfl, main_cst_43, rfl, rfl, by decide⟩,
   ⟨rfl, main_v155, rfl, rfl, by decide⟩,
   ⟨rfl, main_v156, rfl, rfl, by decide⟩,
   ⟨rfl, main_v157, rfl, rfl, by decide⟩,
   ⟨rfl, main_v158, rfl, rfl, by decide⟩,
   ⟨rfl, main_v159, rfl, rfl, by decide⟩,
   ⟨rfl, main_v160, rfl, rfl, by decide⟩⟩

/-- A piece of stretch 8: 15 operations, window 2. -/
abbrev a8_0 : List (HloOp τ sig (Elt F)) :=
  [ StableHlo.nullary main_cst_26 (constant S_ .f32 0x00000000#32),
    StableHlo.unary main_cst_26 main_v100 (broadcastInDim S20000x6 ![] bcast_S_S20000x6 : (⟨S_, .f32⟩ : BufTy).Contents (Elt F) → (⟨S20000x6, .f32⟩ : BufTy).Contents (Elt F)),
    StableHlo.unary main_v1 main_v101 (broadcastInDim S100000x1 ![0] bcast_S100000_S100000x1_0 : (⟨S100000, .i32⟩ : BufTy).Contents (Elt F) → (⟨S100000x1, .i32⟩ : BufTy).Contents (Elt F)),
    StableHlo.ternary main_v100 main_v101 main_v35 main_v102 ((fun x i u => Host.scatterAdd scatter_S20000x6_S100000x1_S100000x6_1_0_0_1 x i u) : (⟨S20000x6, .f32⟩ : BufTy).Contents (Elt F) → (⟨S100000x1, .i32⟩ : BufTy).Contents (Elt F) → (⟨S100000x6, .f32⟩ : BufTy).Contents (Elt F) → (⟨S20000x6, .f32⟩ : BufTy).Contents (Elt F)),
    StableHlo.nullary main_cst_27 (constant S_ .f32 0x00000000#32),
    StableHlo.unary main_cst_27 main_v103 (broadcastInDim S2000x6 ![] bcast_S_S2000x6 : (⟨S_, .f32⟩ : BufTy).Contents (Elt F) → (⟨S2000x6, .f32⟩ : BufTy).Contents (Elt F)),
    StableHlo.unary main_v3 main_v104 (broadcastInDim S100000x1 ![0] bcast_S100000_S100000x1_0 : (⟨S100000, .i32⟩ : BufTy).Contents (Elt F) → (⟨S100000x1, .i32⟩ : BufTy).Contents (Elt F)),
    StableHlo.ternary main_v103 main_v104 main_v35 main_v105 ((fun x i u => Host.scatterAdd scatter_S2000x6_S100000x1_S100000x6_1_0_0_1 x i u) : (⟨S2000x6, .f32⟩ : BufTy).Contents (Elt F) → (⟨S100000x1, .i32⟩ : BufTy).Contents (Elt F) → (⟨S100000x6, .f32⟩ : BufTy).Contents (Elt F) → (⟨S2000x6, .f32⟩ : BufTy).Contents (Elt F)),
    StableHlo.nullary main_cst_28 (constant S_ .f32 0x00000000#32),
    StableHlo.unary main_cst_28 main_v106 (broadcastInDim S20000x6 ![] bcast_S_S20000x6 : (⟨S_, .f32⟩ : BufTy).Contents (Elt F) → (⟨S20000x6, .f32⟩ : BufTy).Contents (Elt F)),
    StableHlo.binary main_v102 main_v106 main_v107 (cmpf .une : (⟨S20000x6, .f32⟩ : BufTy).Contents (Elt F) → (⟨S20000x6, .f32⟩ : BufTy).Contents (Elt F) → (⟨S20000x6, .i1⟩ : BufTy).Contents (Elt F)),
    StableHlo.nullary main_cst_29 (constant S_ .f32 0x3F800000#32),
    StableHlo.unary main_cst_29 main_v108 (broadcastInDim S20000x6 ![] bcast_S_S20000x6 : (⟨S_, .f32⟩ : BufTy).Contents (Elt F) → (⟨S20000x6, .f32⟩ : BufTy).Contents (Elt F)),
    StableHlo.binary main_v108 main_v102 main_v109 (Host.divf : (⟨S20000x6, .f32⟩ : BufTy).Contents (Elt F) → (⟨S20000x6, .f32⟩ : BufTy).Contents (Elt F) → (⟨S20000x6, .f32⟩ : BufTy).Contents (Elt F)),
    StableHlo.nullary main_cst_30 (constant S_ .f32 0x00000000#32) ]

/-- A piece of stretch 8: 3 operations of the call with record main_call3, window 2. -/
abbrev a8_1 : List (HloOp τ sig (Elt F)) :=
  [ StableHlo.TRef.unary (.of main_cst_30) main_call3.v0 id,
    StableHlo.TRef.unary main_call3.v0 main_call3.v1 (broadcastInDim S20000x6 ![] bcast_S_S20000x6),
    StableHlo.TRef.ternary (.of main_v107) (.of main_v109) main_call3.v1 main_call3.v2 select ]

/-- A piece of stretch 8: 7 operations, window 2. -/
abbrev a8_2 : List (HloOp τ sig (Elt F)) :=
  [ StableHlo.nullary main_cst_31 (constant S_ .f32 0x00000000#32),
    StableHlo.unary main_cst_31 main_v111 (broadcastInDim S2000x6 ![] bcast_S_S2000x6 : (⟨S_, .f32⟩ : BufTy).Contents (Elt F) → (⟨S2000x6, .f32⟩ : BufTy).Contents (Elt F)),
    StableHlo.binary main_v105 main_v111 main_v112 (cmpf .une : (⟨S2000x6, .f32⟩ : BufTy).Contents (Elt F) → (⟨S2000x6, .f32⟩ : BufTy).Contents (Elt F) → (⟨S2000x6, .i1⟩ : BufTy).Contents (Elt F)),
    StableHlo.nullary main_cst_32 (constant S_ .f32 0x3F800000#32),
    StableHlo.unary main_cst_32 main_v113 (broadcastInDim S2000x6 ![] bcast_S_S2000x6 : (⟨S_, .f32⟩ : BufTy).Contents (Elt F) → (⟨S2000x6, .f32⟩ : BufTy).Contents (Elt F)),
    StableHlo.binary main_v113 main_v105 main_v114 (Host.divf : (⟨S2000x6, .f32⟩ : BufTy).Contents (Elt F) → (⟨S2000x6, .f32⟩ : BufTy).Contents (Elt F) → (⟨S2000x6, .f32⟩ : BufTy).Contents (Elt F)),
    StableHlo.nullary main_cst_33 (constant S_ .f32 0x00000000#32) ]

/-- A piece of stretch 8: 3 operations of the call with record main_call4, window 2. -/
abbrev a8_3 : List (HloOp τ sig (Elt F)) :=
  [ StableHlo.TRef.unary (.of main_cst_33) main_call4.v0 id,
    StableHlo.TRef.unary main_call4.v0 main_call4.v1 (broadcastInDim S2000x6 ![] bcast_S_S2000x6),
    StableHlo.TRef.ternary (.of main_v112) (.of main_v114) main_call4.v1 main_call4.v2 select ]

/-- A piece of stretch 8: 28 operations, window 2. -/
abbrev a8_4 : List (HloOp τ sig (Elt F)) :=
  [ StableHlo.nullary main_c_34 (constantI S_ 32 0#32),
    StableHlo.unary main_c_34 main_v116 (broadcastInDim S100000 ![] bcast_S_S100000 : (⟨S_, .i32⟩ : BufTy).Contents (Elt F) → (⟨S100000, .i32⟩ : BufTy).Contents (Elt F)),
    StableHlo.binary main_v3 main_v116 main_v117 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 2000#32),
    StableHlo.unary main_c_35 main_v118 (broadcastInDim S100000 ![] bcast_S_S100000 : (⟨S_, .i32⟩ : BufTy).Contents (Elt F) → (⟨S100000, .i32⟩ : BufTy).Contents (Elt F)),
    StableHlo.binary main_v3 main_v118 main_v119 (addi : (⟨S100000, .i32⟩ : BufTy).Contents (Elt F) → (⟨S100000, .i32⟩ : BufTy).Contents (Elt F) → (⟨S100000, .i32⟩ : BufTy).Contents (Elt F)),
    StableHlo.ternary main_v117 main_v119 main_v3 main_v120 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v120 main_v121 (broadcastInDim S100000x1 ![0] bcast_S100000_S100000x1_0 : (⟨S100000, .i32⟩ : BufTy).Contents (Elt F) → (⟨S100000x1, .i32⟩ : BufTy).Contents (Elt F)),
    StableHlo.binary main_v115 main_v121 main_v122 ((fun x i => Host.gather gather_S2000x6_S100000x1_S100000x6_1_0_n_n_0_1_16 x i) : (⟨S2000x6, .f32⟩ : BufTy).Contents (Elt F) → (⟨S100000x1, .i32⟩ : BufTy).Contents (Elt F) → (⟨S100000x6, .f32⟩ : BufTy).Contents (Elt F)),
    StableHlo.binary main_v122 main_v35 main_v123 (mulf : (⟨S100000x6, .f32⟩ : BufTy).Contents (Elt F) → (⟨S100000x6, .f32⟩ : BufTy).Contents (Elt F) → (⟨S100000x6, .f32⟩ : BufTy).Contents (Elt F)),
    StableHlo.unary main_v123 main_v124 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_36 (constantI S_ 32 0#32),
    StableHlo.unary main_c_36 main_v125 (broadcastInDim S100000 ![] bcast_S_S100000 : (⟨S_, .i32⟩ : BufTy).Contents (Elt F) → (⟨S100000, .i32⟩ : BufTy).Contents (Elt F)),
    StableHlo.binary main_v1 main_v125 main_v126 (cmpi .slt : (⟨S100000, .i32⟩ : BufTy).Contents (Elt F) → (⟨S100000, .i32⟩ : BufTy).Contents (Elt F) → (⟨S100000, .i1⟩ : BufTy).Contents (Elt F)),
    StableHlo.nullary main_c_37 (constantI S_ 32 20000#32),
    StableHlo.unary main_c_37 main_v127 (broadcastInDim S100000 ![] bcast_S_S100000 : (⟨S_, .i32⟩ : BufTy).Contents (Elt F) → (⟨S100000, .i32⟩ : BufTy).Contents (Elt F)),
    StableHlo.binary main_v1 main_v127 main_v128 (addi : (⟨S100000, .i32⟩ : BufTy).Contents (Elt F) → (⟨S100000, .i32⟩ : BufTy).Contents (Elt F) → (⟨S100000, .i32⟩ : BufTy).Contents (Elt F)),
    StableHlo.ternary main_v126 main_v128 main_v1 main_v129 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v129 main_v130 (broadcastInDim S100000x1 ![0] bcast_S100000_S100000x1_0 : (⟨S100000, .i32⟩ : BufTy).Contents (Elt F) → (⟨S100000x1, .i32⟩ : BufTy).Contents (Elt F)),
    StableHlo.binary main_v99 main_v130 main_v131 ((fun x i => Host.gather gather_S20000x6x128_S100000x1_S100000x6x128_12_0_n_n_0_1_16128 x i) : (⟨S20000x6x128, .f32⟩ : BufTy).Contents (Elt F) → (⟨S100000x1, .i32⟩ : BufTy).Contents (Elt F) → (⟨S100000x6x128, .f32⟩ : BufTy).Contents (Elt F)),
    StableHlo.unary main_v124 main_v132 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v132 main_v131 main_v133 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_38 (constant S_ .f32 0x00000000#32),
    StableHlo.unary main_cst_38 main_v134 (broadcastInDim S2000x6x128 ![] bcast_S_S2000x6x128 : (⟨S_, .f32⟩ : BufTy).Contents (Elt F) → (⟨S2000x6x128, .f32⟩ : BufTy).Contents (Elt F)),
    StableHlo.unary main_v3 main_v135 (broadcastInDim S100000x1 ![0] bcast_S100000_S100000x1_0 : (⟨S100000, .i32⟩ : BufTy).Contents (Elt F) → (⟨S100000x1, .i32⟩ : BufTy).Contents (Elt F)),
    StableHlo.ternary main_v134 main_v135 main_v133 main_v136 ((fun x i u => Host.scatterAdd scatter_S2000x6x128_S100000x1_S100000x6x128_12_0_0_1 x i u) : (⟨S2000x6x128, .f32⟩ : BufTy).Contents (Elt F) → (⟨S100000x1, .i32⟩ : BufTy).Contents (Elt F) → (⟨S100000x6x128, .f32⟩ : BufTy).Contents (Elt F) → (⟨S2000x6x128, .f32⟩ : BufTy).Contents (Elt F)),
    StableHlo.nullary main_c_39 (constantI S_ 32 0#32),
    StableHlo.unary main_c_39 main_v137 (broadcastInDim S100000 ![] bcast_S_S100000 : (⟨S_, .i32⟩ : BufTy).Contents (Elt F) → (⟨S100000, .i32⟩ : BufTy).Contents (Elt F)) ]

/-- A piece of stretch 8: 27 operations, window 3. -/
abbrev a8_5 : List (HloOp τ sig (Elt F)) :=
  [ StableHlo.binary main_v1 main_v137 main_v138 (cmpi .slt : (⟨S100000, .i32⟩ : BufTy).Contents (Elt F) → (⟨S100000, .i32⟩ : BufTy).Contents (Elt F) → (⟨S100000, .i1⟩ : BufTy).Contents (Elt F)),
    StableHlo.nullary main_c_40 (constantI S_ 32 20000#32),
    StableHlo.unary main_c_40 main_v139 (broadcastInDim S100000 ![] bcast_S_S100000 : (⟨S_, .i32⟩ : BufTy).Contents (Elt F) → (⟨S100000, .i32⟩ : BufTy).Contents (Elt F)),
    StableHlo.binary main_v1 main_v139 main_v140 (addi : (⟨S100000, .i32⟩ : BufTy).Contents (Elt F) → (⟨S100000, .i32⟩ : BufTy).Contents (Elt F) → (⟨S100000, .i32⟩ : BufTy).Contents (Elt F)),
    StableHlo.ternary main_v138 main_v140 main_v1 main_v141 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v141 main_v142 (broadcastInDim S100000x1 ![0] bcast_S100000_S100000x1_0 : (⟨S100000, .i32⟩ : BufTy).Contents (Elt F) → (⟨S100000x1, .i32⟩ : BufTy).Contents (Elt F)),
    StableHlo.binary main_v110 main_v142 main_v143 ((fun x i => Host.gather gather_S20000x6_S100000x1_S100000x6_1_0_n_n_0_1_16 x i) : (⟨S20000x6, .f32⟩ : BufTy).Contents (Elt F) → (⟨S100000x1, .i32⟩ : BufTy).Contents (Elt F) → (⟨S100000x6, .f32⟩ : BufTy).Contents (Elt F)),
    StableHlo.binary main_v143 main_v35 main_v144 (mulf : (⟨S100000x6, .f32⟩ : BufTy).Contents (Elt F) → (⟨S100000x6, .f32⟩ : BufTy).Contents (Elt F) → (⟨S100000x6, .f32⟩ : BufTy).Contents (Elt F)),
    StableHlo.unary main_v144 main_v145 (broadcastInDim S100000x6x1 ![0, 1] bcast_S100000x6_S100000x6x1_0_1 : (⟨S100000x6, .f32⟩ : BufTy).Contents (Elt F) → (⟨S100000x6x1, .f32⟩ : BufTy).Contents (Elt F)),
    StableHlo.nullary main_c_41 (constantI S_ 32 0#32),
    StableHlo.unary main_c_41 main_v146 (broadcastInDim S100000 ![] bcast_S_S100000 : (⟨S_, .i32⟩ : BufTy).Contents (Elt F) → (⟨S100000, .i32⟩ : BufTy).Contents (Elt F)),
    StableHlo.binary main_v3 main_v146 main_v147 (cmpi .slt : (⟨S100000, .i32⟩ : BufTy).Contents (Elt F) → (⟨S100000, .i32⟩ : BufTy).Contents (Elt F) → (⟨S100000, .i1⟩ : BufTy).Contents (Elt F)),
    StableHlo.nullary main_c_42 (constantI S_ 32 2000#32),
    StableHlo.unary main_c_42 main_v148 (broadcastInDim S100000 ![] bcast_S_S100000 : (⟨S_, .i32⟩ : BufTy).Contents (Elt F) → (⟨S100000, .i32⟩ : BufTy).Contents (Elt F)),
    StableHlo.binary main_v3 main_v148 main_v149 (addi : (⟨S100000, .i32⟩ : BufTy).Contents (Elt F) → (⟨S100000, .i32⟩ : BufTy).Contents (Elt F) → (⟨S100000, .i32⟩ : BufTy).Contents (Elt F)),
    StableHlo.ternary main_v147 main_v149 main_v3 main_v150 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v150 main_v151 (broadcastInDim S100000x1 ![0] bcast_S100000_S100000x1_0 : (⟨S100000, .i32⟩ : BufTy).Contents (Elt F) → (⟨S100000x1, .i32⟩ : BufTy).Contents (Elt F)),
    StableHlo.binary main_v136 main_v151 main_v152 ((fun x i => Host.gather gather_S2000x6x128_S100000x1_S100000x6x128_12_0_n_n_0_1_16128 x i) : (⟨S2000x6x128, .f32⟩ : BufTy).Contents (Elt F) → (⟨S100000x1, .i32⟩ : BufTy).Contents (Elt F) → (⟨S100000x6x128, .f32⟩ : BufTy).Contents (Elt F)),
    StableHlo.unary main_v145 main_v153 (broadcastInDim S100000x6x128 ![0, 1, 2] bcast_S100000x6x1_S100000x6x128_0_1_2 : (⟨S100000x6x1, .f32⟩ : BufTy).Contents (Elt F) → (⟨S100000x6x128, .f32⟩ : BufTy).Contents (Elt F)),
    StableHlo.binary main_v153 main_v152 main_v154 (mulf : (⟨S100000x6x128, .f32⟩ : BufTy).Contents (Elt F) → (⟨S100000x6x128, .f32⟩ : BufTy).Contents (Elt F) → (⟨S100000x6x128, .f32⟩ : BufTy).Contents (Elt F)),
    StableHlo.nullary main_cst_43 (constant S_ .f32 0x00000000#32),
    StableHlo.unary main_cst_43 main_v155 (broadcastInDim S20000x6x128 ![] bcast_S_S20000x6x128 : (⟨S_, .f32⟩ : BufTy).Contents (Elt F) → (⟨S20000x6x128, .f32⟩ : BufTy).Contents (Elt F)),
    StableHlo.unary main_v1 main_v156 (broadcastInDim S100000x1 ![0] bcast_S100000_S100000x1_0 : (⟨S100000, .i32⟩ : BufTy).Contents (Elt F) → (⟨S100000x1, .i32⟩ : BufTy).Contents (Elt F)),
    StableHlo.ternary main_v155 main_v156 main_v154 main_v157 ((fun x i u => Host.scatterAdd scatter_S20000x6x128_S100000x1_S100000x6x128_12_0_0_1 x i u) : (⟨S20000x6x128, .f32⟩ : BufTy).Contents (Elt F) → (⟨S100000x1, .i32⟩ : BufTy).Contents (Elt F) → (⟨S100000x6x128, .f32⟩ : BufTy).Contents (Elt F) → (⟨S20000x6x128, .f32⟩ : BufTy).Contents (Elt F)),
    StableHlo.unary main_arg8 main_v158 (broadcastInDim S1x1x128 ![2] bcast_S128_S1x1x128_2 : (⟨S128, .f32⟩ : BufTy).Contents (Elt F) → (⟨S1x1x128, .f32⟩ : BufTy).Contents (Elt F)),
    StableHlo.unary main_v158 main_v159 (broadcastInDim S20000x6x128 ![0, 1, 2] bcast_S1x1x128_S20000x6x128_0_1_2 : (⟨S1x1x128, .f32⟩ : BufTy).Contents (Elt F) → (⟨S20000x6x128, .f32⟩ : BufTy).Contents (Elt F)),
    StableHlo.binary main_v157 main_v159 main_v160 (addf : (⟨S20000x6x128, .f32⟩ : BufTy).Contents (Elt F) → (⟨S20000x6x128, .f32⟩ : BufTy).Contents (Elt F) → (⟨S20000x6x128, .f32⟩ : BufTy).Contents (Elt F)) ]

theorem seg8_pieces : (RefOps.seg8 : List (HloOp τ sig (Elt F))) = a8_0 ++ a8_1 ++ a8_2 ++ a8_3 ++ a8_4 ++ a8_5 := rfl

/-- Stretch 9 (2 operations, results %161 … %162): each is such an operation. -/
theorem seg9_ok : (RefOps.seg9 : List (HloOp τ sig (Elt F))).Forall OpOk :=
  ⟨⟨rfl, main_v161, rfl, rfl, by decide⟩,
   ⟨rfl, main_v162, rfl, rfl, by decide⟩⟩

end Cert.ReferenceIdeal.RefRun

end
-- ==== Proof.RefRunWin.lean ====
/-
  The reference program is the straight line of its operations: each printed window of @main is the chain of its pieces
  (a called function's body one piece, or a chain of pieces when it calls in turn), a chain of lines is the line of the
  concatenation, and the four windows in order are @main.
-/
import proofs.«106504_j2594160246965_1_alg».proof.Proof.RefRunA
import proofs.«106504_j2594160246965_1_alg».proof.Proof.RefRunB
import Idealize.ShloMosaic.Lib.Pipeline.Regions

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- A line followed by the return is the line. -/
theorem seq_bind_pure {nD : Nat} {τ : Topo} {sig : RefSig} {Val : EltTy → Type} {Λ : Labels} (l : List (HloOp τ sig Val)) :
    ((seq l : Prog (TpuEff nD τ sig Val Λ .tc) PUnit) >>= fun _ => pure ⟨⟩) = seq l := bind_pure _

/-- Two lines in sequence are the line of their concatenation. -/
theorem seq_bind_seq {nD : Nat} {τ : Topo} {sig : RefSig} {Val : EltTy → Type} {Λ : Labels} (l₁ l₂ : List (HloOp τ sig Val)) :
    ((seq l₁ : Prog (TpuEff nD τ sig Val Λ .tc) PUnit) >>= fun _ => seq l₂) = seq (l₁ ++ l₂) := (seq_append l₁ l₂).symm

/-- Window 0 of @main, as one list. -/
abbrev win0 : List (HloOp τ sig (Elt F)) :=
  RefOps.seg0 ++ (RefOps.seg1 ++ (RefOps.seg2 ++ (RefOps.seg3 ++ (RefOps.seg4 ++ (a5_0)))))

/-- Window 0 is the chain of its pieces: both sides unfold to the same sequence of steps. -/
theorem main_part0_chain (c : Dev nD) : main_part0 (F := F) c = (Pipeline.chainK
  [ seq RefOps.seg0,
    seq RefOps.seg1,
    seq RefOps.seg2,
    seq RefOps.seg3,
    seq RefOps.seg4 ]
  (seq a5_0) : Prog (TpuEff nD τ sig (Elt F) (Pipeline.Sig Λ₀ (Fin 0) fun p => (pcfgs (F := F) p).Adm) .tc) PUnit) := by
  chain_rfl

/-- Window 0 is the line of its operations. -/
theorem main_part0_eq (c : Dev nD) : main_part0 (F := F) c = seq win0 := by
  rw [main_part0_chain]
  simp only [Pipeline.chainK, Pipeline.chain, seq_bind_pure, seq_bind_seq]

/-- Window 1 of @main, as one list. -/
abbrev win1 : List (HloOp τ sig (Elt F)) :=
  a5_1 ++ (a5_2 ++ (a5_3 ++ (a5_4 ++ (a5_5))))

/-- Window 1 is the chain of its pieces: both sides unfold to the same sequence of steps. -/
theorem main_part1_chain (c : Dev nD) : main_part1 (F := F) c = (Pipeline.chainK
  [ seq a5_1,
    seq a5_2,
    seq a5_3,
    seq a5_4 ]
  (seq a5_5) : Prog (TpuEff nD τ sig (Elt F) (Pipeline.Sig Λ₀ (Fin 0) fun p => (pcfgs (F := F) p).Adm) .tc) PUnit) := by
  chain_rfl

/-- Window 1 is the line of its operations. -/
theorem main_part1_eq (c : Dev nD) : main_part1 (F := F) c = seq win1 := by
  rw [main_part1_chain]
  simp only [Pipeline.chainK, Pipeline.chain, seq_bind_pure, seq_bind_seq]

/-- Window 2 of @main, as one list. -/
abbrev win2 : List (HloOp τ sig (Elt F)) :=
  a5_6 ++ ((a6_0 ++ (a6_1 ++ (a6_2 ++ (a6_3)))) ++ (RefOps.seg7 ++ (a8_0 ++ (a8_1 ++ (a8_2 ++ (a8_3 ++ (a8_4)))))))

/-- Window 2 is the chain of its pieces: both sides unfold to the same sequence of steps. -/
theorem main_part2_chain (c : Dev nD) : main_part2 (F := F) c = (Pipeline.chainK
  [ seq a5_6,
    Pipeline.chain [seq a6_0, seq a6_1, seq a6_2, seq a6_3],
    seq RefOps.seg7,
    seq a8_0,
    seq a8_1,
    seq a8_2,
    seq a8_3 ]
  (seq a8_4) : Prog (TpuEff nD τ sig (Elt F) (Pipeline.Sig Λ₀ (Fin 0) fun p => (pcfgs (F := F) p).Adm) .tc) PUnit) := by
  chain_rfl

/-- Window 2 is the line of its operations. -/
theorem main_part2_eq (c : Dev nD) : main_part2 (F := F) c = seq win2 := by
  rw [main_part2_chain]
  simp only [Pipeline.chainK, Pipeline.chain, seq_bind_pure, seq_bind_seq]

/-- Window 3 of @main, as one list. -/
abbrev win3 : List (HloOp τ sig (Elt F)) :=
  a8_5 ++ (RefOps.seg9)

/-- Window 3 is the chain of its pieces: both sides unfold to the same sequence of steps. -/
theorem main_part3_chain (c : Dev nD) : main_part3 (F := F) c = (Pipeline.chain
  [ seq a8_5,
    seq RefOps.seg9 ] : Prog (TpuEff nD τ sig (Elt F) (Pipeline.Sig Λ₀ (Fin 0) fun p => (pcfgs (F := F) p).Adm) .tc) PUnit) := by
  chain_rfl

/-- Window 3 is the line of its operations. -/
theorem main_part3_eq (c : Dev nD) : main_part3 (F := F) c = seq win3 := by
  rw [main_part3_chain]
  simp only [Pipeline.chainK, Pipeline.chain, seq_bind_pure, seq_bind_seq]

/-- The whole line, window after window. -/
abbrev opsW : List (HloOp τ sig (Elt F)) :=
  win0 ++ (win1 ++ (win2 ++ (win3)))

/-- @main is the line of the four windows' operations. -/
theorem main_eqW (c : Dev nD) : main (F := F) c = seq opsW := by
  show (main_part0 (F := F) c >>= fun _ => main_part1 (F := F) c >>= fun _ => main_part2 (F := F) c >>= fun _ => main_part3 (F := F) c) = _
  rw [main_part0_eq, main_part1_eq, main_part2_eq, main_part3_eq]
  simp only [seq_bind_seq]

end Cert.ReferenceIdeal.RefRun

end
-- ==== Proof.RefRun.lean ====
/-
  The run of the reference program.

  The program is a straight line of 231 operations on tensor values (its five calls replaced by the called functions'
  operations over the calls' own buffers). So: @main is the line; from any memory with zero counters every weakly fair
  execution terminates, and every buffer ends at the fold of the operations' results over its launch contents; no
  operation writes an argument (each writes one buffer, an HBM buffer of index at least ten, and the ten arguments are
  the first ten), so the arguments end as launched.
-/
import proofs.«106504_j2594160246965_1_alg».proof.Proof.RefRunWin
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-- A property of every operation of two lists is one of every operation of their concatenation. -/
theorem forall_append_of {α : Type} {p : α → Prop} {l₁ l₂ : List α} (h₁ : l₁.Forall p) (h₂ : l₂.Forall p) :
    (l₁ ++ l₂).Forall p := List.forall_append.mpr ⟨h₁, h₂⟩

/-- The line cut at the stretches is the line cut at the windows: the same operations in the same order, the
    concatenation re-associated. -/
theorem ops_eq : (RefOps.ops : List (HloOp τ sig (Elt F))) = opsW := by
  delta RefOps.ops opsW win0 win1 win2 win3
  rw [seg5_pieces, seg6_pieces, seg8_pieces]
  simp only [List.append_assoc]

/-- @main is the line. -/
theorem main_eq (c : Dev nD) : main (F := F) c = StableHlo.seq RefOps.ops := by
  rw [ops_eq]; exact main_eqW c

/-- Every operation of the line touches TensorCore references only. -/
theorem ops_sub : (RefOps.ops : List (HloOp τ sig (Elt F))).Forall fun op => op.bufs ⊆ tcRefs τ sig :=
  forall_append_of (forall_append_of (forall_append_of (forall_append_of (forall_append_of (forall_append_of (forall_append_of
    (forall_append_of (forall_append_of RefOps.seg0_sub RefOps.seg1_sub) RefOps.seg2_sub) RefOps.seg3_sub) RefOps.seg4_sub)
    RefOps.seg5_sub) RefOps.seg6_sub) RefOps.seg7_sub) RefOps.seg8_sub) RefOps.seg9_sub

/-- Every operation of the line determines its results and writes one buffer that is no argument. -/
theorem ops_ok : (RefOps.ops : List (HloOp τ sig (Elt F))).Forall OpOk :=
  forall_append_of (forall_append_of (forall_append_of (forall_append_of (forall_append_of (forall_append_of (forall_append_of
    (forall_append_of (forall_append_of seg0_ok seg1_ok) seg2_ok) seg3_ok) seg4_ok) seg5_ok) seg6_ok) seg7_ok) seg8_ok) seg9_ok

-- the enumerations over the signature's 241 references recurse past the default depth
set_option maxRecDepth 8192 in
/-- The program scopes no buffer. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after RefOps.ops (launchContents m c) (b : DevRef τ sig) :=
  run_seq scopedRefs_eq scopedSems_eq defs main (fun _ => RefOps.ops) main_eq (fun _ => ops_sub) m ρ
    (fun _ op hop => (List.forall_iff_forall_mem.mp ops_ok op hop).1)

/-- A reference the line never writes — an HBM buffer among the first ten — keeps its contents. -/
theorem kept (r : Ref sig .tc) (hs : r.space = .hbm) (hr : r.idx.val < 10) (V : Valuation τ sig (Elt F)) :
    StableHlo.after RefOps.ops V (r : DevRef τ sig) = V (r : DevRef τ sig) :=
  after_of_forall_not_mem RefOps.ops V fun op hop hb => by
    obtain ⟨-, y, hw, -, hge⟩ := List.forall_iff_forall_mem.mp ops_ok op hop
    rw [hw, Finset.mem_singleton] at hb
    have hry : r = y := Proc.devRef_injective _ hb
    subst hry
    omega

theorem kept_arg0 (V : Valuation τ sig (Elt F)) : StableHlo.after RefOps.ops V (main_arg0 : DevRef τ sig) = V (main_arg0 : DevRef τ sig) :=
  kept main_arg0 rfl (by decide) V
theorem kept_arg1 (V : Valuation τ sig (Elt F)) : StableHlo.after RefOps.ops V (main_arg1 : DevRef τ sig) = V (main_arg1 : DevRef τ sig) :=
  kept main_arg1 rfl (by decide) V
theorem kept_arg2 (V : Valuation τ sig (Elt F)) : StableHlo.after RefOps.ops V (main_arg2 : DevRef τ sig) = V (main_arg2 : DevRef τ sig) :=
  kept main_arg2 rfl (by decide) V
theorem kept_arg3 (V : Valuation τ sig (Elt F)) : StableHlo.after RefOps.ops V (main_arg3 : DevRef τ sig) = V (main_arg3 : DevRef τ sig) :=
  kept main_arg3 rfl (by decide) V
theorem kept_arg4 (V : Valuation τ sig (Elt F)) : StableHlo.after RefOps.ops V (main_arg4 : DevRef τ sig) = V (main_arg4 : DevRef τ sig) :=
  kept main_arg4 rfl (by decide) V
theorem kept_arg5 (V : Valuation τ sig (Elt F)) : StableHlo.after RefOps.ops V (main_arg5 : DevRef τ sig) = V (main_arg5 : DevRef τ sig) :=
  kept main_arg5 rfl (by decide) V
theorem kept_arg6 (V : Valuation τ sig (Elt F)) : StableHlo.after RefOps.ops V (main_arg6 : DevRef τ sig) = V (main_arg6 : DevRef τ sig) :=
  kept main_arg6 rfl (by decide) V
theorem kept_arg7 (V : Valuation τ sig (Elt F)) : StableHlo.after RefOps.ops V (main_arg7 : DevRef τ sig) = V (main_arg7 : DevRef τ sig) :=
  kept main_arg7 rfl (by decide) V
theorem kept_arg8 (V : Valuation τ sig (Elt F)) : StableHlo.after RefOps.ops V (main_arg8 : DevRef τ sig) = V (main_arg8 : DevRef τ sig) :=
  kept main_arg8 rfl (by decide) V
theorem kept_arg9 (V : Valuation τ sig (Elt F)) : StableHlo.after RefOps.ops V (main_arg9 : DevRef τ sig) = V (main_arg9 : DevRef τ sig) :=
  kept main_arg9 rfl (by decide) V

/-- The run leaves the ten arguments as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _)⟩)
    (run_main m ρ)

end Cert.ReferenceIdeal.RefRun

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibFoldCut.lean ====
/-
  Reading a long straight line of host operations back when it concatenates.

  * The contents after a list of operations are the contents after its tail, taken from the contents after its first `n`
    operations (`after_cut`), for any `n`: a line is cut where the reading needs it, without restating the list
    (`List.take` / `List.drop` of a literal list compute to literal lists by `List.take_succ_cons`, `List.take_zero`,
    `List.drop_succ_cons`, `List.drop_zero`).
  * Why one cuts at a concatenation: the operands of a `concatenate` sit in a list of (shape, array) pairs, and the proof
    that the pieces fit the result depends on that list, so a read-back by rewriting does not rewrite under it. What is left
    there is the fold through the operations BEFORE the concatenation. Closing that by computation is cheap when the
    concatenation is among the first operations of the piece being read and out of reach when dozens precede it; and a
    read-back that meets a concatenation below other operations can exhaust the recursion depth outright. So: cut the line
    right after its concatenations, name their results, and read the rest of the line with those buffers as inputs.
-/
import proofs.«106504_j2594160246965_1_alg».proof.Proof.LibTypedRefs

noncomputable section

namespace Idealize.ShloMosaic.StableHlo

variable {τ : Topo} {sig : RefSig} {Val : EltTy → Type}

/-- A fold over a list is the fold over its tail from the fold over its first `n` operations. -/
theorem after_cut (n : Nat) (l : List (HloOp τ sig Val)) (V : Valuation τ sig Val) :
    after l V = after (l.drop n) (after (l.take n) V) := by
  rw [← after_append, List.take_append_drop]

end Idealize.ShloMosaic.StableHlo

end
-- ==== Proof.ChainDefs.lean ====
/-
  The two runs side by side. The reference program's buffer contents after each of its ten stretches, as a fold from its
  launch memory; and the hypothesis under which the two programs are compared: the launch memories agree on the ten
  argument arrays.
-/
import proofs.«106504_j2594160246965_1_alg».proof.Proof.Gen.KernelIdeal.Frame
import proofs.«106504_j2594160246965_1_alg».proof.Proof.RefOps
import proofs.«106504_j2594160246965_1_alg».proof.Proof.LibFoldCut
import Idealize.ShloMosaic.PureOps.Ideal

noncomputable section

namespace Cert.Bridge

open Idealize.ShloMosaic Idealize.ShloMosaic.StableHlo Idealize.SL.Sem Cert.ReferenceIdeal.RefOps

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two launch memories hold the same ten argument arrays on device `c`. -/
def Agree : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- The reference's buffer contents at launch, and after each of its ten stretches. -/
abbrev R0 : Valuation Cert.ReferenceIdeal.τ Cert.ReferenceIdeal.sig (Elt Ideal) := launchContents m' c
abbrev R1 := after (seg0 (F := Ideal)) (R0 m' c)
abbrev R2 := after (seg1 (F := Ideal)) (R1 m' c)
abbrev R3 := after (seg2 (F := Ideal)) (R2 m' c)
abbrev R4 := after (seg3 (F := Ideal)) (R3 m' c)
abbrev R5 := after (seg4 (F := Ideal)) (R4 m' c)
abbrev R6 := after (seg5 (F := Ideal)) (R5 m' c)
abbrev R7 := after (seg6 (F := Ideal)) (R6 m' c)
abbrev R8 := after (seg7 (F := Ideal)) (R7 m' c)
abbrev R9 := after (seg8 (F := Ideal)) (R8 m' c)
abbrev R10 := after (seg9 (F := Ideal)) (R9 m' c)

/-- The whole line's fold is the tenth stretch's from the ninth's, and so on down. -/
theorem ops_fold : after (ops (F := Ideal)) (R0 m' c) = R10 m' c := by
  simp only [ops, after_append]

end Cert.Bridge

end
-- ==== Proof.Kept.lean ====
/-
  What a later boundary of the kernel program's run still holds of an earlier value.

  The run's buffer contents at its 22 boundaries are a fold: a stretch of host operations rewrites the buffers its
  operations write and leaves the rest; a kernel region rewrites its output array, leaves its input arrays as entered and
  does not touch any other buffer. So a buffer keeps its contents across every stretch that does not write it and every
  region that does not have it as its output: the ten argument arrays from the launch on, the two index vectors, the two
  projections and the gate from where they are computed on.
-/
import proofs.«106504_j2594160246965_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A stretch of host operations leaves a buffer none of them writes: each operation writes one buffer, and the buffer
    read is a different reference. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The edge list at launch. -/
theorem W0_arg1 (c : Dev nD) : W0 m ρ c (Proc.devRef .tc main_arg1) = m ((c : Thread nD τ).loc main_arg1) :=
  calc W0 m ρ c (Proc.devRef .tc main_arg1)
    _ = m ((c : Thread nD τ).loc main_arg1) := rfl

/-- Entering the first projection, its features are as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

/-- Entering the first projection, its weights are as launched. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl

/-- Entering the second projection, its features are as launched. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- Entering the second projection, the weights are as launched (the first projection only read them). -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 1).trans (((dat0 (V1 m ρ) c).arrAt_in 1 rfl _).trans (A_eq0 (V1 m ρ) c 1))
    _ = m ((c : Thread nD τ).loc main_arg3) := W1_arg3 m ρ c

/-- The two projections leave the index vector. -/
theorem W3_v1 (c : Dev nD) : W3 m ρ c (Proc.devRef .tc main_v1) = W1 m ρ c (Proc.devRef .tc main_v1) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)

/-- The two projections leave the index vector. -/
theorem W3_v3 (c : Dev nD) : W3 m ρ c (Proc.devRef .tc main_v3) = W1 m ρ c (Proc.devRef .tc main_v3) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)

/-- The second projection leaves the first one's result. -/
theorem W3_v4 (c : Dev nD) : W3 m ρ c (Proc.devRef .tc main_v4) = W2 m ρ c (Proc.devRef .tc main_v4) :=
  calc W3 m ρ c (Proc.devRef .tc main_v4)
    _ = W2 m ρ c (Proc.devRef .tc main_v4) := W3_of_ne m ρ c main_v4 (by decide)

/-- Entering the third region (the gate), its weights are as launched. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by host_keeps hostOps2
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

/-- The third region leaves the reshaped first projection: it is none of its arrays. -/
theorem W5_v6 (c : Dev nD) : W5 m ρ c (Proc.devRef .tc main_v6) = W4 m ρ c (Proc.devRef .tc main_v6) :=
  calc W5 m ρ c (Proc.devRef .tc main_v6)
    _ = W4 m ρ c (Proc.devRef .tc main_v6) := W5_of_ne m ρ c main_v6 (by decide)

/-- Entering the first channel mixing, its weights are as launched. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by host_keeps hostOps3
    _ = W4 m ρ c (Proc.devRef .tc main_arg5) := W5_of_ne m ρ c main_arg5 (by decide)
    _ = W3 m ρ c (Proc.devRef .tc main_arg5) := by host_keeps hostOps2
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- The first channel mixing and the reshape before it leave the gate (the third region's result). -/
theorem W7_v29 (c : Dev nD) : W7 m ρ c (Proc.devRef .tc main_v29) = W5 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := by host_keeps hostOps3

/-- The index vector is still the one computed at the start. -/
theorem W7_v1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := by host_keeps hostOps3
    _ = W4 m ρ c (Proc.devRef .tc main_v1) := W5_of_ne m ρ c main_v1 (by decide)
    _ = W3 m ρ c (Proc.devRef .tc main_v1) := by host_keeps hostOps2
    _ = W1 m ρ c (Proc.devRef .tc main_v1) := W3_v1 m ρ c

/-- The index vector is still the one computed at the start. -/
theorem W7_v3 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by host_keeps hostOps3
    _ = W4 m ρ c (Proc.devRef .tc main_v3) := W5_of_ne m ρ c main_v3 (by decide)
    _ = W3 m ρ c (Proc.devRef .tc main_v3) := by host_keeps hostOps2
    _ = W1 m ρ c (Proc.devRef .tc main_v3) := W3_v3 m ρ c

/-- After the first channel mixing the first bias is as launched. -/
theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by host_keeps hostOps3
    _ = W4 m ρ c (Proc.devRef .tc main_arg6) := W5_of_ne m ρ c main_arg6 (by decide)
    _ = W3 m ρ c (Proc.devRef .tc main_arg6) := by host_keeps hostOps2
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- Entering the second channel mixing, its weights are as launched: they are so at the end, and nothing from here on writes them. -/
theorem W14_arg7 (c : Dev nD) : W14 m ρ c (Proc.devRef .tc main_arg7) = m ((c : Thread nD τ).loc main_arg7) :=
  calc W14 m ρ c (Proc.devRef .tc main_arg7)
    _ = W15 m ρ c (Proc.devRef .tc main_arg7) := ((W15_arr m ρ c 1).trans (((dat5 (V14 m ρ) c).arrAt_in 1 rfl _).trans (A_eq5 (V14 m ρ) c 1))).symm
    _ = W16 m ρ c (Proc.devRef .tc main_arg7) := (show W16 m ρ c (Proc.devRef .tc main_arg7) = W15 m ρ c (Proc.devRef .tc main_arg7) by host_keeps hostOps6).symm
    _ = W17 m ρ c (Proc.devRef .tc main_arg7) := (show W17 m ρ c (Proc.devRef .tc main_arg7) = W16 m ρ c (Proc.devRef .tc main_arg7) by host_keeps hostOps6_1).symm
    _ = W18 m ρ c (Proc.devRef .tc main_arg7) := (show W18 m ρ c (Proc.devRef .tc main_arg7) = W17 m ρ c (Proc.devRef .tc main_arg7) by host_keeps hostOps6_2).symm
    _ = W19 m ρ c (Proc.devRef .tc main_arg7) := (show W19 m ρ c (Proc.devRef .tc main_arg7) = W18 m ρ c (Proc.devRef .tc main_arg7) by host_keeps hostOps6_3).symm
    _ = W20 m ρ c (Proc.devRef .tc main_arg7) := (show W20 m ρ c (Proc.devRef .tc main_arg7) = W19 m ρ c (Proc.devRef .tc main_arg7) by host_keeps hostOps6_4).symm
    _ = W21 m ρ c (Proc.devRef .tc main_arg7) := (W21_of_ne m ρ c main_arg7 (by decide)).symm
    _ = m ((c : Thread nD τ).loc main_arg7) := W21_main_arg7 m ρ c

/-- The first message passing and the second channel mixing leave the gate. -/
theorem W15_v29 (c : Dev nD) : W15 m ρ c (Proc.devRef .tc main_v29) = W5 m ρ c (Proc.devRef .tc main_v29) :=
  calc W15 m ρ c (Proc.devRef .tc main_v29)
    _ = W14 m ρ c (Proc.devRef .tc main_v29) := W15_of_ne m ρ c main_v29 (by decide)
    _ = W13 m ρ c (Proc.devRef .tc main_v29) := by host_keeps hostOps5
    _ = W12 m ρ c (Proc.devRef .tc main_v29) := W13_of_ne m ρ c main_v29 (by decide)
    _ = W11 m ρ c (Proc.devRef .tc main_v29) := by host_keeps hostOps4_4
    _ = W10 m ρ c (Proc.devRef .tc main_v29) := by host_keeps hostOps4_3
    _ = W9 m ρ c (Proc.devRef .tc main_v29) := by host_keeps hostOps4_2
    _ = W8 m ρ c (Proc.devRef .tc main_v29) := by host_keeps hostOps4_1
    _ = W7 m ρ c (Proc.devRef .tc main_v29) := by host_keeps hostOps4
    _ = W5 m ρ c (Proc.devRef .tc main_v29) := W7_v29 m ρ c

/-- The index vector is still the one computed at the start. -/
theorem W15_v1 (c : Dev nD) : W15 m ρ c (Proc.devRef .tc main_v1) = W1 m ρ c (Proc.devRef .tc main_v1) :=
  calc W15 m ρ c (Proc.devRef .tc main_v1)
    _ = W14 m ρ c (Proc.devRef .tc main_v1) := W15_of_ne m ρ c main_v1 (by decide)
    _ = W13 m ρ c (Proc.devRef .tc main_v1) := by host_keeps hostOps5
    _ = W12 m ρ c (Proc.devRef .tc main_v1) := W13_of_ne m ρ c main_v1 (by decide)
    _ = W11 m ρ c (Proc.devRef .tc main_v1) := by host_keeps hostOps4_4
    _ = W10 m ρ c (Proc.devRef .tc main_v1) := by host_keeps hostOps4_3
    _ = W9 m ρ c (Proc.devRef .tc main_v1) := by host_keeps hostOps4_2
    _ = W8 m ρ c (Proc.devRef .tc main_v1) := by host_keeps hostOps4_1
    _ = W7 m ρ c (Proc.devRef .tc main_v1) := by host_keeps hostOps4
    _ = W1 m ρ c (Proc.devRef .tc main_v1) := W7_v1 m ρ c

/-- The index vector is still the one computed at the start. -/
theorem W15_v3 (c : Dev nD) : W15 m ρ c (Proc.devRef .tc main_v3) = W1 m ρ c (Proc.devRef .tc main_v3) :=
  calc W15 m ρ c (Proc.devRef .tc main_v3)
    _ = W14 m ρ c (Proc.devRef .tc main_v3) := W15_of_ne m ρ c main_v3 (by decide)
    _ = W13 m ρ c (Proc.devRef .tc main_v3) := by host_keeps hostOps5
    _ = W12 m ρ c (Proc.devRef .tc main_v3) := W13_of_ne m ρ c main_v3 (by decide)
    _ = W11 m ρ c (Proc.devRef .tc main_v3) := by host_keeps hostOps4_4
    _ = W10 m ρ c (Proc.devRef .tc main_v3) := by host_keeps hostOps4_3
    _ = W9 m ρ c (Proc.devRef .tc main_v3) := by host_keeps hostOps4_2
    _ = W8 m ρ c (Proc.devRef .tc main_v3) := by host_keeps hostOps4_1
    _ = W7 m ρ c (Proc.devRef .tc main_v3) := by host_keeps hostOps4
    _ = W1 m ρ c (Proc.devRef .tc main_v3) := W7_v3 m ρ c

/-- After the second channel mixing the second bias is as launched: it is so at the end, and nothing from here on writes it. -/
theorem W15_arg8 (c : Dev nD) : W15 m ρ c (Proc.devRef .tc main_arg8) = m ((c : Thread nD τ).loc main_arg8) :=
  calc W15 m ρ c (Proc.devRef .tc main_arg8)
    _ = W16 m ρ c (Proc.devRef .tc main_arg8) := (show W16 m ρ c (Proc.devRef .tc main_arg8) = W15 m ρ c (Proc.devRef .tc main_arg8) by host_keeps hostOps6).symm
    _ = W17 m ρ c (Proc.devRef .tc main_arg8) := (show W17 m ρ c (Proc.devRef .tc main_arg8) = W16 m ρ c (Proc.devRef .tc main_arg8) by host_keeps hostOps6_1).symm
    _ = W18 m ρ c (Proc.devRef .tc main_arg8) := (show W18 m ρ c (Proc.devRef .tc main_arg8) = W17 m ρ c (Proc.devRef .tc main_arg8) by host_keeps hostOps6_2).symm
    _ = W19 m ρ c (Proc.devRef .tc main_arg8) := (show W19 m ρ c (Proc.devRef .tc main_arg8) = W18 m ρ c (Proc.devRef .tc main_arg8) by host_keeps hostOps6_3).symm
    _ = W20 m ρ c (Proc.devRef .tc main_arg8) := (show W20 m ρ c (Proc.devRef .tc main_arg8) = W19 m ρ c (Proc.devRef .tc main_arg8) by host_keeps hostOps6_4).symm
    _ = W21 m ρ c (Proc.devRef .tc main_arg8) := (W21_of_ne m ρ c main_arg8 (by decide)).symm
    _ = m ((c : Thread nD τ).loc main_arg8) := W21_main_arg8 m ρ c

/-- Entering the classifier product, its weights are as launched: the product only reads them. -/
theorem W20_arg9 (c : Dev nD) : W20 m ρ c (Proc.devRef .tc main_arg9) = m ((c : Thread nD τ).loc main_arg9) :=
  calc W20 m ρ c (Proc.devRef .tc main_arg9)
    _ = W21 m ρ c (Proc.devRef .tc main_arg9) := ((W21_arr m ρ c 1).trans (((dat6 (V20 m ρ) c).arrAt_in 1 rfl _).trans (A_eq6 (V20 m ρ) c 1))).symm
    _ = m ((c : Thread nD τ).loc main_arg9) := W21_main_arg9 m ρ c

end Cert.KernelIdeal.Gen

end
-- ==== Proof.Spec.lean ====
/-
  The two pointwise maps that the kernel program computes inside a kernel body and the reference program computes with
  host operations, written once in the reference's own spelling:

  * the logistic map of a matrix of logits, `1 / (1 + e^(-z))`, entry by entry;
  * the exponential linear unit `x ↦ x` where `x > 0` and `1 · (e^(x') - 1)` elsewhere, `x'` being `x` with its positive
    entries replaced by zero (the guarded form: where the unit's second branch is taken, `x' = x`).
-/
import proofs.«106504_j2594160246965_1_alg».proof.Proof.Gen.ReferenceIdeal
import Idealize.ShloMosaic.PureOps.Ideal

noncomputable section

namespace Cert.Spec

open Idealize.ShloMosaic Cert.ReferenceIdeal Cert.ReferenceIdeal.Facts₀

/-- The logistic map of the 100000 × 6 logits as the reference spells it: negate, exponentiate, add one, divide one by it. -/
def sigmoidRef (z : FVec Ideal S100000x6 .f32) : FVec Ideal S100000x6 .f32 :=
  Host.divf (broadcastInDim S100000x6 ![] bcast_S_S100000x6 (constant (F := Ideal) S_ .f32 0x3F800000#32))
    (addf (broadcastInDim S100000x6 ![] bcast_S_S100000x6 (constant (F := Ideal) S_ .f32 0x3F800000#32))
      (Host.exp (Host.negf z)))

/-- The exponential linear unit of the 20000 × 6 × 128 activations as the reference spells it. -/
def eluRef (x : FVec Ideal S20000x6x128 .f32) : FVec Ideal S20000x6x128 .f32 :=
  select (cmpf .ogt x (broadcastInDim S20000x6x128 ![] bcast_S_S20000x6x128 (constant (F := Ideal) S_ .f32 0x00000000#32))) x
    (mulf (broadcastInDim S20000x6x128 ![] bcast_S_S20000x6x128 (constant (F := Ideal) S_ .f32 0x3F800000#32))
      (Host.expm1
        (select (cmpf .ogt x (broadcastInDim S20000x6x128 ![] bcast_S_S20000x6x128 (constant (F := Ideal) S_ .f32 0x00000000#32)))
          (broadcastInDim S20000x6x128 ![] bcast_S_S20000x6x128 (constant (F := Ideal) S_ .f32 0x00000000#32)) x)))

end Cert.Spec

end
-- ==== Proof.StagesA.lean ====
/-
  The host stretches the two programs share, read one stretch at a time: from contents that agree on what a stretch reads,
  the kernel program's stretch and the reference's stretch leave equal values in corresponding buffers, because they are the
  same operations in the same order. (The index vectors; the per-incidence means and gathers and their concatenation; the
  reshapes around the kernel's matrix products.) Also the reference's own stretches that the kernel program replaces by a
  region — a matrix product, the logistic map, the exponential linear unit — read as one term each.
-/
import proofs.«106504_j2594160246965_1_alg».proof.Proof.Gen.KernelIdeal.Launch
import proofs.«106504_j2594160246965_1_alg».proof.Proof.RefOps
import proofs.«106504_j2594160246965_1_alg».proof.Proof.Spec
import proofs.«106504_j2594160246965_1_alg».proof.Proof.LibFoldCut
import Idealize.ShloMosaic.PureOps.Ideal

set_option maxHeartbeats 1000000

noncomputable section

namespace Cert.Bridge

open Idealize.ShloMosaic Idealize.ShloMosaic.StableHlo

local notation "KV" => Valuation Cert.KernelIdeal.τ Cert.KernelIdeal.sig (Elt Ideal)
local notation "RV" => Valuation Cert.ReferenceIdeal.τ Cert.ReferenceIdeal.sig (Elt Ideal)

open Cert.KernelIdeal.Gen Cert.ReferenceIdeal.RefOps

/-! ## The index vectors: the two rows of the incidence array -/

theorem stage0_v1 (VK : KV) (VR : RV) (h : VK (Proc.devRef .tc Cert.KernelIdeal.main_arg1) = VR (Proc.devRef .tc Cert.ReferenceIdeal.main_arg1)) :
    after hostOps0 VK (Proc.devRef .tc Cert.KernelIdeal.main_v1) = after seg0 VR (Proc.devRef .tc Cert.ReferenceIdeal.main_v1) := by
  after_results_simp
  rw [h] <;> rfl

theorem stage0_v3 (VK : KV) (VR : RV) (h : VK (Proc.devRef .tc Cert.KernelIdeal.main_arg1) = VR (Proc.devRef .tc Cert.ReferenceIdeal.main_arg1)) :
    after hostOps0 VK (Proc.devRef .tc Cert.KernelIdeal.main_v3) = after seg0 VR (Proc.devRef .tc Cert.ReferenceIdeal.main_v3) := by
  after_results_simp
  rw [h] <;> rfl

/-! ## The per-incidence node and hyperedge features: mean over the sheaf axis, gather, concatenate -/

/-- The node projection reshaped to [20000, 6, 128]: the kernel program reshapes its region's result, the reference its
    dot_general's. -/
theorem stage2_v6 (VK : KV) (VR : RV)
    (h4 : VK (Proc.devRef .tc Cert.KernelIdeal.main_v4) = Host.dotGeneral (F := Ideal) (φ₁ := .f32) (φ₂ := .f32) Cert.ReferenceIdeal.dot_S20000x128_S128x768_S20000x768_1_0_0_1_n_n none (VR (Proc.devRef .tc Cert.ReferenceIdeal.main_arg0)) (VR (Proc.devRef .tc Cert.ReferenceIdeal.main_arg3))) :
    after hostOps2 VK (Proc.devRef .tc Cert.KernelIdeal.main_v6) = after seg1 VR (Proc.devRef .tc Cert.ReferenceIdeal.main_v5) := by
  after_results_simp
  rw [h4] <;> rfl

theorem stage2_v17 (VK : KV) (VR : RV)
    (h4 : VK (Proc.devRef .tc Cert.KernelIdeal.main_v4) = Host.dotGeneral (F := Ideal) (φ₁ := .f32) (φ₂ := .f32) Cert.ReferenceIdeal.dot_S20000x128_S128x768_S20000x768_1_0_0_1_n_n none (VR (Proc.devRef .tc Cert.ReferenceIdeal.main_arg0)) (VR (Proc.devRef .tc Cert.ReferenceIdeal.main_arg3)))
    (h1 : VK (Proc.devRef .tc Cert.KernelIdeal.main_v1) = VR (Proc.devRef .tc Cert.ReferenceIdeal.main_v1)) :
    after (hostOps2.take 30) VK (Proc.devRef .tc Cert.KernelIdeal.main_v17) = after (seg2.take 28) (after seg1 VR) (Proc.devRef .tc Cert.ReferenceIdeal.main_v17) := by
  simp only [hostOps2, seg2, List.take_succ_cons, List.take_zero, List.drop_succ_cons, List.drop_zero]
  after_results_simp
  rw [h4, h1] <;> rfl

theorem stage2_v27 (VK : KV) (VR : RV)
    (h5 : VK (Proc.devRef .tc Cert.KernelIdeal.main_v5) = Host.dotGeneral (F := Ideal) (φ₁ := .f32) (φ₂ := .f32) Cert.ReferenceIdeal.dot_S2000x128_S128x768_S2000x768_1_0_0_1_n_n none (VR (Proc.devRef .tc Cert.ReferenceIdeal.main_arg2)) (VR (Proc.devRef .tc Cert.ReferenceIdeal.main_arg3)))
    (h3 : VK (Proc.devRef .tc Cert.KernelIdeal.main_v3) = VR (Proc.devRef .tc Cert.ReferenceIdeal.main_v3)) :
    after (hostOps2.take 30) VK (Proc.devRef .tc Cert.KernelIdeal.main_v27) = after (seg2.take 28) (after seg1 VR) (Proc.devRef .tc Cert.ReferenceIdeal.main_v27) := by
  simp only [hostOps2, seg2, List.take_succ_cons, List.take_zero, List.drop_succ_cons, List.drop_zero]
  after_results_simp
  rw [h5, h3] <;> rfl

theorem stage2_v28 (VK : KV) (VR : RV)
    (h17 : VK (Proc.devRef .tc Cert.KernelIdeal.main_v17) = VR (Proc.devRef .tc Cert.ReferenceIdeal.main_v17))
    (h27 : VK (Proc.devRef .tc Cert.KernelIdeal.main_v27) = VR (Proc.devRef .tc Cert.ReferenceIdeal.main_v27)) :
    after (hostOps2.drop 30) VK (Proc.devRef .tc Cert.KernelIdeal.main_v28) = after (seg2.drop 28) VR (Proc.devRef .tc Cert.ReferenceIdeal.main_v28) := by
  simp only [hostOps2, seg2, List.take_succ_cons, List.take_zero, List.drop_succ_cons, List.drop_zero]
  after_results_simp
  rw [h17, h27] <;> rfl

/-! ## The reshapes in front of the two channel-mixing regions -/

theorem k_v30 (VK : KV) :
    after hostOps3 VK (Proc.devRef .tc Cert.KernelIdeal.main_v30)
      = shapeCast Cert.KernelIdeal.S120000x128 (VK (Proc.devRef .tc Cert.KernelIdeal.main_v6)) Cert.KernelIdeal.Gen.shapeCasts_S20000x6x128_S120000x128 := by
  after_results_simp <;> rfl

theorem k_v95 (VK : KV) :
    after hostOps5 VK (Proc.devRef .tc Cert.KernelIdeal.main_v95)
      = shapeCast Cert.KernelIdeal.S120000x128 (VK (Proc.devRef .tc Cert.KernelIdeal.main_v94)) Cert.KernelIdeal.Gen.shapeCasts_S20000x6x128_S120000x128 := by
  after_results_simp <;> rfl

/-! ## The reference's stretches that the kernel program computes in a region -/

theorem ref_v4 (VR : RV) : after seg1 VR (Proc.devRef .tc Cert.ReferenceIdeal.main_v4) = Host.dotGeneral (F := Ideal) (φ₁ := .f32) (φ₂ := .f32) Cert.ReferenceIdeal.dot_S20000x128_S128x768_S20000x768_1_0_0_1_n_n none (VR (Proc.devRef .tc Cert.ReferenceIdeal.main_arg0)) (VR (Proc.devRef .tc Cert.ReferenceIdeal.main_arg3)) := by
  after_results_simp <;> rfl

theorem ref_alpha (VR : RV) :
    after seg3 VR (Proc.devRef .tc Cert.ReferenceIdeal.main_v35) = Cert.Spec.sigmoidRef (Host.dotGeneral (F := Ideal) (φ₁ := .f32) (φ₂ := .f32) Cert.ReferenceIdeal.dot_S100000x256_S256x6_S100000x6_1_0_0_1_n_n none (VR (Proc.devRef .tc Cert.ReferenceIdeal.main_v28)) (VR (Proc.devRef .tc Cert.ReferenceIdeal.main_arg4))) := by
  after_results_simp <;> rfl

theorem ref_proj1 (VR : RV) :
    after seg4 VR (Proc.devRef .tc Cert.ReferenceIdeal.main_v36) = Host.dotGeneral (F := Ideal) (φ₁ := .f32) (φ₂ := .f32) Cert.ReferenceIdeal.dot_S20000x6x128_S128x128_S20000x6x128_2_0_01_1_n_n none (VR (Proc.devRef .tc Cert.ReferenceIdeal.main_v5)) (VR (Proc.devRef .tc Cert.ReferenceIdeal.main_arg5)) := by
  after_results_simp <;> rfl

theorem ref_elu (VR : RV) : after seg6 VR (Proc.devRef .tc Cert.ReferenceIdeal.main_v98) = Cert.Spec.eluRef (VR (Proc.devRef .tc Cert.ReferenceIdeal.main_v97)) := by
  after_results_simp <;> rfl

theorem ref_proj2 (VR : RV) :
    after seg7 VR (Proc.devRef .tc Cert.ReferenceIdeal.main_v99) = Host.dotGeneral (F := Ideal) (φ₁ := .f32) (φ₂ := .f32) Cert.ReferenceIdeal.dot_S20000x6x128_S128x128_S20000x6x128_2_0_01_1_n_n none (VR (Proc.devRef .tc Cert.ReferenceIdeal.main_v98)) (VR (Proc.devRef .tc Cert.ReferenceIdeal.main_arg7)) := by
  after_results_simp <;> rfl

theorem ref_final (VR : RV) :
    after seg9 VR (Proc.devRef .tc Cert.ReferenceIdeal.main_v162)
      = Host.dotGeneral (F := Ideal) (φ₁ := .f32) (φ₂ := .f32) Cert.ReferenceIdeal.dot_S20000x768_S768x40_S20000x40_1_0_0_1_n_n none (shapeCast Cert.ReferenceIdeal.S20000x768 (VR (Proc.devRef .tc Cert.ReferenceIdeal.main_v160)) Cert.ReferenceIdeal.Gen.shapeCasts_S20000x6x128_S20000x768) (VR (Proc.devRef .tc Cert.ReferenceIdeal.main_arg9)) := by
  after_results_simp <;> rfl

end Cert.Bridge

end
-- ==== Proof.Region0.lean ====
/-
  The matrix product [20000, 128] · [128, 768] computed in 10 row blocks of 2000 rows.

  Each grid point t multiplies rows 2000·t … 2000·t + 1999 of the left matrix by the whole right matrix and writes the
  2000 × 768 result back as rows 2000·t … of the output. Entry (r, q) of the block product is Σ_k x(r, k) · w(k, q) over the
  128 contracted coordinates; entry (2000·t + r, q) of the whole product is the same sum, since row r of block t of the left
  matrix is its row 2000·t + r. The 10 blocks tile the 20000 rows (row i lies in block i / 2000), so after the last point the
  output array holds the whole product.
-/
import proofs.«106504_j2594160246965_1_alg».proof.Proof.Gen.KernelIdeal.Frame
import proofs.«106504_j2594160246965_1_alg».proof.Proof.Gen.ReferenceIdeal
import Idealize.ShloMosaic.Lib.Pipeline.Value
import Idealize.ShloMosaic.Lib.StackMember

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## One entry of a product, as a sum over the contracted coordinate -/

/-- Entry (r, q) of a block product: at the ideal values the narrowing of the operands changes nothing and the zero
    accumulator adds nothing, so it is Σ_k x0(r, k) · x1(k, q). -/
theorem pay0_apply (x0 : Vec Ideal S2000x128 .f32) (x1 : Vec Ideal S128x768 .f32) (r : Fin 2000) (q : Fin 768) :
    k0_pay1 x0 x1 (ix2 r q) = ∑ k : Fin 128, x0 (ix2 r k) * x1 (ix2 k q) :=
  (congrFun (matmul_zero_eq_dotGeneral (DotDims.plain 2000 128 768) none
      (truncf .bf16 x0 bitsLt_bf16_f32) (truncf .bf16 x1 bitsLt_bf16_f32)) (ix2 r q)).trans
    (StackMember.dotGeneral_plain_apply none _ _ r q)

/-- Entry (i, q) of the whole product is Σ_k A(i, k) · B(k, q). -/
theorem dot0_apply (A : FVec Ideal S20000x128 .f32) (B : FVec Ideal S128x768 .f32) (i : Fin 20000) (q : Fin 768) :
    Host.dotGeneral (F := Ideal) Cert.ReferenceIdeal.dot_S20000x128_S128x768_S20000x768_1_0_0_1_n_n none A B (ix2 i q)
      = ∑ k : Fin 128, A (ix2 i k) * B (ix2 k q) :=
  StackMember.dotGeneral_plain_apply none A B i q

/-! ## Where each block sits in its array -/

theorem zeros0 : (![0, 0] : Fin 2 → Nat) = fun _ => 0 := funext fun a => by fin_cases a <;> rfl

/-- The block indices at grid point t: the left matrix's and the output's row block is t, every column block is 0, and
    the right matrix is one block. -/
theorem idx_facts0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (r, k) of the left matrix's block at point t is entry (2000·t + r, k) of the matrix. -/
theorem lhs_block0 (c : Dev nD) (t : Fin cfg0.N) (r : Fin 2000) (k : Fin 128) (i : Fin 20000)
    (hi : i.val = t.val * 2000 + r.val) :
    iblk0 (F := Ideal) V c 0 t (ix2 r k) = V c main_arg0 (ix2 i k) := by
  obtain ⟨e0, e1, e2, e3, e4, e5⟩ := idx_facts0 t
  show V c main_arg0 (((cfg0.win 0).blk t).view.emb (ix2 r k)) = V c main_arg0 (ix2 i k)
  refine congrArg (V c main_arg0) (funext fun a => Fin.ext ?_)
  match a with
  | ⟨0, _⟩ => show win0_0.index t (0 : Fin 2) * 2000 + 1 * r.val = i.val; omega
  | ⟨1, _⟩ => show win0_0.index t (1 : Fin 2) * 128 + 1 * k.val = k.val; omega

/-- The right matrix's block at every point is the matrix. -/
theorem rhs_block0 (c : Dev nD) (t : Fin cfg0.N) (k : Fin 128) (q : Fin 768) :
    iblk0 (F := Ideal) V c 1 t (ix2 k q) = V c main_arg3 (ix2 k q) := by
  obtain ⟨e0, e1, e2, e3, e4, e5⟩ := idx_facts0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 768 + 1 * q.val = q.val; omega

/-- Entry (r, q) of the output's block at point t is entry (2000·t + r, q) of the output. -/
theorem out_block0 (t : Fin cfg0.N) (r : Fin 2000) (q : Fin 768) (i : Fin 20000)
    (hi : i.val = t.val * 2000 + r.val) :
    ((cfg0.win 2).blk t).view.emb (ix2 r q) = ix2 i q := by
  obtain ⟨e0, e1, e2, e3, e4, e5⟩ := idx_facts0 t
  refine funext fun a => Fin.ext ?_
  match a with
  | ⟨0, _⟩ => show win0_2.index t (0 : Fin 2) * 2000 + 1 * r.val = i.val; omega
  | ⟨1, _⟩ => show win0_2.index t (1 : Fin 2) * 768 + 1 * q.val = q.val; omega

/-! ## From the blocks to the array -/

/-- The whole product of the two arrays. -/
abbrev G0 (A : FVec Ideal S20000x128 .f32) (B : FVec Ideal S128x768 .f32) : FVec Ideal S20000x768 .f32 :=
  Host.dotGeneral (F := Ideal) Cert.ReferenceIdeal.dot_S20000x128_S128x768_S20000x768_1_0_0_1_n_n none A B

/-- What point t writes back is block t of the whole product. -/
theorem flushed0_eq (c : Dev nD) (t : Fin cfg0.N) :
    (dat0 (F := Ideal) V c).flushed 2 t
      = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero zeros0]
  simp only [View.ld_unit_zero (S := S2000x128) zeros0, View.ld_unit_zero (S := S128x768) zeros0]
  funext j
  obtain ⟨r, q, rfl⟩ : ∃ (r : Fin 2000) (q : Fin 768), j = ix2 r q := ⟨j 0, j 1, eq_ix2 j⟩
  have hN : cfg0.N = 10 := N_0
  have ht : t.val < 10 := hN ▸ t.isLt
  have hlt : t.val * 2000 + r.val < 20000 := by have := r.isLt; omega
  show k0_pay1 (iblk0 V c 0 t) (iblk0 V c 1 t) (ix2 r q)
    = G0 (V c main_arg0) (V c main_arg3) (((cfg0.win 2).blk t).view.emb (ix2 r q))
  rw [out_block0 t r q ⟨t.val * 2000 + r.val, hlt⟩ rfl]
  refine (pay0_apply (iblk0 V c 0 t) (iblk0 V c 1 t) r q).trans ?_
  refine Eq.trans ?_ (dot0_apply (V c main_arg0) (V c main_arg3) ⟨t.val * 2000 + r.val, hlt⟩ q).symm
  refine Finset.sum_congr rfl fun k _ => ?_
  rw [lhs_block0 V c t r k ⟨t.val * 2000 + r.val, hlt⟩ rfl, rhs_block0 V c t k q]

/-- An index of the output lies in point t's block iff each coordinate lies in the block's range on its axis. -/
theorem mem_blk0 (t : Fin cfg0.N) (i : S20000x768.Idx) :
    i ∈ ((cfg0.win 2).blk t).view.set ↔ ∀ a : Fin 2, win0_2.index t a * S2000x768.size a ≤ (i a).val
      ∧ (i a).val < win0_2.index t a * S2000x768.size a + S2000x768.size a := by
  show i ∈ ((View.whole main_v4).slice (win0_2.rect t)).set ↔ _
  rw [View.set_slice_whole, Rect.mem_set_unit]
  exact Iff.rfl

/-- Row i of the output lies in the block of point i / 2000. -/
theorem cover0 (i : S20000x768.Idx) :
    ∃ t : Fin cfg0.N, (cfg0.win 2).flush t = true ∧ i ∈ ((cfg0.win 2).blk t).view.set := by
  have hi0 : (i 0).val < 20000 := (i 0).isLt
  have hi1 : (i 1).val < 768 := (i 1).isLt
  have hN : cfg0.N = 10 := N_0
  have hlt : (i 0).val / 2000 < cfg0.N := by rw [hN]; omega
  obtain ⟨e0, e1, e2, e3, e4, e5⟩ := idx_facts0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, hlt⟩ (1 : Fin 2) * 768 ≤ (i 1).val
      ∧ (i 1).val < win0_2.index ⟨(i 0).val / 2000, hlt⟩ (1 : Fin 2) * 768 + 768
    rw [e5]
    omega

/-- After the last point the output array holds the whole product of the two arrays as the region finds them. -/
theorem region0 (c : Dev nD) :
    (dat0 (F := Ideal) V c).arrAt 2 cfg0.N
      = Host.dotGeneral (F := Ideal) (φ₁ := .f32) (φ₂ := .f32)
          Cert.ReferenceIdeal.dot_S20000x128_S128x768_S20000x768_1_0_0_1_n_n none (V c main_arg0) (V c main_arg3) :=
  (dat0 V c).arrAt_eq_of_cover 2 (G0 (V c main_arg0) (V c main_arg3)) (fun t _ => flushed0_eq V c t) cover0

end Cert.KernelIdeal.RegionValue

end
-- ==== Proof.Region1.lean ====
/-
  The matrix product [2000, 128] · [128, 768] computed as one block of 2000 rows.

  The grid has a single point, whose blocks are the whole left matrix, the whole right matrix and the whole output. Entry
  (r, q) of the block product is Σ_k x(r, k) · w(k, q) over the 128 contracted coordinates, which is entry (r, q) of the
  whole product; the one block covers all 2000 rows, so after the point the output array holds the whole product. The
  statements keep the general form "row 2000·t + r" with t = 0.
-/
import proofs.«106504_j2594160246965_1_alg».proof.Proof.Gen.KernelIdeal.Frame
import proofs.«106504_j2594160246965_1_alg».proof.Proof.Gen.ReferenceIdeal
import Idealize.ShloMosaic.Lib.Pipeline.Value
import Idealize.ShloMosaic.Lib.StackMember

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## One entry of a product, as a sum over the contracted coordinate -/

/-- Entry (r, q) of a block product: at the ideal values the narrowing of the operands changes nothing and the zero
    accumulator adds nothing, so it is Σ_k x0(r, k) · x1(k, q). -/
theorem pay1_apply (x0 : Vec Ideal S2000x128 .f32) (x1 : Vec Ideal S128x768 .f32) (r : Fin 2000) (q : Fin 768) :
    k1_pay1 x0 x1 (ix2 r q) = ∑ k : Fin 128, x0 (ix2 r k) * x1 (ix2 k q) :=
  (congrFun (matmul_zero_eq_dotGeneral (DotDims.plain 2000 128 768) none
      (truncf .bf16 x0 bitsLt_bf16_f32) (truncf .bf16 x1 bitsLt_bf16_f32)) (ix2 r q)).trans
    (StackMember.dotGeneral_plain_apply none _ _ r q)

/-- Entry (i, q) of the whole product is Σ_k A(i, k) · B(k, q). -/
theorem dot1_apply (A : FVec Ideal S2000x128 .f32) (B : FVec Ideal S128x768 .f32) (i : Fin 2000) (q : Fin 768) :
    Host.dotGeneral (F := Ideal) Cert.ReferenceIdeal.dot_S2000x128_S128x768_S2000x768_1_0_0_1_n_n none A B (ix2 i q)
      = ∑ k : Fin 128, A (ix2 i k) * B (ix2 k q) :=
  StackMember.dotGeneral_plain_apply none A B i q

/-! ## Where each block sits in its array -/

theorem zeros1 : (![0, 0] : Fin 2 → Nat) = fun _ => 0 := funext fun a => by fin_cases a <;> rfl

/-- The block indices at grid point t: the left matrix's and the output's row block is t, every column block is 0, and
    the right matrix is one block. -/
theorem idx_facts1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Entry (r, k) of the left matrix's block at point t is entry (2000·t + r, k) of the matrix. -/
theorem lhs_block1 (c : Dev nD) (t : Fin cfg1.N) (r : Fin 2000) (k : Fin 128) (i : Fin 2000)
    (hi : i.val = t.val * 2000 + r.val) :
    iblk1 (F := Ideal) V c 0 t (ix2 r k) = V c main_arg2 (ix2 i k) := by
  obtain ⟨e0, e1, e2, e3, e4, e5⟩ := idx_facts1 t
  show V c main_arg2 (((cfg1.win 0).blk t).view.emb (ix2 r k)) = V c main_arg2 (ix2 i k)
  refine congrArg (V c main_arg2) (funext fun a => Fin.ext ?_)
  match a with
  | ⟨0, _⟩ => show win1_0.index t (0 : Fin 2) * 2000 + 1 * r.val = i.val; omega
  | ⟨1, _⟩ => show win1_0.index t (1 : Fin 2) * 128 + 1 * k.val = k.val; omega

/-- The right matrix's block at every point is the matrix. -/
theorem rhs_block1 (c : Dev nD) (t : Fin cfg1.N) (k : Fin 128) (q : Fin 768) :
    iblk1 (F := Ideal) V c 1 t (ix2 k q) = V c main_arg3 (ix2 k q) := by
  obtain ⟨e0, e1, e2, e3, e4, e5⟩ := idx_facts1 t
  show V c main_arg3 (((cfg1.win 1).blk t).view.emb (ix2 k q)) = V c main_arg3 (ix2 k q)
  refine congrArg (V c main_arg3) (funext fun a => Fin.ext ?_)
  match a with
  | ⟨0, _⟩ => show win1_1.index t (0 : Fin 2) * 128 + 1 * k.val = k.val; omega
  | ⟨1, _⟩ => show win1_1.index t (1 : Fin 2) * 768 + 1 * q.val = q.val; omega

/-- Entry (r, q) of the output's block at point t is entry (2000·t + r, q) of the output. -/
theorem out_block1 (t : Fin cfg1.N) (r : Fin 2000) (q : Fin 768) (i : Fin 2000)
    (hi : i.val = t.val * 2000 + r.val) :
    ((cfg1.win 2).blk t).view.emb (ix2 r q) = ix2 i q := by
  obtain ⟨e0, e1, e2, e3, e4, e5⟩ := idx_facts1 t
  refine funext fun a => Fin.ext ?_
  match a with
  | ⟨0, _⟩ => show win1_2.index t (0 : Fin 2) * 2000 + 1 * r.val = i.val; omega
  | ⟨1, _⟩ => show win1_2.index t (1 : Fin 2) * 768 + 1 * q.val = q.val; omega

/-! ## From the blocks to the array -/

/-- The whole product of the two arrays. -/
abbrev G1 (A : FVec Ideal S2000x128 .f32) (B : FVec Ideal S128x768 .f32) : FVec Ideal S2000x768 .f32 :=
  Host.dotGeneral (F := Ideal) Cert.ReferenceIdeal.dot_S2000x128_S128x768_S2000x768_1_0_0_1_n_n none A B

/-- What point t writes back is block t of the whole product. -/
theorem flushed1_eq (c : Dev nD) (t : Fin cfg1.N) :
    (dat1 (F := Ideal) V c).flushed 2 t
      = ((cfg1.win 2).blk t).view.read (Elt Ideal) (G1 (V c main_arg2) (V c main_arg3)) := by
  show (cfg1.win 2).cut (grid1.coords t) ((dat1 V c).after 2 t) = _
  rw [after1_2]
  unfold out1_2
  rw [View.canon_unit_zero zeros1]
  simp only [View.ld_unit_zero (S := S2000x128) zeros1, View.ld_unit_zero (S := S128x768) zeros1]
  funext j
  obtain ⟨r, q, rfl⟩ : ∃ (r : Fin 2000) (q : Fin 768), j = ix2 r q := ⟨j 0, j 1, eq_ix2 j⟩
  have hN : cfg1.N = 1 := N_1
  have ht : t.val < 1 := hN ▸ t.isLt
  have hlt : t.val * 2000 + r.val < 2000 := by have := r.isLt; omega
  show k1_pay1 (iblk1 V c 0 t) (iblk1 V c 1 t) (ix2 r q)
    = G1 (V c main_arg2) (V c main_arg3) (((cfg1.win 2).blk t).view.emb (ix2 r q))
  rw [out_block1 t r q ⟨t.val * 2000 + r.val, hlt⟩ rfl]
  refine (pay1_apply (iblk1 V c 0 t) (iblk1 V c 1 t) r q).trans ?_
  refine Eq.trans ?_ (dot1_apply (V c main_arg2) (V c main_arg3) ⟨t.val * 2000 + r.val, hlt⟩ q).symm
  refine Finset.sum_congr rfl fun k _ => ?_
  rw [lhs_block1 V c t r k ⟨t.val * 2000 + r.val, hlt⟩ rfl, rhs_block1 V c t k q]

/-- An index of the output lies in point t's block iff each coordinate lies in the block's range on its axis. -/
theorem mem_blk1 (t : Fin cfg1.N) (i : S2000x768.Idx) :
    i ∈ ((cfg1.win 2).blk t).view.set ↔ ∀ a : Fin 2, win1_2.index t a * S2000x768.size a ≤ (i a).val
      ∧ (i a).val < win1_2.index t a * S2000x768.size a + S2000x768.size a := by
  show i ∈ ((View.whole main_v5).slice (win1_2.rect t)).set ↔ _
  rw [View.set_slice_whole, Rect.mem_set_unit]
  exact Iff.rfl

/-- Row i of the output lies in the block of point i / 2000. -/
theorem cover1 (i : S2000x768.Idx) :
    ∃ t : Fin cfg1.N, (cfg1.win 2).flush t = true ∧ i ∈ ((cfg1.win 2).blk t).view.set := by
  have hi0 : (i 0).val < 2000 := (i 0).isLt
  have hi1 : (i 1).val < 768 := (i 1).isLt
  have hN : cfg1.N = 1 := N_1
  have hlt : (i 0).val / 2000 < cfg1.N := by rw [hN]; omega
  obtain ⟨e0, e1, e2, e3, e4, e5⟩ := idx_facts1 ⟨(i 0).val / 2000, hlt⟩
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, hlt⟩ (1 : Fin 2) * 768 ≤ (i 1).val
      ∧ (i 1).val < win1_2.index ⟨(i 0).val / 2000, hlt⟩ (1 : Fin 2) * 768 + 768
    rw [e5]
    omega

/-- After the last point the output array holds the whole product of the two arrays as the region finds them. -/
theorem region1 (c : Dev nD) :
    (dat1 (F := Ideal) V c).arrAt 2 cfg1.N
      = Host.dotGeneral (F := Ideal) (φ₁ := .f32) (φ₂ := .f32)
          Cert.ReferenceIdeal.dot_S2000x128_S128x768_S2000x768_1_0_0_1_n_n none (V c main_arg2) (V c main_arg3) :=
  (dat1 V c).arrAt_eq_of_cover 2 (G1 (V c main_arg2) (V c main_arg3)) (fun t _ => flushed1_eq V c t) cover1

end Cert.KernelIdeal.RegionValue

end
-- ==== Proof.Region2.lean ====
/-
  The logistic map of the matrix product [100000, 256] · [256, 6], computed in 50 row blocks of 2000 rows.

  Each grid point t multiplies rows 2000·t … 2000·t + 1999 of the left matrix by the whole right matrix, applies the logistic
  map 1 / (1 + e^(-z)) to each of the 2000 × 6 entries and writes them back as rows 2000·t … of the output. Entry (r, q) of the
  block product is Σ_k x(r, k) · w(k, q) over the 256 contracted coordinates; entry (2000·t + r, q) of the whole product is the
  same sum, since row r of block t of the left matrix is its row 2000·t + r; and the map acts entry by entry, so it commutes
  with taking a block. Spelt as negate, exponentiate, add one, divide one by the sum, the map is the same function of each
  entry. The 50 blocks tile the 100000 rows (row i lies in block i / 2000), so after the last point the output array holds the
  map of the whole product.
-/
import proofs.«106504_j2594160246965_1_alg».proof.Proof.Gen.KernelIdeal.Frame
import proofs.«106504_j2594160246965_1_alg».proof.Proof.Gen.ReferenceIdeal
import Idealize.ShloMosaic.Lib.Pipeline.Value
import Idealize.ShloMosaic.Lib.StackMember
import proofs.«106504_j2594160246965_1_alg».proof.Proof.Spec

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## One entry of a product, as a sum over the contracted coordinate -/

/-- Entry (r, q) of what a block's body stores: at the ideal values the narrowing of the operands changes nothing and the
    zero accumulator adds nothing, so it is the logistic map of Σ_k x0(r, k) · x1(k, q). -/
theorem pay2_apply (x0 : Vec Ideal S2000x256 .f32) (x1 : Vec Ideal S256x6 .f32) (r : Fin 2000) (q : Fin 6) :
    k2_pay1 x0 x1 (ix2 r q)
      = FloatOps.logistic (F := Ideal) (φ := .f32) (∑ k : Fin 256, x0 (ix2 r k) * x1 (ix2 k q)) := by
  unfold k2_pay1
  simp only [shapeCast_self]
  exact congrArg (FloatOps.logistic (F := Ideal) (φ := .f32))
    ((congrFun (matmul_zero_eq_dotGeneral (DotDims.plain 2000 256 6) none
        (truncf .bf16 x0 bitsLt_bf16_f32) (truncf .bf16 x1 bitsLt_bf16_f32)) (ix2 r q)).trans
      (StackMember.dotGeneral_plain_apply none _ _ r q))

/-- Entry (i, q) of the whole product is Σ_k A(i, k) · B(k, q). -/
theorem dot2_apply (A : FVec Ideal S100000x256 .f32) (B : FVec Ideal S256x6 .f32) (i : Fin 100000) (q : Fin 6) :
    Host.dotGeneral (F := Ideal) Cert.ReferenceIdeal.dot_S100000x256_S256x6_S100000x6_1_0_0_1_n_n none A B (ix2 i q)
      = ∑ k : Fin 256, A (ix2 i k) * B (ix2 k q) :=
  StackMember.dotGeneral_plain_apply none A B i q

/-! ## Where each block sits in its array -/

theorem zeros2 : (![0, 0] : Fin 2 → Nat) = fun _ => 0 := funext fun a => by fin_cases a <;> rfl

/-- The block indices at grid point t: the left matrix's and the output's row block is t, every column block is 0, and
    the right matrix is one block. -/
theorem idx_facts2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Entry (r, k) of the left matrix's block at point t is entry (2000·t + r, k) of the matrix. -/
theorem lhs_block2 (c : Dev nD) (t : Fin cfg2.N) (r : Fin 2000) (k : Fin 256) (i : Fin 100000)
    (hi : i.val = t.val * 2000 + r.val) :
    iblk2 (F := Ideal) V c 0 t (ix2 r k) = V c main_v28 (ix2 i k) := by
  obtain ⟨e0, e1, e2, e3, e4, e5⟩ := idx_facts2 t
  show V c main_v28 (((cfg2.win 0).blk t).view.emb (ix2 r k)) = V c main_v28 (ix2 i k)
  refine congrArg (V c main_v28) (funext fun a => Fin.ext ?_)
  match a with
  | ⟨0, _⟩ => show win2_0.index t (0 : Fin 2) * 2000 + 1 * r.val = i.val; omega
  | ⟨1, _⟩ => show win2_0.index t (1 : Fin 2) * 256 + 1 * k.val = k.val; omega

/-- The right matrix's block at every point is the matrix. -/
theorem rhs_block2 (c : Dev nD) (t : Fin cfg2.N) (k : Fin 256) (q : Fin 6) :
    iblk2 (F := Ideal) V c 1 t (ix2 k q) = V c main_arg4 (ix2 k q) := by
  obtain ⟨e0, e1, e2, e3, e4, e5⟩ := idx_facts2 t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 256 + 1 * k.val = k.val; omega
  | ⟨1, _⟩ => show win2_1.index t (1 : Fin 2) * 6 + 1 * q.val = q.val; omega

/-- Entry (r, q) of the output's block at point t is entry (2000·t + r, q) of the output. -/
theorem out_block2 (t : Fin cfg2.N) (r : Fin 2000) (q : Fin 6) (i : Fin 100000)
    (hi : i.val = t.val * 2000 + r.val) :
    ((cfg2.win 2).blk t).view.emb (ix2 r q) = ix2 i q := by
  obtain ⟨e0, e1, e2, e3, e4, e5⟩ := idx_facts2 t
  refine funext fun a => Fin.ext ?_
  match a with
  | ⟨0, _⟩ => show win2_2.index t (0 : Fin 2) * 2000 + 1 * r.val = i.val; omega
  | ⟨1, _⟩ => show win2_2.index t (1 : Fin 2) * 6 + 1 * q.val = q.val; omega

/-! ## From the blocks to the array -/

/-- The whole product, then the map applied entry by entry, of the two arrays. -/
abbrev G2 (A : FVec Ideal S100000x256 .f32) (B : FVec Ideal S256x6 .f32) : FVec Ideal S100000x6 .f32 :=
  Cert.Spec.sigmoidRef (Host.dotGeneral (F := Ideal) Cert.ReferenceIdeal.dot_S100000x256_S256x6_S100000x6_1_0_0_1_n_n none A B)

/-- The word 0x3F800000 is the number one. -/
theorem one_f32 : Ideal.ofBits .f32 0x3F800000#32 = 1 := by
  simp [Ideal.ofBits, Ideal.ieee, -EReal.coe_mul]; norm_num

/-- Negate, exponentiate, add one and divide one by the sum: entry by entry that is the logistic map 1 / (1 + e^(-z)). -/
theorem sigmoidRef_apply (z : FVec Ideal S100000x6 .f32) (i : S100000x6.Idx) :
    Cert.Spec.sigmoidRef z i = FloatOps.logistic (F := Ideal) (φ := .f32) (z i) := by
  show Ideal.div (Ideal.ofBits .f32 0x3F800000#32) (Ideal.ofBits .f32 0x3F800000#32 + Ideal.exp (-(z i)))
    = Ideal.div 1 (1 + Ideal.exp (-(z i)))
  rw [one_f32]

/-- What point t writes back is block t of the whole product. -/
theorem flushed2_eq (c : Dev nD) (t : Fin cfg2.N) :
    (dat2 (F := Ideal) V c).flushed 2 t
      = ((cfg2.win 2).blk t).view.read (Elt Ideal) (G2 (V c main_v28) (V c main_arg4)) := by
  show (cfg2.win 2).cut (grid2.coords t) ((dat2 V c).after 2 t) = _
  rw [after2_2]
  unfold out2_2
  rw [View.canon_unit_zero zeros2]
  simp only [View.ld_unit_zero (S := S2000x256) zeros2, View.ld_unit_zero (S := S256x6) zeros2]
  funext j
  obtain ⟨r, q, rfl⟩ : ∃ (r : Fin 2000) (q : Fin 6), j = ix2 r q := ⟨j 0, j 1, eq_ix2 j⟩
  have hN : cfg2.N = 50 := N_2
  have ht : t.val < 50 := hN ▸ t.isLt
  have hlt : t.val * 2000 + r.val < 100000 := by have := r.isLt; omega
  show k2_pay1 (iblk2 V c 0 t) (iblk2 V c 1 t) (ix2 r q)
    = G2 (V c main_v28) (V c main_arg4) (((cfg2.win 2).blk t).view.emb (ix2 r q))
  rw [out_block2 t r q ⟨t.val * 2000 + r.val, hlt⟩ rfl]
  refine (pay2_apply (iblk2 V c 0 t) (iblk2 V c 1 t) r q).trans ?_
  refine Eq.trans ?_ (sigmoidRef_apply _ _).symm
  refine congrArg (FloatOps.logistic (F := Ideal) (φ := .f32)) ?_
  refine Eq.trans ?_ (dot2_apply (V c main_v28) (V c main_arg4) ⟨t.val * 2000 + r.val, hlt⟩ q).symm
  refine Finset.sum_congr rfl fun k _ => ?_
  rw [lhs_block2 V c t r k ⟨t.val * 2000 + r.val, hlt⟩ rfl, rhs_block2 V c t k q]

/-- An index of the output lies in point t's block iff each coordinate lies in the block's range on its axis. -/
theorem mem_blk2 (t : Fin cfg2.N) (i : S100000x6.Idx) :
    i ∈ ((cfg2.win 2).blk t).view.set ↔ ∀ a : Fin 2, win2_2.index t a * S2000x6.size a ≤ (i a).val
      ∧ (i a).val < win2_2.index t a * S2000x6.size a + S2000x6.size a := by
  show i ∈ ((View.whole main_v29).slice (win2_2.rect t)).set ↔ _
  rw [View.set_slice_whole, Rect.mem_set_unit]
  exact Iff.rfl

/-- Row i of the output lies in the block of point i / 2000. -/
theorem cover2 (i : S100000x6.Idx) :
    ∃ t : Fin cfg2.N, (cfg2.win 2).flush t = true ∧ i ∈ ((cfg2.win 2).blk t).view.set := by
  have hi0 : (i 0).val < 100000 := (i 0).isLt
  have hi1 : (i 1).val < 6 := (i 1).isLt
  have hN : cfg2.N = 50 := N_2
  have hlt : (i 0).val / 2000 < cfg2.N := by rw [hN]; omega
  obtain ⟨e0, e1, e2, e3, e4, e5⟩ := idx_facts2 ⟨(i 0).val / 2000, hlt⟩
  refine ⟨⟨(i 0).val / 2000, hlt⟩, flush2_2 _, ?_⟩
  rw [mem_blk2]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, hlt⟩ (1 : Fin 2) * 6 ≤ (i 1).val
      ∧ (i 1).val < win2_2.index ⟨(i 0).val / 2000, hlt⟩ (1 : Fin 2) * 6 + 6
    rw [e5]
    omega

/-- After the last point the output array holds the whole product under the map of the two arrays as the region finds them. -/
theorem region2 (c : Dev nD) :
    (dat2 (F := Ideal) V c).arrAt 2 cfg2.N
      = Cert.Spec.sigmoidRef (Host.dotGeneral (F := Ideal) (φ₁ := .f32) (φ₂ := .f32)
          Cert.ReferenceIdeal.dot_S100000x256_S256x6_S100000x6_1_0_0_1_n_n none (V c main_v28) (V c main_arg4)) :=
  (dat2 V c).arrAt_eq_of_cover 2 (G2 (V c main_v28) (V c main_arg4)) (fun t _ => flushed2_eq V c t) cover2

end Cert.KernelIdeal.RegionValue

end
-- ==== Proof.RefKept.lean ====
/-
  What a later stretch of the reference program leaves untouched.

  The reference program is a straight line of operations on tensor values, each writing exactly one buffer, its result.
  So a buffer's contents after a stretch of the line are its contents before it unless some operation of the stretch
  has that buffer as its result. Two uses: no operation at all has an argument as its result (each writes an HBM buffer
  of index at least ten, and the ten arguments are the first ten), so every such list keeps the arguments; and, stretch
  by stretch, the few intermediate results that later stretches read again (the two index vectors %1 and %3, the
  reshaped projection %5, the logistic map's result %35) are the result of no operation of the stretches in between, each comparison
  of two references decided.
-/
import proofs.«106504_j2594160246965_1_alg».proof.Proof.RefRun
import Idealize.ShloMosaic.Lib.StableHlo.Run

noncomputable section

namespace Cert.ReferenceIdeal.RefKept

open Cert.ReferenceIdeal Idealize.ShloMosaic Idealize.ShloMosaic.TcCoe Idealize.SL.Sem Idealize.ShloMosaic.StableHlo
open Cert.ReferenceIdeal.RefRun

variable {F : FTy → Type} [FloatOps F]

/-! ## A list that writes no argument keeps the arguments -/

/-- A list of operations each of which writes one HBM buffer of index at least ten leaves every HBM buffer of index below
    ten as it was: the written buffer and the kept one differ in their index. -/
theorem kept_of_ok (L : List (HloOp τ sig (Elt F))) (hL : L.Forall OpOk) (r : Ref sig .tc) (hs : r.space = .hbm)
    (hr : r.idx.val < 10) (V : Valuation τ sig (Elt F)) :
    StableHlo.after L V (Proc.devRef .tc r : DevRef τ sig) = V (Proc.devRef .tc r : DevRef τ sig) :=
  after_of_forall_not_mem L V fun op hop hb => by
    obtain ⟨-, y, hw, -, hge⟩ := List.forall_iff_forall_mem.mp hL op hop
    rw [hw, Finset.mem_singleton] at hb
    have hry : r = y := Proc.devRef_injective _ hb
    subst hry
    omega

/-! ## The intermediate results that stay in place through the stretches between their writing and their last use -/

/-- Stretch 2 does not write %5. -/
theorem seg2_v5 (V : Valuation τ sig (Elt F)) :
    StableHlo.after RefOps.seg2 V (Proc.devRef .tc main_v5 : DevRef τ sig) = V (Proc.devRef .tc main_v5 : DevRef τ sig) := by
  after_results_simp

/-- Stretch 3 does not write %5. -/
theorem seg3_v5 (V : Valuation τ sig (Elt F)) :
    StableHlo.after RefOps.seg3 V (Proc.devRef .tc main_v5 : DevRef τ sig) = V (Proc.devRef .tc main_v5 : DevRef τ sig) := by
  after_results_simp

/-- Stretch 1 does not write %1. -/
theorem seg1_v1 (V : Valuation τ sig (Elt F)) :
    StableHlo.after RefOps.seg1 V (Proc.devRef .tc main_v1 : DevRef τ sig) = V (Proc.devRef .tc main_v1 : DevRef τ sig) := by
  after_results_simp

/-- Stretch 2 does not write %1. -/
theorem seg2_v1 (V : Valuation τ sig (Elt F)) :
    StableHlo.after RefOps.seg2 V (Proc.devRef .tc main_v1 : DevRef τ sig) = V (Proc.devRef .tc main_v1 : DevRef τ sig) := by
  after_results_simp

/-- Stretch 3 does not write %1. -/
theorem seg3_v1 (V : Valuation τ sig (Elt F)) :
    StableHlo.after RefOps.seg3 V (Proc.devRef .tc main_v1 : DevRef τ sig) = V (Proc.devRef .tc main_v1 : DevRef τ sig) := by
  after_results_simp

/-- Stretch 4 does not write %1. -/
theorem seg4_v1 (V : Valuation τ sig (Elt F)) :
    StableHlo.after RefOps.seg4 V (Proc.devRef .tc main_v1 : DevRef τ sig) = V (Proc.devRef .tc main_v1 : DevRef τ sig) := by
  after_results_simp

-- a stretch of 83 operations: one pass over all of them
set_option maxHeartbeats 2000000 in
/-- Stretch 5 does not write %1. -/
theorem seg5_v1 (V : Valuation τ sig (Elt F)) :
    StableHlo.after RefOps.seg5 V (Proc.devRef .tc main_v1 : DevRef τ sig) = V (Proc.devRef .tc main_v1 : DevRef τ sig) := by
  after_results_simp

/-- Stretch 6 does not write %1. -/
theorem seg6_v1 (V : Valuation τ sig (Elt F)) :
    StableHlo.after RefOps.seg6 V (Proc.devRef .tc main_v1 : DevRef τ sig) = V (Proc.devRef .tc main_v1 : DevRef τ sig) := by
  after_results_simp

/-- Stretch 7 does not write %1. -/
theorem seg7_v1 (V : Valuation τ sig (Elt F)) :
    StableHlo.after RefOps.seg7 V (Proc.devRef .tc main_v1 : DevRef τ sig) = V (Proc.devRef .tc main_v1 : DevRef τ sig) := by
  after_results_simp

/-- Stretch 1 does not write %3. -/
theorem seg1_v3 (V : Valuation τ sig (Elt F)) :
    StableHlo.after RefOps.seg1 V (Proc.devRef .tc main_v3 : DevRef τ sig) = V (Proc.devRef .tc main_v3 : DevRef τ sig) := by
  after_results_simp

/-- Stretch 2 does not write %3. -/
theorem seg2_v3 (V : Valuation τ sig (Elt F)) :
    StableHlo.after RefOps.seg2 V (Proc.devRef .tc main_v3 : DevRef τ sig) = V (Proc.devRef .tc main_v3 : DevRef τ sig) := by
  after_results_simp

/-- Stretch 3 does not write %3. -/
theorem seg3_v3 (V : Valuation τ sig (Elt F)) :
    StableHlo.after RefOps.seg3 V (Proc.devRef .tc main_v3 : DevRef τ sig) = V (Proc.devRef .tc main_v3 : DevRef τ sig) := by
  after_results_simp

/-- Stretch 4 does not write %3. -/
theorem seg4_v3 (V : Valuation τ sig (Elt F)) :
    StableHlo.after RefOps.seg4 V (Proc.devRef .tc main_v3 : DevRef τ sig) = V (Proc.devRef .tc main_v3 : DevRef τ sig) := by
  after_results_simp

-- a stretch of 83 operations: one pass over all of them
set_option maxHeartbeats 2000000 in
/-- Stretch 5 does not write %3. -/
theorem seg5_v3 (V : Valuation τ sig (Elt F)) :
    StableHlo.after RefOps.seg5 V (Proc.devRef .tc main_v3 : DevRef τ sig) = V (Proc.devRef .tc main_v3 : DevRef τ sig) := by
  after_results_simp

/-- Stretch 6 does not write %3. -/
theorem seg6_v3 (V : Valuation τ sig (Elt F)) :
    StableHlo.after RefOps.seg6 V (Proc.devRef .tc main_v3 : DevRef τ sig) = V (Proc.devRef .tc main_v3 : DevRef τ sig) := by
  after_results_simp

/-- Stretch 7 does not write %3. -/
theorem seg7_v3 (V : Valuation τ sig (Elt F)) :
    StableHlo.after RefOps.seg7 V (Proc.devRef .tc main_v3 : DevRef τ sig) = V (Proc.devRef .tc main_v3 : DevRef τ sig) := by
  after_results_simp

/-- Stretch 4 does not write %35. -/
theorem seg4_v35 (V : Valuation τ sig (Elt F)) :
    StableHlo.after RefOps.seg4 V (Proc.devRef .tc main_v35 : DevRef τ sig) = V (Proc.devRef .tc main_v35 : DevRef τ sig) := by
  after_results_simp

-- a stretch of 83 operations: one pass over all of them
set_option maxHeartbeats 2000000 in
/-- Stretch 5 does not write %35. -/
theorem seg5_v35 (V : Valuation τ sig (Elt F)) :
    StableHlo.after RefOps.seg5 V (Proc.devRef .tc main_v35 : DevRef τ sig) = V (Proc.devRef .tc main_v35 : DevRef τ sig) := by
  after_results_simp

/-- Stretch 6 does not write %35. -/
theorem seg6_v35 (V : Valuation τ sig (Elt F)) :
    StableHlo.after RefOps.seg6 V (Proc.devRef .tc main_v35 : DevRef τ sig) = V (Proc.devRef .tc main_v35 : DevRef τ sig) := by
  after_results_simp

/-- Stretch 7 does not write %35. -/
theorem seg7_v35 (V : Valuation τ sig (Elt F)) :
    StableHlo.after RefOps.seg7 V (Proc.devRef .tc main_v35 : DevRef τ sig) = V (Proc.devRef .tc main_v35 : DevRef τ sig) := by
  after_results_simp

end Cert.ReferenceIdeal.RefKept

end
-- ==== Proof.Chain1.lean ====
/-
  The two programs compared, first third: from launch memories that agree on the ten argument arrays, the kernel
  program's buffers and the reference's hold equal values at corresponding points, up to the sheaf coefficients —
  the two index vectors (the rows of the incidence array); the two feature projections (a kernel region on one side, a
  matrix product on the other); the reshaped node projection; the per-incidence gathered means and their concatenation;
  and the logistic map of the concatenation's product with the coefficient weights.
  Each fact composes: what a boundary still holds of an earlier value, a region's result as a closed term, and the
  stretches the two programs share read from contents that agree on what they read.
-/
import proofs.«106504_j2594160246965_1_alg».proof.Proof.ChainDefs
import proofs.«106504_j2594160246965_1_alg».proof.Proof.Kept
import proofs.«106504_j2594160246965_1_alg».proof.Proof.StagesA
import proofs.«106504_j2594160246965_1_alg».proof.Proof.Region0
import proofs.«106504_j2594160246965_1_alg».proof.Proof.Region1
import proofs.«106504_j2594160246965_1_alg».proof.Proof.Region2
import proofs.«106504_j2594160246965_1_alg».proof.Proof.RefKept

set_option maxRecDepth 16384

noncomputable section

namespace Cert.Bridge

open Idealize.ShloMosaic Idealize.ShloMosaic.StableHlo Idealize.ShloMosaic.TcCoe Idealize.SL.Sem
open Cert.KernelIdeal.Gen Cert.KernelIdeal.RegionValue Cert.ReferenceIdeal.RefOps Cert.ReferenceIdeal.RefRun Cert.ReferenceIdeal.RefKept

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The reference's arguments stay as launched through its first stretches -/

theorem R1_arg (r : Ref Cert.ReferenceIdeal.sig .tc) (hs : r.space = .hbm) (hr : r.idx.val < 10) :
    R1 m' c (Proc.devRef .tc r) = R0 m' c (Proc.devRef .tc r) :=
  kept_of_ok _ seg0_ok r hs hr _

theorem R2_arg (r : Ref Cert.ReferenceIdeal.sig .tc) (hs : r.space = .hbm) (hr : r.idx.val < 10) :
    R2 m' c (Proc.devRef .tc r) = R0 m' c (Proc.devRef .tc r) :=
  (kept_of_ok _ seg1_ok r hs hr _).trans (R1_arg m' c r hs hr)

theorem R3_arg (r : Ref Cert.ReferenceIdeal.sig .tc) (hs : r.space = .hbm) (hr : r.idx.val < 10) :
    R3 m' c (Proc.devRef .tc r) = R0 m' c (Proc.devRef .tc r) :=
  (kept_of_ok _ seg2_ok r hs hr _).trans (R2_arg m' c r hs hr)

/-! ## The index vectors -/

/-- The first row of the incidence array, read by both programs from the same argument. -/
theorem row (hag : Agree m m' c) :
    W1 (F := Ideal) m ρ c (Proc.devRef .tc Cert.KernelIdeal.main_v1) = R1 m' c (Proc.devRef .tc Cert.ReferenceIdeal.main_v1) := by
  obtain ⟨-, h1, -⟩ := hag
  exact stage0_v1 (W0 m ρ c) (R0 m' c) ((W0_arg1 m ρ c).trans h1.symm)

/-- The second row. -/
theorem col (hag : Agree m m' c) :
    W1 (F := Ideal) m ρ c (Proc.devRef .tc Cert.KernelIdeal.main_v3) = R1 m' c (Proc.devRef .tc Cert.ReferenceIdeal.main_v3) := by
  obtain ⟨-, h1, -⟩ := hag
  exact stage0_v3 (W0 m ρ c) (R0 m' c) ((W0_arg1 m ρ c).trans h1.symm)

/-- After the two projection regions the first index vector is still that one. -/
theorem row3 (hag : Agree m m' c) :
    W3 (F := Ideal) m ρ c (Proc.devRef .tc Cert.KernelIdeal.main_v1) = R1 m' c (Proc.devRef .tc Cert.ReferenceIdeal.main_v1) :=
  (W3_v1 m ρ c).trans (row m ρ m' c hag)

theorem col3 (hag : Agree m m' c) :
    W3 (F := Ideal) m ρ c (Proc.devRef .tc Cert.KernelIdeal.main_v3) = R1 m' c (Proc.devRef .tc Cert.ReferenceIdeal.main_v3) :=
  (W3_v3 m ρ c).trans (col m ρ m' c hag)

/-! ## The two feature projections: a kernel region on one side, the matrix product of the same arguments on the other -/

/-- The node projection: the first region's result, at the reference's arguments. -/
theorem proj_node (hag : Agree m m' c) :
    W3 (F := Ideal) m ρ c (Proc.devRef .tc Cert.KernelIdeal.main_v4)
      = Host.dotGeneral (F := Ideal) (φ₁ := .f32) (φ₂ := .f32) Cert.ReferenceIdeal.dot_S20000x128_S128x768_S20000x768_1_0_0_1_n_n none (R1 m' c (Proc.devRef .tc Cert.ReferenceIdeal.main_arg0)) (R1 m' c (Proc.devRef .tc Cert.ReferenceIdeal.main_arg3)) := by
  obtain ⟨h0, -, -, h3, -⟩ := hag
  have ea : R1 m' c (Proc.devRef .tc Cert.ReferenceIdeal.main_arg0) = W1 (F := Ideal) m ρ c (Proc.devRef .tc Cert.KernelIdeal.main_arg0) :=
    (R1_arg m' c Cert.ReferenceIdeal.main_arg0 rfl (by decide)).trans (h0.trans (W1_arg0 m ρ c).symm)
  have eb : R1 m' c (Proc.devRef .tc Cert.ReferenceIdeal.main_arg3) = W1 (F := Ideal) m ρ c (Proc.devRef .tc Cert.KernelIdeal.main_arg3) :=
    (R1_arg m' c Cert.ReferenceIdeal.main_arg3 rfl (by decide)).trans (h3.trans (W1_arg3 m ρ c).symm)
  rw [ea, eb]
  exact (W3_v4 m ρ c).trans ((W2_arr m ρ c 2).trans (region0 (V1 m ρ) c))

/-- The hyperedge projection: the second region's result, at the reference's arguments. -/
theorem proj_edge (hag : Agree m m' c) :
    W3 (F := Ideal) m ρ c (Proc.devRef .tc Cert.KernelIdeal.main_v5)
      = Host.dotGeneral (F := Ideal) (φ₁ := .f32) (φ₂ := .f32) Cert.ReferenceIdeal.dot_S2000x128_S128x768_S2000x768_1_0_0_1_n_n none (R1 m' c (Proc.devRef .tc Cert.ReferenceIdeal.main_arg2)) (R1 m' c (Proc.devRef .tc Cert.ReferenceIdeal.main_arg3)) := by
  obtain ⟨-, -, h2, h3, -⟩ := hag
  have ea : R1 m' c (Proc.devRef .tc Cert.ReferenceIdeal.main_arg2) = W2 (F := Ideal) m ρ c (Proc.devRef .tc Cert.KernelIdeal.main_arg2) :=
    (R1_arg m' c Cert.ReferenceIdeal.main_arg2 rfl (by decide)).trans (h2.trans (W2_arg2 m ρ c).symm)
  have eb : R1 m' c (Proc.devRef .tc Cert.ReferenceIdeal.main_arg3) = W2 (F := Ideal) m ρ c (Proc.devRef .tc Cert.KernelIdeal.main_arg3) :=
    (R1_arg m' c Cert.ReferenceIdeal.main_arg3 rfl (by decide)).trans (h3.trans (W2_arg3 m ρ c).symm)
  rw [ea, eb]
  exact (W3_arr m ρ c 2).trans (region1 (V2 m ρ) c)

/-! ## The stretch between the projections and the coefficient product -/

/-- The node projection reshaped to [20000, 6, 128]. -/
theorem xl6 (hag : Agree m m' c) :
    W4 (F := Ideal) m ρ c (Proc.devRef .tc Cert.KernelIdeal.main_v6) = R2 m' c (Proc.devRef .tc Cert.ReferenceIdeal.main_v5) :=
  stage2_v6 (W3 m ρ c) (R1 m' c) (proj_node m ρ m' c hag)

/-- The gathered node means, both lines cut just before the concatenation. -/
theorem xl17 (hag : Agree m m' c) :
    after (hostOps2.take 30) (W3 (F := Ideal) m ρ c) (Proc.devRef .tc Cert.KernelIdeal.main_v17)
      = after (seg2.take 28) (R2 m' c) (Proc.devRef .tc Cert.ReferenceIdeal.main_v17) :=
  stage2_v17 (W3 m ρ c) (R1 m' c) (proj_node m ρ m' c hag) (row3 m ρ m' c hag)

/-- The gathered hyperedge means. -/
theorem xl27 (hag : Agree m m' c) :
    after (hostOps2.take 30) (W3 (F := Ideal) m ρ c) (Proc.devRef .tc Cert.KernelIdeal.main_v27)
      = after (seg2.take 28) (R2 m' c) (Proc.devRef .tc Cert.ReferenceIdeal.main_v27) :=
  stage2_v27 (W3 m ρ c) (R1 m' c) (proj_edge m ρ m' c hag) (col3 m ρ m' c hag)

/-- The concatenation of the two: the rest of both lines from the cut. -/
theorem xl28 (hag : Agree m m' c) :
    W4 (F := Ideal) m ρ c (Proc.devRef .tc Cert.KernelIdeal.main_v28) = R3 m' c (Proc.devRef .tc Cert.ReferenceIdeal.main_v28) :=
  (congrFun (after_cut 30 hostOps2 (W3 (F := Ideal) m ρ c)) _).trans
    ((stage2_v28 (after (hostOps2.take 30) (W3 (F := Ideal) m ρ c)) (after (seg2.take 28) (R2 m' c))
        (xl17 m ρ m' c hag) (xl27 m ρ m' c hag)).trans
      (congrFun (after_cut 28 seg2 (R2 m' c)) _).symm)

/-! ## The sheaf coefficients -/

/-- The logistic map of the concatenation's product with the coefficient weights: the third region's result on one side,
    the reference's stretch of host operations on the other, both the same closed term of equal arguments. -/
theorem alpha (hag : Agree m m' c) :
    W5 (F := Ideal) m ρ c (Proc.devRef .tc Cert.KernelIdeal.main_v29) = R4 m' c (Proc.devRef .tc Cert.ReferenceIdeal.main_v35) := by
  have e28 := xl28 m ρ m' c hag
  obtain ⟨-, -, -, -, h4, -⟩ := hag
  have e4 : R3 m' c (Proc.devRef .tc Cert.ReferenceIdeal.main_arg4) = W4 (F := Ideal) m ρ c (Proc.devRef .tc Cert.KernelIdeal.main_arg4) :=
    (R3_arg m' c Cert.ReferenceIdeal.main_arg4 rfl (by decide)).trans (h4.trans (W4_arg4 m ρ c).symm)
  have eR := ref_alpha (R3 m' c)
  rw [← e28, e4] at eR
  exact ((W5_arr m ρ c 2).trans (region2 (V4 m ρ) c)).trans eR.symm

end Cert.Bridge

end
-- ==== Proof.StagesB.lean ====
/-
  The first message passing, read as one stretch: from the channel-mixed node features, the sheaf coefficients, the two index
  vectors and the bias, the kernel program's host operations and the reference's are the same eighty-three operations —
  the two degree normalisations (scatter-add of the coefficients, the guarded reciprocal), node to hyperedge (gather, scale,
  scatter-add), hyperedge to node, the bias — so they leave equal values.
-/
import proofs.«106504_j2594160246965_1_alg».proof.Proof.Gen.KernelIdeal.Launch
import proofs.«106504_j2594160246965_1_alg».proof.Proof.RefOps
import proofs.«106504_j2594160246965_1_alg».proof.Proof.Spec
import proofs.«106504_j2594160246965_1_alg».proof.Proof.LibFoldCut
import Idealize.ShloMosaic.PureOps.Ideal

set_option maxHeartbeats 1000000

noncomputable section

namespace Cert.Bridge

open Idealize.ShloMosaic Idealize.ShloMosaic.StableHlo

local notation "KV" => Valuation Cert.KernelIdeal.τ Cert.KernelIdeal.sig (Elt Ideal)
local notation "RV" => Valuation Cert.ReferenceIdeal.τ Cert.ReferenceIdeal.sig (Elt Ideal)

open Cert.KernelIdeal.Gen Cert.ReferenceIdeal.RefOps

set_option maxHeartbeats 4000000 in
theorem stage5 (VK : KV) (VR : RV)
    (h32 : shapeCast Cert.KernelIdeal.main_v32.ty.shape (VK (Proc.devRef .tc Cert.KernelIdeal.main_v31)) Cert.KernelIdeal.Gen.shapeCasts_S120000x128_S20000x6x128 = VR (Proc.devRef .tc Cert.ReferenceIdeal.main_v36))
    (h29 : VK (Proc.devRef .tc Cert.KernelIdeal.main_v29) = VR (Proc.devRef .tc Cert.ReferenceIdeal.main_v35))
    (h1 : VK (Proc.devRef .tc Cert.KernelIdeal.main_v1) = VR (Proc.devRef .tc Cert.ReferenceIdeal.main_v1))
    (h3 : VK (Proc.devRef .tc Cert.KernelIdeal.main_v3) = VR (Proc.devRef .tc Cert.ReferenceIdeal.main_v3))
    (h6 : VK (Proc.devRef .tc Cert.KernelIdeal.main_arg6) = VR (Proc.devRef .tc Cert.ReferenceIdeal.main_arg6)) :
    after hostOps4_4 (after hostOps4_3 (after hostOps4_2 (after hostOps4_1 (after hostOps4 VK)))) (Proc.devRef .tc Cert.KernelIdeal.main_v93)
      = after seg5 VR (Proc.devRef .tc Cert.ReferenceIdeal.main_v97) := by
  after_results_simp
  rw [h32, h29, h1, h3, h6] <;> rfl

end Cert.Bridge

end
-- ==== Proof.Region3.lean ====
/-
  The kernel program's region with index 3 (its fourth; a grid of 60 points), in closed form.

  The region multiplies a 120000 × 128 matrix A, 2000 rows at a time, by a 128 × 128 matrix W: at the ideal values the
  narrowing of the operands to bf16 is the identity and the product accumulated into a zero block is the plain sum
  Σ_k A[r, k] · W[k, q]. Each grid point writes back the rows 2000 t … 2000 t + 1999 of that product, and the 60 blocks
  tile the rows, so the output array ends holding the whole product (`final3`).

  A is the row-major reshape of a 20000 × 6 × 128 array X (row 6 a + b of A is X[a, b, ·]) and the output is reshaped
  back, so the reshaped output is the contraction of X's last axis with W's first axis, the reference's one
  `dot_general` (`region3`).
-/
import proofs.«106504_j2594160246965_1_alg».proof.Proof.Gen.KernelIdeal.Frame
import proofs.«106504_j2594160246965_1_alg».proof.Proof.Gen.ReferenceIdeal
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block payload at an entry -/

/-- At the ideal values the block payload at entry (p, q) is Σ_k x0[p, k] · x1[k, q]. -/
theorem pay3_apply (x0 : Vec Ideal S2000x128 .f32) (x1 : Vec Ideal S128x128 .f32) (p : Fin 2000) (q : Fin 128) :
    k3_pay1 x0 x1 (ix2 p q) = ∑ k : Fin 128, x0 (ix2 p k) * x1 (ix2 k q) := by
  unfold k3_pay1
  simp only [shapeCast_self]
  show FloatOps.matmul dot_S2000x128_S128x128_S2000x128_1_0_0_1_n_n none _ _ (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have l2 : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact ck
  have r2 : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => simp [DotDims.rhsIdx, dot_S2000x128_S128x128_S2000x128_1_0_0_1_n_n]; exact ck
    | ⟨1, _⟩ => simp [DotDims.rhsIdx, dot_S2000x128_S128x128_S2000x128_1_0_0_1_n_n]; rfl
  rw [l2, r2]
  rfl

/-- The same at any entry `j` of the block. -/
theorem pay3_at (x0 : Vec Ideal S2000x128 .f32) (x1 : Vec Ideal S128x128 .f32) (j : S2000x128.Idx) :
    k3_pay1 x0 x1 j = ∑ k : Fin 128, x0 (ix2 (j 0 : Fin 2000) k) * x1 (ix2 k (j 1 : Fin 128)) := by
  obtain ⟨p, q, rfl⟩ : ∃ (p : Fin 2000) (q : Fin 128), j = ix2 p q := ⟨j 0, j 1, eq_ix2 j⟩
  exact pay3_apply x0 x1 p q

/-- The zero offsets of a whole rank-2 block. -/
theorem zeroOff2 : (![0, 0] : Fin 2 → Nat) = fun _ => 0 := funext fun a => by fin_cases a <;> rfl

/-- The product of a 120000 × 128 matrix with a 128 × 128 matrix, entry by entry. -/
abbrev rowsMul (A : FVec Ideal S120000x128 .f32) (W : FVec Ideal S128x128 .f32) : FVec Ideal S120000x128 .f32 :=
  fun i => ∑ k : Fin 128, A (ix2 (i 0 : Fin 120000) k) * W (ix2 k (i 1 : Fin 128))

/-- The payload of a block of rows `x0` of `A` and of the whole of `W` (`x1`), at an entry `j` of the block that sits at
    entry `i` of the array, is the product's entry there: `f0`, `f1` place the two blocks in their arrays, row `j 0` of
    the block is row `i 0` of `A` and column `j 1` is column `i 1`. -/
theorem pay3_blk (A : FVec Ideal S120000x128 .f32) (W : FVec Ideal S128x128 .f32)
    (x0 : Vec Ideal S2000x128 .f32) (x1 : Vec Ideal S128x128 .f32) (j : S2000x128.Idx) (i : S120000x128.Idx)
    (f0 : S2000x128.Idx → S120000x128.Idx) (f1 : S128x128.Idx → S128x128.Idx)
    (hx0 : ∀ y, x0 y = A (f0 y)) (hx1 : ∀ y, x1 y = W (f1 y))
    (h0 : ∀ k : Fin 128, f0 (ix2 (j 0 : Fin 2000) k) = ix2 (i 0 : Fin 120000) k)
    (h1 : ∀ k : Fin 128, f1 (ix2 k (j 1 : Fin 128)) = ix2 k (i 1 : Fin 128)) :
    k3_pay1 x0 x1 j = rowsMul A W i := by
  rw [pay3_at]
  refine Finset.sum_congr rfl fun k _ => ?_
  rw [hx0, hx1, h0, h1]
  rfl

/-! ## From the blocks to the array -/

/-- The block indices over the grid: point `t` reads rows block `t` of the input, the whole weight matrix, and writes
    rows block `t` of the output. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

variable (V : (c : Dev nD) → (b : Ref sig .tc) → Buf (Elt Ideal) ((c : Thread nD τ).loc b))

set_option maxHeartbeats 400000 in
/-- What point `t` writes back is block `t` of the product of the input array with the weight matrix. -/
theorem flushed3_eq (c : Dev nD) (t : Fin cfg3.N) :
    (dat3 (F := Ideal) V c).flushed 2 t
      = ((cfg3.win 2).blk t).view.read (Elt Ideal) (rowsMul (V c main_v30) (V c main_arg5)) := by
  show (cfg3.win 2).cut (grid3.coords t) ((dat3 V c).after 2 t) = _
  rw [after3_2]
  unfold out3_2
  rw [View.canon_unit_zero zeroOff2]
  simp only [View.ld_unit_zero (S := S2000x128) zeroOff2, View.ld_unit_zero (S := S128x128) zeroOff2]
  obtain ⟨e0, e1, e2, e3, e4, e5⟩ := idx_facts3 t
  funext j
  have hj0 : (j 0).val < 2000 := (j 0).isLt
  have hj1 : (j 1).val < 128 := (j 1).isLt
  refine pay3_blk (V c main_v30) (V c main_arg5) (iblk3 V c 0 t) (iblk3 V c 1 t) j (((cfg3.win 2).blk t).view.emb j)
    (fun y => ((cfg3.win 0).blk t).view.emb y) (fun y => ((cfg3.win 1).blk t).view.emb y) (fun y => rfl) (fun y => rfl)
    (fun k => ?_) (fun k => ?_)
  · have hk : k.val < 128 := k.isLt
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  · have hk : k.val < 128 := k.isLt
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An entry of the output array is in point `t`'s block iff each coordinate is in the block's range on its axis. -/
theorem mem_blk3 (t : Fin cfg3.N) (i : S120000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v31).slice (win3_2.rect t)).set ↔ _
  rw [View.set_slice_whole, Rect.mem_set_unit]
  exact Iff.rfl

/-- Row `r` of the output array is in the block of point `r / 2000`. -/
theorem cover3 (i : S120000x128.Idx) :
    ∃ t : Fin cfg3.N, (cfg3.win 2).flush t = true ∧ i ∈ ((cfg3.win 2).blk t).view.set := by
  have hi0 : (i 0).val < 120000 := (i 0).isLt
  have hi1 : (i 1).val < 128 := (i 1).isLt
  have hN : cfg3.N = 60 := N_3
  have hlt : (i 0).val / 2000 < cfg3.N := by rw [hN]; omega
  obtain ⟨e0, e1, e2, e3, e4, e5⟩ := idx_facts3 ⟨(i 0).val / 2000, hlt⟩
  have e4' : win3_2.index ⟨(i 0).val / 2000, hlt⟩ (0 : Fin 2) = (i 0).val / 2000 := e4
  refine ⟨⟨(i 0).val / 2000, hlt⟩, flush3_2 _, ?_⟩
  rw [mem_blk3]
  intro a
  match a with
  | ⟨0, _⟩ => show win3_2.index ⟨(i 0).val / 2000, hlt⟩ (0 : Fin 2) * 2000 ≤ (i 0).val ∧ (i 0).val < win3_2.index ⟨(i 0).val / 2000, hlt⟩ (0 : Fin 2) * 2000 + 2000; omega
  | ⟨1, _⟩ => show win3_2.index ⟨(i 0).val / 2000, hlt⟩ (1 : Fin 2) * 128 ≤ (i 1).val ∧ (i 1).val < win3_2.index ⟨(i 0).val / 2000, hlt⟩ (1 : Fin 2) * 128 + 128; omega

/-- The output array after the region: the product of the input array with the weight matrix. -/
theorem final3 (c : Dev nD) :
    (dat3 (F := Ideal) V c).arrAt 2 cfg3.N = rowsMul (V c main_v30) (V c main_arg5) :=
  (dat3 V c).arrAt_eq_of_cover 2 _ (fun t _ => flushed3_eq V c t) cover3

/-! ## The reshapes around the region, and the reference's contraction -/

/-- The reference's contraction of the last axis of a 20000 × 6 × 128 array with the first axis of a 128 × 128 matrix,
    read at an index: the sum over the contracted coordinate. -/
theorem ref_dot_apply (X : FVec Ideal S20000x6x128 .f32) (W : FVec Ideal S128x128 .f32) (a : Fin 20000) (b : Fin 6) (d : Fin 128) :
    Host.dotGeneral (F := Ideal) Cert.ReferenceIdeal.dot_S20000x6x128_S128x128_S20000x6x128_2_0_01_1_n_n none X W (ix3 a b d)
      = ∑ k : Fin 128, X (ix3 a b k) * W (ix2 k d) := by
  show FloatOps.dotGeneral _ none _ X W (ix3 a b d) = _
  rw [Ideal.dotGeneral_apply,
    ← Equiv.sum_comp (contrEquiv1 Cert.ReferenceIdeal.dot_S20000x6x128_S128x128_S20000x6x128_2_0_01_1_n_n 128 rfl rfl).symm]
  refine Finset.sum_congr rfl fun k _ => ?_
  have ck := contrEquiv1_symm_val Cert.ReferenceIdeal.dot_S20000x6x128_S128x128_S20000x6x128_2_0_01_1_n_n 128 rfl rfl k
  have l3 : Cert.ReferenceIdeal.dot_S20000x6x128_S128x128_S20000x6x128_2_0_01_1_n_n.lhsIdx (ix3 a b d)
      ((contrEquiv1 Cert.ReferenceIdeal.dot_S20000x6x128_S128x128_S20000x6x128_2_0_01_1_n_n 128 rfl rfl).symm k) = ix3 a b k := by
    funext ax; apply Fin.ext
    match ax with
    | ⟨0, _⟩ => simp [DotDims.lhsIdx, Cert.ReferenceIdeal.dot_S20000x6x128_S128x128_S20000x6x128_2_0_01_1_n_n]; rfl
    | ⟨1, _⟩ => simp [DotDims.lhsIdx, Cert.ReferenceIdeal.dot_S20000x6x128_S128x128_S20000x6x128_2_0_01_1_n_n]; rfl
    | ⟨2, _⟩ => simp [DotDims.lhsIdx, Cert.ReferenceIdeal.dot_S20000x6x128_S128x128_S20000x6x128_2_0_01_1_n_n]; exact ck
  have r2 : Cert.ReferenceIdeal.dot_S20000x6x128_S128x128_S20000x6x128_2_0_01_1_n_n.rhsIdx (ix3 a b d)
      ((contrEquiv1 Cert.ReferenceIdeal.dot_S20000x6x128_S128x128_S20000x6x128_2_0_01_1_n_n 128 rfl rfl).symm k) = ix2 k d := by
    funext ax; apply Fin.ext
    match ax with
    | ⟨0, _⟩ => simp [DotDims.rhsIdx, Cert.ReferenceIdeal.dot_S20000x6x128_S128x128_S20000x6x128_2_0_01_1_n_n]; exact ck
    | ⟨1, _⟩ => simp [DotDims.rhsIdx, Cert.ReferenceIdeal.dot_S20000x6x128_S128x128_S20000x6x128_2_0_01_1_n_n]; rfl
  rw [l3, r2]

/-- The product of the rows of the matrix a 20000 × 6 × 128 array reshapes to, reshaped back, is the contraction of the
    array's last axis: row `6 a + b` of the matrix is `X[a, b, ·]`. -/
theorem rowsMul_reshape (X : FVec Ideal S20000x6x128 .f32) (W : FVec Ideal S128x128 .f32) :
    shapeCast S20000x6x128 (rowsMul (shapeCast S120000x128 X shapeCasts_S20000x6x128_S120000x128) W)
        shapeCasts_S120000x128_S20000x6x128
      = Host.dotGeneral (F := Ideal) Cert.ReferenceIdeal.dot_S20000x6x128_S128x128_S20000x6x128_2_0_01_1_n_n none X W := by
  funext j
  obtain ⟨a, b, d, rfl⟩ : ∃ (a : Fin 20000) (b : Fin 6) (d : Fin 128), j = ix3 a b d := ⟨j 0, j 1, j 2, eq_ix3 j⟩
  rw [ref_dot_apply]
  have ha : a.val < 20000 := a.isLt
  have hb : b.val < 6 := b.isLt
  have hr : a.val * 6 + b.val < 120000 := by omega
  refine (shapeCast_apply _ shapeCasts_S120000x128_S20000x6x128 (ix3 a b d) (ix2 (⟨a.val * 6 + b.val, hr⟩ : Fin 120000) d) ?_).trans ?_
  · rw [Shape.rowMajor_val_two, Shape.rowMajor_val_three]
    rfl
  · show ∑ k : Fin 128, shapeCast S120000x128 X shapeCasts_S20000x6x128_S120000x128 (ix2 (⟨a.val * 6 + b.val, hr⟩ : Fin 120000) k) * W (ix2 k d) = _
    refine Finset.sum_congr rfl fun k _ => ?_
    rw [shapeCast_apply X shapeCasts_S20000x6x128_S120000x128 (ix2 (⟨a.val * 6 + b.val, hr⟩ : Fin 120000) k) (ix3 a b k) (by
      rw [Shape.rowMajor_val_two, Shape.rowMajor_val_three]
      rfl)]

/-- The region's output, reshaped to 20000 × 6 × 128, is the reference's contraction of `X` with the weight matrix, `X` being
    the array whose reshape the region reads. -/
theorem region3 (c : Dev nD) (X : FVec Ideal S20000x6x128 .f32)
    (hX : V c main_v30 = shapeCast S120000x128 X shapeCasts_S20000x6x128_S120000x128) :
    shapeCast S20000x6x128 ((dat3 (F := Ideal) V c).arrAt 2 cfg3.N) shapeCasts_S120000x128_S20000x6x128
      = Host.dotGeneral (F := Ideal) (φ₂ := .f32) Cert.ReferenceIdeal.dot_S20000x6x128_S128x128_S20000x6x128_2_0_01_1_n_n none X (V c main_arg5) := by
  rw [final3, hX]
  exact rowsMul_reshape X (V c main_arg5)

end Cert.KernelIdeal.RegionValue

end
-- ==== Proof.Region4.lean ====
/-
  The kernel program's region with index 4 (its fifth; a grid of 20 points), in closed form.

  The region applies the exponential linear unit entry by entry to a 20000 × 6 × 128 array, 1000 leading indices at a
  time: x where x > 0, e^x − 1 elsewhere. The reference writes the same function in a guarded form,
  x where x > 0 and 1 · expm1 (x') elsewhere, x' being x with its positive entries replaced by zero; where the second
  branch is taken x' = x, expm1 y = e^y − 1 and 1 · y = y on the extended reals, so the two agree at every entry
  (`elu_at`). The 20 blocks tile the leading axis, so the output array ends holding the unit of the whole input (`region4`).
-/
import proofs.«106504_j2594160246965_1_alg».proof.Proof.Gen.KernelIdeal.Frame
import proofs.«106504_j2594160246965_1_alg».proof.Proof.Gen.ReferenceIdeal
import proofs.«106504_j2594160246965_1_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block payload at an entry -/

/-- The bit pattern 0x3F800000 is the number one. -/
theorem ofBits_one_f32 : Ideal.ofBits .f32 0x3F800000#32 = 1 := by
  simp [Ideal.ofBits, Ideal.ieee, -EReal.coe_mul]; norm_num

set_option maxHeartbeats 400000 in
/-- The payload at an entry `j` holding the value that `y` holds at `i` is the reference's unit of `y` at `i`. -/
theorem elu_at (x : Vec Ideal S1000x6x128 .f32) (j : S1000x6x128.Idx) (y : FVec Ideal S20000x6x128 .f32) (i : S20000x6x128.Idx)
    (h : x j = y i) : k4_pay1 x j = Cert.Spec.eluRef y i := by
  unfold k4_pay1 Cert.Spec.eluRef
  simp only [shapeCast_self]
  show Scalar.select (FloatOps.cmpf .ogt (x j) (Ideal.ofBits .f32 0x00000000#32)) (x j)
        (Ideal.exp (x j) - Ideal.ofBits .f32 0x3F800000#32)
      = Scalar.select (FloatOps.cmpf .ogt (y i) (Ideal.ofBits .f32 0x00000000#32)) (y i)
        (Ideal.ofBits .f32 0x3F800000#32
          * (Ideal.exp (Scalar.select (FloatOps.cmpf .ogt (y i) (Ideal.ofBits .f32 0x00000000#32))
              (Ideal.ofBits .f32 0x00000000#32) (y i)) - 1))
  rw [h, ofBits_one_f32, one_mul]
  rcases BitVec.eq_zero_or_eq_one (FloatOps.cmpf .ogt (y i) (Ideal.ofBits .f32 0x00000000#32)) with h0 | h1
  · rw [h0]; simp only [select_zero]
  · rw [h1]; simp only [select_one]

/-- The zero offsets of a whole rank-3 block. -/
theorem zeroOff3 : (![0, 0, 0] : Fin 3 → Nat) = fun _ => 0 := funext fun a => by fin_cases a <;> rfl

/-- The payload of a block `x` of the array `A` (`f` places the block in the array), at an entry `j` of the block that sits
    at entry `i` of the array, is the unit of `A` at `i`. -/
theorem elu_blk (A : FVec Ideal S20000x6x128 .f32) (x : Vec Ideal S1000x6x128 .f32) (j : S1000x6x128.Idx) (i : S20000x6x128.Idx)
    (f : S1000x6x128.Idx → S20000x6x128.Idx) (hx : ∀ y, x y = A (f y)) (hf : f j = i) :
    k4_pay1 x j = Cert.Spec.eluRef A i :=
  elu_at x j A i (by rw [hx, hf])

/-! ## From the blocks to the array -/

/-- The block indices over the grid: point `t` reads block `t` of the input along the leading axis and writes block `t`
    of the output. -/
theorem idx_facts4 : ∀ t : Fin cfg4.N, win4_0.index t (0 : Fin 3) = t.val
    ∧ win4_0.index t (1 : Fin 3) = 0
    ∧ win4_0.index t (2 : Fin 3) = 0
    ∧ win4_1.index t (0 : Fin 3) = t.val
    ∧ win4_1.index t (1 : Fin 3) = 0
    ∧ win4_1.index t (2 : Fin 3) = 0 :=
  (by decide +kernel : ∀ t : Fin grid4.N, _)

variable (V : (c : Dev nD) → (b : Ref sig .tc) → Buf (Elt Ideal) ((c : Thread nD τ).loc b))

set_option maxHeartbeats 400000 in
/-- What point `t` writes back is block `t` of the unit of the input array. -/
theorem flushed4_eq (c : Dev nD) (t : Fin cfg4.N) :
    (dat4 (F := Ideal) V c).flushed 1 t
      = ((cfg4.win 1).blk t).view.read (Elt Ideal) (Cert.Spec.eluRef (V c main_v93)) := by
  show (cfg4.win 1).cut (grid4.coords t) ((dat4 V c).after 1 t) = _
  rw [after4_1]
  unfold out4_1
  rw [View.canon_unit_zero zeroOff3]
  simp only [View.ld_unit_zero (S := S1000x6x128) zeroOff3]
  obtain ⟨e0, e1, e2, e3, e4, e5⟩ := idx_facts4 t
  funext j
  have hj0 : (j 0).val < 1000 := (j 0).isLt
  have hj1 : (j 1).val < 6 := (j 1).isLt
  have hj2 : (j 2).val < 128 := (j 2).isLt
  refine elu_blk (V c main_v93) (iblk4 V c 0 t) j (((cfg4.win 1).blk t).view.emb j)
    (fun y => ((cfg4.win 0).blk t).view.emb y) (fun y => rfl) ?_
  funext a; apply Fin.ext
  match a with
  | ⟨0, _⟩ => show win4_0.index t (0 : Fin 3) * 1000 + 1 * (j 0).val = win4_1.index t (0 : Fin 3) * 1000 + 1 * (j 0).val; omega
  | ⟨1, _⟩ => show win4_0.index t (1 : Fin 3) * 6 + 1 * (j 1).val = win4_1.index t (1 : Fin 3) * 6 + 1 * (j 1).val; omega
  | ⟨2, _⟩ => show win4_0.index t (2 : Fin 3) * 128 + 1 * (j 2).val = win4_1.index t (2 : Fin 3) * 128 + 1 * (j 2).val; omega

/-- An entry of the output array is in point `t`'s block iff each coordinate is in the block's range on its axis. -/
theorem mem_blk4 (t : Fin cfg4.N) (i : S20000x6x128.Idx) :
    i ∈ ((cfg4.win 1).blk t).view.set ↔ ∀ a : Fin 3, win4_1.index t a * S1000x6x128.size a ≤ (i a).val ∧ (i a).val < win4_1.index t a * S1000x6x128.size a + S1000x6x128.size a := by
  show i ∈ ((View.whole main_v94).slice (win4_1.rect t)).set ↔ _
  rw [View.set_slice_whole, Rect.mem_set_unit]
  exact Iff.rfl

/-- Leading index `r` of the output array is in the block of point `r / 1000`. -/
theorem cover4 (i : S20000x6x128.Idx) :
    ∃ t : Fin cfg4.N, (cfg4.win 1).flush t = true ∧ i ∈ ((cfg4.win 1).blk t).view.set := by
  have hi0 : (i 0).val < 20000 := (i 0).isLt
  have hi1 : (i 1).val < 6 := (i 1).isLt
  have hi2 : (i 2).val < 128 := (i 2).isLt
  have hN : cfg4.N = 20 := N_4
  have hlt : (i 0).val / 1000 < cfg4.N := by rw [hN]; omega
  obtain ⟨e0, e1, e2, e3, e4, e5⟩ := idx_facts4 ⟨(i 0).val / 1000, hlt⟩
  have e3' : win4_1.index ⟨(i 0).val / 1000, hlt⟩ (0 : Fin 3) = (i 0).val / 1000 := e3
  refine ⟨⟨(i 0).val / 1000, hlt⟩, flush4_1 _, ?_⟩
  rw [mem_blk4]
  intro a
  match a with
  | ⟨0, _⟩ => show win4_1.index ⟨(i 0).val / 1000, hlt⟩ (0 : Fin 3) * 1000 ≤ (i 0).val ∧ (i 0).val < win4_1.index ⟨(i 0).val / 1000, hlt⟩ (0 : Fin 3) * 1000 + 1000; omega
  | ⟨1, _⟩ => show win4_1.index ⟨(i 0).val / 1000, hlt⟩ (1 : Fin 3) * 6 ≤ (i 1).val ∧ (i 1).val < win4_1.index ⟨(i 0).val / 1000, hlt⟩ (1 : Fin 3) * 6 + 6; omega
  | ⟨2, _⟩ => show win4_1.index ⟨(i 0).val / 1000, hlt⟩ (2 : Fin 3) * 128 ≤ (i 2).val ∧ (i 2).val < win4_1.index ⟨(i 0).val / 1000, hlt⟩ (2 : Fin 3) * 128 + 128; omega

/-- The output array after the region: the exponential linear unit of the input array, in the reference's spelling. -/
theorem region4 (c : Dev nD) :
    (dat4 (F := Ideal) V c).arrAt 1 cfg4.N = Cert.Spec.eluRef (V c main_v93) :=
  (dat4 V c).arrAt_eq_of_cover 1 _ (fun t _ => flushed4_eq V c t) cover4

end Cert.KernelIdeal.RegionValue

end
-- ==== Proof.Chain2.lean ====
/-
  The middle third of the comparison: from the reshaped node projection, the sheaf coefficients and the two index vectors,
  through the first channel mixing (the kernel's row-blocked matrix product of the reshaped array against the reference's
  three-axis contraction), the first message passing (shared host operations) and the exponential linear unit (a kernel
  region against the reference's guarded host spelling), the two programs hold equal activations.
-/
import proofs.«106504_j2594160246965_1_alg».proof.Proof.ChainDefs
import proofs.«106504_j2594160246965_1_alg».proof.Proof.Kept
import proofs.«106504_j2594160246965_1_alg».proof.Proof.StagesA
import proofs.«106504_j2594160246965_1_alg».proof.Proof.StagesB
import proofs.«106504_j2594160246965_1_alg».proof.Proof.Region3
import proofs.«106504_j2594160246965_1_alg».proof.Proof.Region4
import proofs.«106504_j2594160246965_1_alg».proof.Proof.RefKept

set_option maxHeartbeats 1000000

noncomputable section

namespace Cert.Bridge

open Idealize.ShloMosaic Idealize.ShloMosaic.StableHlo Idealize.SL.Sem
open Cert.KernelIdeal.Gen Cert.KernelIdeal.RegionValue Cert.ReferenceIdeal.RefOps Cert.ReferenceIdeal.RefKept

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The first mixing weight, at the fourth reference boundary, is the launch memory's. -/
theorem R4_arg5 : R4 m' c (Proc.devRef .tc Cert.ReferenceIdeal.main_arg5) = m' ((c.tc : Thread Cert.ReferenceIdeal.nD Cert.ReferenceIdeal.τ).loc Cert.ReferenceIdeal.main_arg5) :=
  ((((Cert.ReferenceIdeal.RefKept.kept_of_ok _ Cert.ReferenceIdeal.RefRun.seg3_ok Cert.ReferenceIdeal.main_arg5 rfl (by decide) (R3 m' c)).trans (Cert.ReferenceIdeal.RefKept.kept_of_ok _ Cert.ReferenceIdeal.RefRun.seg2_ok Cert.ReferenceIdeal.main_arg5 rfl (by decide) (R2 m' c))).trans (Cert.ReferenceIdeal.RefKept.kept_of_ok _ Cert.ReferenceIdeal.RefRun.seg1_ok Cert.ReferenceIdeal.main_arg5 rfl (by decide) (R1 m' c))).trans (Cert.ReferenceIdeal.RefKept.kept_of_ok _ Cert.ReferenceIdeal.RefRun.seg0_ok Cert.ReferenceIdeal.main_arg5 rfl (by decide) (R0 m' c)))

/-- The first bias, at the fifth reference boundary, is the launch memory's. -/
theorem R5_arg6 : R5 m' c (Proc.devRef .tc Cert.ReferenceIdeal.main_arg6) = m' ((c.tc : Thread Cert.ReferenceIdeal.nD Cert.ReferenceIdeal.τ).loc Cert.ReferenceIdeal.main_arg6) :=
  (((((Cert.ReferenceIdeal.RefKept.kept_of_ok _ Cert.ReferenceIdeal.RefRun.seg4_ok Cert.ReferenceIdeal.main_arg6 rfl (by decide) (R4 m' c)).trans (Cert.ReferenceIdeal.RefKept.kept_of_ok _ Cert.ReferenceIdeal.RefRun.seg3_ok Cert.ReferenceIdeal.main_arg6 rfl (by decide) (R3 m' c))).trans (Cert.ReferenceIdeal.RefKept.kept_of_ok _ Cert.ReferenceIdeal.RefRun.seg2_ok Cert.ReferenceIdeal.main_arg6 rfl (by decide) (R2 m' c))).trans (Cert.ReferenceIdeal.RefKept.kept_of_ok _ Cert.ReferenceIdeal.RefRun.seg1_ok Cert.ReferenceIdeal.main_arg6 rfl (by decide) (R1 m' c))).trans (Cert.ReferenceIdeal.RefKept.kept_of_ok _ Cert.ReferenceIdeal.RefRun.seg0_ok Cert.ReferenceIdeal.main_arg6 rfl (by decide) (R0 m' c)))

/-- The reshaped node projection is still there after the reference's next two stretches. -/
theorem R4_v5 : R4 m' c (Proc.devRef .tc Cert.ReferenceIdeal.main_v5) = R2 m' c (Proc.devRef .tc Cert.ReferenceIdeal.main_v5) :=
  (seg3_v5 (R3 m' c)).trans (seg2_v5 (R2 m' c))

theorem R5_v35 : R5 m' c (Proc.devRef .tc Cert.ReferenceIdeal.main_v35) = R4 m' c (Proc.devRef .tc Cert.ReferenceIdeal.main_v35) := seg4_v35 (R4 m' c)

theorem R5_v1 : R5 m' c (Proc.devRef .tc Cert.ReferenceIdeal.main_v1) = R1 m' c (Proc.devRef .tc Cert.ReferenceIdeal.main_v1) :=
  (seg4_v1 (R4 m' c)).trans ((seg3_v1 (R3 m' c)).trans ((seg2_v1 (R2 m' c)).trans (seg1_v1 (R1 m' c))))

theorem R5_v3 : R5 m' c (Proc.devRef .tc Cert.ReferenceIdeal.main_v3) = R1 m' c (Proc.devRef .tc Cert.ReferenceIdeal.main_v3) :=
  (seg4_v3 (R4 m' c)).trans ((seg3_v3 (R3 m' c)).trans ((seg2_v3 (R2 m' c)).trans (seg1_v3 (R1 m' c))))

/-- The first channel mixing: the kernel's product of the reshaped rows, reshaped back, is the reference's contraction. -/
theorem proj1 (hag : Agree m m' c)
    (hxl6 : Cert.KernelIdeal.Gen.W4 (F := Ideal) m ρ c (Proc.devRef .tc Cert.KernelIdeal.main_v6) = R2 m' c (Proc.devRef .tc Cert.ReferenceIdeal.main_v5)) :
    shapeCast Cert.KernelIdeal.main_v32.ty.shape (Cert.KernelIdeal.Gen.W7 (F := Ideal) m ρ c (Proc.devRef .tc Cert.KernelIdeal.main_v31)) Cert.KernelIdeal.Gen.shapeCasts_S120000x128_S20000x6x128
      = R5 m' c (Proc.devRef .tc Cert.ReferenceIdeal.main_v36) := by
  have hX : V6 (F := Ideal) m ρ c Cert.KernelIdeal.main_v30
      = shapeCast Cert.KernelIdeal.S120000x128 (Cert.KernelIdeal.Gen.W5 (F := Ideal) m ρ c (Proc.devRef .tc Cert.KernelIdeal.main_v6)) Cert.KernelIdeal.Gen.shapeCasts_S20000x6x128_S120000x128 :=
    k_v30 (Cert.KernelIdeal.Gen.W5 (F := Ideal) m ρ c)
  have r3 := region3 (V6 (F := Ideal) m ρ) c (Cert.KernelIdeal.Gen.W5 (F := Ideal) m ρ c (Proc.devRef .tc Cert.KernelIdeal.main_v6)) hX
  have e31 : Cert.KernelIdeal.Gen.W7 (F := Ideal) m ρ c (Proc.devRef .tc Cert.KernelIdeal.main_v31) = (dat3 (F := Ideal) (V6 m ρ) c).arrAt 2 Cert.KernelIdeal.cfg3.N := W7_arr m ρ c 2
  have e6 : Cert.KernelIdeal.Gen.W5 (F := Ideal) m ρ c (Proc.devRef .tc Cert.KernelIdeal.main_v6) = R4 m' c (Proc.devRef .tc Cert.ReferenceIdeal.main_v5) :=
    (W5_v6 m ρ c).trans (hxl6.trans (R4_v5 m' c).symm)
  have e5 : V6 (F := Ideal) m ρ c Cert.KernelIdeal.main_arg5 = R4 m' c (Proc.devRef .tc Cert.ReferenceIdeal.main_arg5) :=
    (W6_arg5 m ρ c).trans (hag.2.2.2.2.2.1.symm.trans (R4_arg5 m' c).symm)
  rw [e31]
  refine r3.trans ?_
  rw [e6, e5]
  exact (ref_proj1 (R4 m' c)).symm

/-- The first message passing leaves equal values. -/
theorem conv1 (hag : Agree m m' c)
    (hrow : Cert.KernelIdeal.Gen.W1 (F := Ideal) m ρ c (Proc.devRef .tc Cert.KernelIdeal.main_v1) = R1 m' c (Proc.devRef .tc Cert.ReferenceIdeal.main_v1))
    (hcol : Cert.KernelIdeal.Gen.W1 (F := Ideal) m ρ c (Proc.devRef .tc Cert.KernelIdeal.main_v3) = R1 m' c (Proc.devRef .tc Cert.ReferenceIdeal.main_v3))
    (hxl6 : Cert.KernelIdeal.Gen.W4 (F := Ideal) m ρ c (Proc.devRef .tc Cert.KernelIdeal.main_v6) = R2 m' c (Proc.devRef .tc Cert.ReferenceIdeal.main_v5))
    (halpha : Cert.KernelIdeal.Gen.W5 (F := Ideal) m ρ c (Proc.devRef .tc Cert.KernelIdeal.main_v29) = R4 m' c (Proc.devRef .tc Cert.ReferenceIdeal.main_v35)) :
    Cert.KernelIdeal.Gen.W12 (F := Ideal) m ρ c (Proc.devRef .tc Cert.KernelIdeal.main_v93) = R6 m' c (Proc.devRef .tc Cert.ReferenceIdeal.main_v97) :=
  stage5 (Cert.KernelIdeal.Gen.W7 (F := Ideal) m ρ c) (R5 m' c) (proj1 m ρ m' c hag hxl6)
    ((W7_v29 m ρ c).trans (halpha.trans (R5_v35 m' c).symm))
    ((W7_v1 m ρ c).trans (hrow.trans (R5_v1 m' c).symm))
    ((W7_v3 m ρ c).trans (hcol.trans (R5_v3 m' c).symm))
    ((W7_arg6 m ρ c).trans (hag.2.2.2.2.2.2.1.symm.trans (R5_arg6 m' c).symm))

/-- The exponential linear unit: the kernel's region against the reference's host spelling. -/
theorem act1 (hag : Agree m m' c)
    (hrow : Cert.KernelIdeal.Gen.W1 (F := Ideal) m ρ c (Proc.devRef .tc Cert.KernelIdeal.main_v1) = R1 m' c (Proc.devRef .tc Cert.ReferenceIdeal.main_v1))
    (hcol : Cert.KernelIdeal.Gen.W1 (F := Ideal) m ρ c (Proc.devRef .tc Cert.KernelIdeal.main_v3) = R1 m' c (Proc.devRef .tc Cert.ReferenceIdeal.main_v3))
    (hxl6 : Cert.KernelIdeal.Gen.W4 (F := Ideal) m ρ c (Proc.devRef .tc Cert.KernelIdeal.main_v6) = R2 m' c (Proc.devRef .tc Cert.ReferenceIdeal.main_v5))
    (halpha : Cert.KernelIdeal.Gen.W5 (F := Ideal) m ρ c (Proc.devRef .tc Cert.KernelIdeal.main_v29) = R4 m' c (Proc.devRef .tc Cert.ReferenceIdeal.main_v35)) :
    Cert.KernelIdeal.Gen.W13 (F := Ideal) m ρ c (Proc.devRef .tc Cert.KernelIdeal.main_v94) = R7 m' c (Proc.devRef .tc Cert.ReferenceIdeal.main_v98) := by
  have e94 : Cert.KernelIdeal.Gen.W13 (F := Ideal) m ρ c (Proc.devRef .tc Cert.KernelIdeal.main_v94) = (dat4 (F := Ideal) (V12 m ρ) c).arrAt 1 Cert.KernelIdeal.cfg4.N := W13_arr m ρ c 1
  have e93 : V12 (F := Ideal) m ρ c Cert.KernelIdeal.main_v93 = R6 m' c (Proc.devRef .tc Cert.ReferenceIdeal.main_v97) := conv1 m ρ m' c hag hrow hcol hxl6 halpha
  rw [e94, region4 (V12 (F := Ideal) m ρ) c, e93]
  exact (ref_elu (R6 m' c)).symm

end Cert.Bridge

end
-- ==== Proof.StagesC.lean ====
/-
  The second message passing, read as one stretch: from the second channel-mixed node features, the sheaf coefficients, the two index
  vectors and the bias, the kernel program's host operations and the reference's are the same eighty-three operations —
  the two degree normalisations (scatter-add of the coefficients, the guarded reciprocal), node to hyperedge (gather, scale,
  scatter-add), hyperedge to node, the bias — so they leave equal values; the kernel program's last host operation, the reshape to [20000, 768], is read with it.
-/
import proofs.«106504_j2594160246965_1_alg».proof.Proof.Gen.KernelIdeal.Launch
import proofs.«106504_j2594160246965_1_alg».proof.Proof.RefOps
import proofs.«106504_j2594160246965_1_alg».proof.Proof.Spec
import proofs.«106504_j2594160246965_1_alg».proof.Proof.LibFoldCut
import Idealize.ShloMosaic.PureOps.Ideal

set_option maxHeartbeats 1000000

noncomputable section

namespace Cert.Bridge

open Idealize.ShloMosaic Idealize.ShloMosaic.StableHlo

local notation "KV" => Valuation Cert.KernelIdeal.τ Cert.KernelIdeal.sig (Elt Ideal)
local notation "RV" => Valuation Cert.ReferenceIdeal.τ Cert.ReferenceIdeal.sig (Elt Ideal)

open Cert.KernelIdeal.Gen Cert.ReferenceIdeal.RefOps

set_option maxHeartbeats 4000000 in
theorem stage8 (VK : KV) (VR : RV)
    (h97 : shapeCast Cert.KernelIdeal.main_v97.ty.shape (VK (Proc.devRef .tc Cert.KernelIdeal.main_v96)) Cert.KernelIdeal.Gen.shapeCasts_S120000x128_S20000x6x128 = VR (Proc.devRef .tc Cert.ReferenceIdeal.main_v99))
    (h29 : VK (Proc.devRef .tc Cert.KernelIdeal.main_v29) = VR (Proc.devRef .tc Cert.ReferenceIdeal.main_v35))
    (h1 : VK (Proc.devRef .tc Cert.KernelIdeal.main_v1) = VR (Proc.devRef .tc Cert.ReferenceIdeal.main_v1))
    (h3 : VK (Proc.devRef .tc Cert.KernelIdeal.main_v3) = VR (Proc.devRef .tc Cert.ReferenceIdeal.main_v3))
    (h8 : VK (Proc.devRef .tc Cert.KernelIdeal.main_arg8) = VR (Proc.devRef .tc Cert.ReferenceIdeal.main_arg8)) :
    after hostOps6_4 (after hostOps6_3 (after hostOps6_2 (after hostOps6_1 (after hostOps6 VK)))) (Proc.devRef .tc Cert.KernelIdeal.main_v159)
      = shapeCast Cert.ReferenceIdeal.S20000x768 (after seg8 VR (Proc.devRef .tc Cert.ReferenceIdeal.main_v160)) Cert.ReferenceIdeal.Gen.shapeCasts_S20000x6x128_S20000x768 := by
  after_results_simp
  rw [h97, h29, h1, h3, h8] <;> rfl

end Cert.Bridge

end
-- ==== Proof.Region5.lean ====
/-
  The kernel program's region with index 5 (its sixth; a grid of 60 points), in closed form: the same matrix product as
  the region with index 3, on other arrays. It multiplies the 120000 × 128 matrix it reads, 2000 rows at a time, by a 128 × 128 weight
  matrix; the 60 blocks tile the rows, so the output array ends holding the whole product (`final5`), and between the
  two reshapes that surround the region this is the reference's contraction of the last axis of a 20000 × 6 × 128 array
  with the weight matrix (`region5`).
-/
import proofs.«106504_j2594160246965_1_alg».proof.Proof.Gen.KernelIdeal.Frame
import proofs.«106504_j2594160246965_1_alg».proof.Proof.Gen.ReferenceIdeal
import proofs.«106504_j2594160246965_1_alg».proof.Proof.Region3
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- This region's block payload is the same term as the region with index 3 has: the product's entry (see `pay3_blk`). -/
theorem pay5_blk (A : FVec Ideal S120000x128 .f32) (W : FVec Ideal S128x128 .f32)
    (x0 : Vec Ideal S2000x128 .f32) (x1 : Vec Ideal S128x128 .f32) (j : S2000x128.Idx) (i : S120000x128.Idx)
    (f0 : S2000x128.Idx → S120000x128.Idx) (f1 : S128x128.Idx → S128x128.Idx)
    (hx0 : ∀ y, x0 y = A (f0 y)) (hx1 : ∀ y, x1 y = W (f1 y))
    (h0 : ∀ k : Fin 128, f0 (ix2 (j 0 : Fin 2000) k) = ix2 (i 0 : Fin 120000) k)
    (h1 : ∀ k : Fin 128, f1 (ix2 k (j 1 : Fin 128)) = ix2 k (i 1 : Fin 128)) :
    k5_pay1 x0 x1 j = rowsMul A W i :=
  pay3_blk A W x0 x1 j i f0 f1 hx0 hx1 h0 h1

/-- The block indices over the grid: point `t` reads rows block `t` of the input, the whole weight matrix, and writes
    rows block `t` of the output. -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

variable (V : (c : Dev nD) → (b : Ref sig .tc) → Buf (Elt Ideal) ((c : Thread nD τ).loc b))

set_option maxHeartbeats 400000 in
/-- What point `t` writes back is block `t` of the product of the input array with the weight matrix. -/
theorem flushed5_eq (c : Dev nD) (t : Fin cfg5.N) :
    (dat5 (F := Ideal) V c).flushed 2 t
      = ((cfg5.win 2).blk t).view.read (Elt Ideal) (rowsMul (V c main_v95) (V c main_arg7)) := by
  show (cfg5.win 2).cut (grid5.coords t) ((dat5 V c).after 2 t) = _
  rw [after5_2]
  unfold out5_2
  rw [View.canon_unit_zero zeroOff2]
  simp only [View.ld_unit_zero (S := S2000x128) zeroOff2, View.ld_unit_zero (S := S128x128) zeroOff2]
  obtain ⟨e0, e1, e2, e3, e4, e5⟩ := idx_facts5 t
  funext j
  have hj0 : (j 0).val < 2000 := (j 0).isLt
  have hj1 : (j 1).val < 128 := (j 1).isLt
  refine pay5_blk (V c main_v95) (V c main_arg7) (iblk5 V c 0 t) (iblk5 V c 1 t) j (((cfg5.win 2).blk t).view.emb j)
    (fun y => ((cfg5.win 0).blk t).view.emb y) (fun y => ((cfg5.win 1).blk t).view.emb y) (fun y => rfl) (fun y => rfl)
    (fun k => ?_) (fun k => ?_)
  · have hk : k.val < 128 := k.isLt
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 128 + 1 * k.val = k.val; omega
  · have hk : k.val < 128 := k.isLt
    funext a; apply Fin.ext
    match a with
    | ⟨0, _⟩ => show win5_1.index t (0 : Fin 2) * 128 + 1 * k.val = k.val; omega
    | ⟨1, _⟩ => show win5_1.index t (1 : Fin 2) * 128 + 1 * (j 1).val = win5_2.index t (1 : Fin 2) * 128 + 1 * (j 1).val; omega

/-- An entry of the output array is in point `t`'s block iff each coordinate is in the block's range on its axis. -/
theorem mem_blk5 (t : Fin cfg5.N) (i : S120000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v96).slice (win5_2.rect t)).set ↔ _
  rw [View.set_slice_whole, Rect.mem_set_unit]
  exact Iff.rfl

/-- Row `r` of the output array is in the block of point `r / 2000`. -/
theorem cover5 (i : S120000x128.Idx) :
    ∃ t : Fin cfg5.N, (cfg5.win 2).flush t = true ∧ i ∈ ((cfg5.win 2).blk t).view.set := by
  have hi0 : (i 0).val < 120000 := (i 0).isLt
  have hi1 : (i 1).val < 128 := (i 1).isLt
  have hN : cfg5.N = 60 := N_5
  have hlt : (i 0).val / 2000 < cfg5.N := by rw [hN]; omega
  obtain ⟨e0, e1, e2, e3, e4, e5⟩ := idx_facts5 ⟨(i 0).val / 2000, hlt⟩
  have e4' : win5_2.index ⟨(i 0).val / 2000, hlt⟩ (0 : Fin 2) = (i 0).val / 2000 := e4
  refine ⟨⟨(i 0).val / 2000, hlt⟩, flush5_2 _, ?_⟩
  rw [mem_blk5]
  intro a
  match a with
  | ⟨0, _⟩ => show win5_2.index ⟨(i 0).val / 2000, hlt⟩ (0 : Fin 2) * 2000 ≤ (i 0).val ∧ (i 0).val < win5_2.index ⟨(i 0).val / 2000, hlt⟩ (0 : Fin 2) * 2000 + 2000; omega
  | ⟨1, _⟩ => show win5_2.index ⟨(i 0).val / 2000, hlt⟩ (1 : Fin 2) * 128 ≤ (i 1).val ∧ (i 1).val < win5_2.index ⟨(i 0).val / 2000, hlt⟩ (1 : Fin 2) * 128 + 128; omega

/-- The output array after the region: the product of the input array with the weight matrix. -/
theorem final5 (c : Dev nD) :
    (dat5 (F := Ideal) V c).arrAt 2 cfg5.N = rowsMul (V c main_v95) (V c main_arg7) :=
  (dat5 V c).arrAt_eq_of_cover 2 _ (fun t _ => flushed5_eq V c t) cover5

/-- The region's output, reshaped to 20000 × 6 × 128, is the reference's contraction of `X` with the weight matrix, `X` being
    the array whose reshape the region reads. -/
theorem region5 (c : Dev nD) (X : FVec Ideal S20000x6x128 .f32)
    (hX : V c main_v95 = shapeCast S120000x128 X shapeCasts_S20000x6x128_S120000x128) :
    shapeCast S20000x6x128 ((dat5 (F := Ideal) V c).arrAt 2 cfg5.N) shapeCasts_S120000x128_S20000x6x128
      = Host.dotGeneral (F := Ideal) (φ₂ := .f32) Cert.ReferenceIdeal.dot_S20000x6x128_S128x128_S20000x6x128_2_0_01_1_n_n none X (V c main_arg7) := by
  rw [final5, hX]
  exact rowsMul_reshape X (V c main_arg7)

end Cert.KernelIdeal.RegionValue

end
-- ==== Proof.Region6.lean ====
/-
  The matrix product [20000, 768] · [768, 40] computed in 10 row blocks of 2000 rows.

  Each grid point t multiplies rows 2000·t … 2000·t + 1999 of the left matrix by the whole right matrix and writes the
  2000 × 40 result back as rows 2000·t … of the output. Entry (r, q) of the block product is Σ_k x(r, k) · w(k, q) over the
  768 contracted coordinates; entry (2000·t + r, q) of the whole product is the same sum, since row r of block t of the left
  matrix is its row 2000·t + r. The 10 blocks tile the 20000 rows (row i lies in block i / 2000), so after the last point the
  output array holds the whole product.
-/
import proofs.«106504_j2594160246965_1_alg».proof.Proof.Gen.KernelIdeal.Frame
import proofs.«106504_j2594160246965_1_alg».proof.Proof.Gen.ReferenceIdeal
import Idealize.ShloMosaic.Lib.Pipeline.Value
import Idealize.ShloMosaic.Lib.StackMember

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## One entry of a product, as a sum over the contracted coordinate -/

/-- Entry (r, q) of a block product: at the ideal values the narrowing of the operands changes nothing and the zero
    accumulator adds nothing, so it is Σ_k x0(r, k) · x1(k, q). -/
theorem pay6_apply (x0 : Vec Ideal S2000x768 .f32) (x1 : Vec Ideal S768x40 .f32) (r : Fin 2000) (q : Fin 40) :
    k6_pay1 x0 x1 (ix2 r q) = ∑ k : Fin 768, x0 (ix2 r k) * x1 (ix2 k q) := by
  unfold k6_pay1
  simp only [shapeCast_self]
  exact (congrFun (matmul_zero_eq_dotGeneral (DotDims.plain 2000 768 40) none
      (truncf .bf16 x0 bitsLt_bf16_f32) (truncf .bf16 x1 bitsLt_bf16_f32)) (ix2 r q)).trans
    (StackMember.dotGeneral_plain_apply none _ _ r q)

/-- Entry (i, q) of the whole product is Σ_k A(i, k) · B(k, q). -/
theorem dot6_apply (A : FVec Ideal S20000x768 .f32) (B : FVec Ideal S768x40 .f32) (i : Fin 20000) (q : Fin 40) :
    Host.dotGeneral (F := Ideal) Cert.ReferenceIdeal.dot_S20000x768_S768x40_S20000x40_1_0_0_1_n_n none A B (ix2 i q)
      = ∑ k : Fin 768, A (ix2 i k) * B (ix2 k q) :=
  StackMember.dotGeneral_plain_apply none A B i q

/-! ## Where each block sits in its array -/

theorem zeros6 : (![0, 0] : Fin 2 → Nat) = fun _ => 0 := funext fun a => by fin_cases a <;> rfl

/-- The block indices at grid point t: the left matrix's and the output's row block is t, every column block is 0, and
    the right matrix is one block. -/
theorem idx_facts6 : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- Entry (r, k) of the left matrix's block at point t is entry (2000·t + r, k) of the matrix. -/
theorem lhs_block6 (c : Dev nD) (t : Fin cfg6.N) (r : Fin 2000) (k : Fin 768) (i : Fin 20000)
    (hi : i.val = t.val * 2000 + r.val) :
    iblk6 (F := Ideal) V c 0 t (ix2 r k) = V c main_v159 (ix2 i k) := by
  obtain ⟨e0, e1, e2, e3, e4, e5⟩ := idx_facts6 t
  show V c main_v159 (((cfg6.win 0).blk t).view.emb (ix2 r k)) = V c main_v159 (ix2 i k)
  refine congrArg (V c main_v159) (funext fun a => Fin.ext ?_)
  match a with
  | ⟨0, _⟩ => show win6_0.index t (0 : Fin 2) * 2000 + 1 * r.val = i.val; omega
  | ⟨1, _⟩ => show win6_0.index t (1 : Fin 2) * 768 + 1 * k.val = k.val; omega

/-- The right matrix's block at every point is the matrix. -/
theorem rhs_block6 (c : Dev nD) (t : Fin cfg6.N) (k : Fin 768) (q : Fin 40) :
    iblk6 (F := Ideal) V c 1 t (ix2 k q) = V c main_arg9 (ix2 k q) := by
  obtain ⟨e0, e1, e2, e3, e4, e5⟩ := idx_facts6 t
  show V c main_arg9 (((cfg6.win 1).blk t).view.emb (ix2 k q)) = V c main_arg9 (ix2 k q)
  refine congrArg (V c main_arg9) (funext fun a => Fin.ext ?_)
  match a with
  | ⟨0, _⟩ => show win6_1.index t (0 : Fin 2) * 768 + 1 * k.val = k.val; omega
  | ⟨1, _⟩ => show win6_1.index t (1 : Fin 2) * 40 + 1 * q.val = q.val; omega

/-- Entry (r, q) of the output's block at point t is entry (2000·t + r, q) of the output. -/
theorem out_block6 (t : Fin cfg6.N) (r : Fin 2000) (q : Fin 40) (i : Fin 20000)
    (hi : i.val = t.val * 2000 + r.val) :
    ((cfg6.win 2).blk t).view.emb (ix2 r q) = ix2 i q := by
  obtain ⟨e0, e1, e2, e3, e4, e5⟩ := idx_facts6 t
  refine funext fun a => Fin.ext ?_
  match a with
  | ⟨0, _⟩ => show win6_2.index t (0 : Fin 2) * 2000 + 1 * r.val = i.val; omega
  | ⟨1, _⟩ => show win6_2.index t (1 : Fin 2) * 40 + 1 * q.val = q.val; omega

/-! ## From the blocks to the array -/

/-- The whole product of the two arrays. -/
abbrev G6 (A : FVec Ideal S20000x768 .f32) (B : FVec Ideal S768x40 .f32) : FVec Ideal S20000x40 .f32 :=
  Host.dotGeneral (F := Ideal) Cert.ReferenceIdeal.dot_S20000x768_S768x40_S20000x40_1_0_0_1_n_n none A B

/-- What point t writes back is block t of the whole product. -/
theorem flushed6_eq (c : Dev nD) (t : Fin cfg6.N) :
    (dat6 (F := Ideal) V c).flushed 2 t
      = ((cfg6.win 2).blk t).view.read (Elt Ideal) (G6 (V c main_v159) (V c main_arg9)) := by
  show (cfg6.win 2).cut (grid6.coords t) ((dat6 V c).after 2 t) = _
  rw [after6_2]
  unfold out6_2
  rw [View.canon_unit_zero zeros6]
  simp only [View.ld_unit_zero (S := S2000x768) zeros6, View.ld_unit_zero (S := S768x40) zeros6]
  funext j
  obtain ⟨r, q, rfl⟩ : ∃ (r : Fin 2000) (q : Fin 40), j = ix2 r q := ⟨j 0, j 1, eq_ix2 j⟩
  have hN : cfg6.N = 10 := N_6
  have ht : t.val < 10 := hN ▸ t.isLt
  have hlt : t.val * 2000 + r.val < 20000 := by have := r.isLt; omega
  show k6_pay1 (iblk6 V c 0 t) (iblk6 V c 1 t) (ix2 r q)
    = G6 (V c main_v159) (V c main_arg9) (((cfg6.win 2).blk t).view.emb (ix2 r q))
  rw [out_block6 t r q ⟨t.val * 2000 + r.val, hlt⟩ rfl]
  refine (pay6_apply (iblk6 V c 0 t) (iblk6 V c 1 t) r q).trans ?_
  refine Eq.trans ?_ (dot6_apply (V c main_v159) (V c main_arg9) ⟨t.val * 2000 + r.val, hlt⟩ q).symm
  refine Finset.sum_congr rfl fun k _ => ?_
  rw [lhs_block6 V c t r k ⟨t.val * 2000 + r.val, hlt⟩ rfl, rhs_block6 V c t k q]

/-- An index of the output lies in point t's block iff each coordinate lies in the block's range on its axis. -/
theorem mem_blk6 (t : Fin cfg6.N) (i : S20000x40.Idx) :
    i ∈ ((cfg6.win 2).blk t).view.set ↔ ∀ a : Fin 2, win6_2.index t a * S2000x40.size a ≤ (i a).val
      ∧ (i a).val < win6_2.index t a * S2000x40.size a + S2000x40.size a := by
  show i ∈ ((View.whole main_v160).slice (win6_2.rect t)).set ↔ _
  rw [View.set_slice_whole, Rect.mem_set_unit]
  exact Iff.rfl

/-- Row i of the output lies in the block of point i / 2000. -/
theorem cover6 (i : S20000x40.Idx) :
    ∃ t : Fin cfg6.N, (cfg6.win 2).flush t = true ∧ i ∈ ((cfg6.win 2).blk t).view.set := by
  have hi0 : (i 0).val < 20000 := (i 0).isLt
  have hi1 : (i 1).val < 40 := (i 1).isLt
  have hN : cfg6.N = 10 := N_6
  have hlt : (i 0).val / 2000 < cfg6.N := by rw [hN]; omega
  obtain ⟨e0, e1, e2, e3, e4, e5⟩ := idx_facts6 ⟨(i 0).val / 2000, hlt⟩
  refine ⟨⟨(i 0).val / 2000, hlt⟩, flush6_2 _, ?_⟩
  rw [mem_blk6]
  intro a
  match a with
  | ⟨0, _⟩ =>
    show win6_2.index ⟨(i 0).val / 2000, hlt⟩ (0 : Fin 2) * 2000 ≤ (i 0).val
      ∧ (i 0).val < win6_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win6_2.index ⟨(i 0).val / 2000, hlt⟩ (1 : Fin 2) * 40 ≤ (i 1).val
      ∧ (i 1).val < win6_2.index ⟨(i 0).val / 2000, hlt⟩ (1 : Fin 2) * 40 + 40
    rw [e5]
    omega

/-- After the last point the output array holds the whole product of the two arrays as the region finds them. -/
theorem region6 (c : Dev nD) :
    (dat6 (F := Ideal) V c).arrAt 2 cfg6.N
      = Host.dotGeneral (F := Ideal) (φ₁ := .f32) (φ₂ := .f32)
          Cert.ReferenceIdeal.dot_S20000x768_S768x40_S20000x40_1_0_0_1_n_n none (V c main_v159) (V c main_arg9) :=
  (dat6 V c).arrAt_eq_of_cover 2 (G6 (V c main_v159) (V c main_arg9)) (fun t _ => flushed6_eq V c t) cover6

end Cert.KernelIdeal.RegionValue

end
-- ==== Proof.Chain3.lean ====
/-
  From the activations to the returned array.

  The last third of the comparison of the two runs, on one device. Given that the two launch memories agree on the
  argument arrays, that the two index vectors and the gate agree where they are computed, and that the activations after
  the exponential linear unit agree, the returned arrays agree:

  * the second channel mixing is a region on the kernel side (its input the activations reshaped to 120000 × 128, its
    output reshaped back) and one contraction on the reference side: the same array;
  * the second message passing is the same stretch of host operations on both sides, from buffers that agree;
  * the classifier is a region on the kernel side and one matrix product on the reference side, of operands that agree.

  Between these, a buffer that no operation in between writes still holds what it held: the arguments from the launch
  on, the index vectors and the gate from where they are computed.
-/
import proofs.«106504_j2594160246965_1_alg».proof.Proof.ChainDefs
import proofs.«106504_j2594160246965_1_alg».proof.Proof.Kept
import proofs.«106504_j2594160246965_1_alg».proof.Proof.StagesA
import proofs.«106504_j2594160246965_1_alg».proof.Proof.StagesC
import proofs.«106504_j2594160246965_1_alg».proof.Proof.Region5
import proofs.«106504_j2594160246965_1_alg».proof.Proof.Region6
import proofs.«106504_j2594160246965_1_alg».proof.Proof.RefRun
import proofs.«106504_j2594160246965_1_alg».proof.Proof.RefKept

noncomputable section

namespace Cert.Bridge

open Idealize.ShloMosaic Idealize.ShloMosaic.StableHlo Idealize.ShloMosaic.TcCoe Idealize.SL.Sem
open Cert.ReferenceIdeal.RefOps Cert.ReferenceIdeal.RefKept Cert.ReferenceIdeal.RefRun
open Cert.KernelIdeal.Gen Cert.KernelIdeal.RegionValue

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## The reference side: what the stretches leave untouched -/

/-- An argument buffer holds its launch contents after the reference's first seven stretches. -/
theorem R7_arg (r : Ref Cert.ReferenceIdeal.sig .tc) (hs : r.space = .hbm) (hr : r.idx.val < 10) :
    R7 m' c (Proc.devRef .tc r) = R0 m' c (Proc.devRef .tc r) :=
  (kept_of_ok _ seg6_ok r hs hr _).trans <| (kept_of_ok _ seg5_ok r hs hr _).trans <|
    (kept_of_ok _ seg4_ok r hs hr _).trans <| (kept_of_ok _ seg3_ok r hs hr _).trans <|
    (kept_of_ok _ seg2_ok r hs hr _).trans <| (kept_of_ok _ seg1_ok r hs hr _).trans <|
    kept_of_ok _ seg0_ok r hs hr _

/-- … after its first eight … -/
theorem R8_arg (r : Ref Cert.ReferenceIdeal.sig .tc) (hs : r.space = .hbm) (hr : r.idx.val < 10) :
    R8 m' c (Proc.devRef .tc r) = R0 m' c (Proc.devRef .tc r) :=
  (kept_of_ok _ seg7_ok r hs hr _).trans (R7_arg m' c r hs hr)

/-- … and after its first nine. -/
theorem R9_arg (r : Ref Cert.ReferenceIdeal.sig .tc) (hs : r.space = .hbm) (hr : r.idx.val < 10) :
    R9 m' c (Proc.devRef .tc r) = R0 m' c (Proc.devRef .tc r) :=
  (kept_of_ok _ seg8_ok r hs hr _).trans (R8_arg m' c r hs hr)

/-- The row index vector is as the first stretch left it until after the eighth. -/
theorem R8_v1 : R8 m' c (Proc.devRef .tc Cert.ReferenceIdeal.main_v1) = R1 m' c (Proc.devRef .tc Cert.ReferenceIdeal.main_v1) :=
  (seg7_v1 _).trans <| (seg6_v1 _).trans <| (seg5_v1 _).trans <| (seg4_v1 _).trans <| (seg3_v1 _).trans <|
    (seg2_v1 _).trans <| seg1_v1 _

/-- So is the column index vector. -/
theorem R8_v3 : R8 m' c (Proc.devRef .tc Cert.ReferenceIdeal.main_v3) = R1 m' c (Proc.devRef .tc Cert.ReferenceIdeal.main_v3) :=
  (seg7_v3 _).trans <| (seg6_v3 _).trans <| (seg5_v3 _).trans <| (seg4_v3 _).trans <| (seg3_v3 _).trans <|
    (seg2_v3 _).trans <| seg1_v3 _

/-- The gate is as the fourth stretch left it until after the eighth. -/
theorem R8_v35 : R8 m' c (Proc.devRef .tc Cert.ReferenceIdeal.main_v35) = R4 m' c (Proc.devRef .tc Cert.ReferenceIdeal.main_v35) :=
  (seg7_v35 _).trans <| (seg6_v35 _).trans <| (seg5_v35 _).trans <| seg4_v35 _

/-! ## The arguments the last third reads, on both sides -/

theorem arg7_eq (hag : Agree m m' c) :
    W14 (F := Ideal) m ρ c (Proc.devRef .tc Cert.KernelIdeal.main_arg7) = R7 m' c (Proc.devRef .tc Cert.ReferenceIdeal.main_arg7) :=
  (W14_arg7 m ρ c).trans <| hag.2.2.2.2.2.2.2.1.symm.trans (R7_arg m' c Cert.ReferenceIdeal.main_arg7 rfl (by decide)).symm

theorem arg8_eq (hag : Agree m m' c) :
    W15 (F := Ideal) m ρ c (Proc.devRef .tc Cert.KernelIdeal.main_arg8) = R8 m' c (Proc.devRef .tc Cert.ReferenceIdeal.main_arg8) :=
  (W15_arg8 m ρ c).trans <| hag.2.2.2.2.2.2.2.2.1.symm.trans (R8_arg m' c Cert.ReferenceIdeal.main_arg8 rfl (by decide)).symm

theorem arg9_eq (hag : Agree m m' c) :
    W20 (F := Ideal) m ρ c (Proc.devRef .tc Cert.KernelIdeal.main_arg9) = R9 m' c (Proc.devRef .tc Cert.ReferenceIdeal.main_arg9) :=
  (W20_arg9 m ρ c).trans <| hag.2.2.2.2.2.2.2.2.2.symm.trans (R9_arg m' c Cert.ReferenceIdeal.main_arg9 rfl (by decide)).symm

/-! ## The second channel mixing -/

set_option maxHeartbeats 1000000 in
/-- The kernel side's region output, reshaped back, is the reference's contraction of the activations. -/
theorem proj2_eq (hag : Agree m m' c)
    (hact1 : W13 (F := Ideal) m ρ c (Proc.devRef .tc Cert.KernelIdeal.main_v94) = R7 m' c (Proc.devRef .tc Cert.ReferenceIdeal.main_v98)) :
    shapeCast Cert.KernelIdeal.main_v97.ty.shape (W15 (F := Ideal) m ρ c (Proc.devRef .tc Cert.KernelIdeal.main_v96))
        Cert.KernelIdeal.Gen.shapeCasts_S120000x128_S20000x6x128
      = R8 m' c (Proc.devRef .tc Cert.ReferenceIdeal.main_v99) := by
  have e1 : W15 (F := Ideal) m ρ c (Proc.devRef .tc Cert.KernelIdeal.main_v96) = (dat5 (V14 m ρ) c).arrAt 2 Cert.KernelIdeal.cfg5.N :=
    W15_arr m ρ c 2
  have e2 := region5 (V14 (F := Ideal) m ρ) c (W13 (F := Ideal) m ρ c (Proc.devRef .tc Cert.KernelIdeal.main_v94)) (k_v95 (W13 (F := Ideal) m ρ c))
  have e3 := ref_proj2 (R7 m' c)
  have e4 := arg7_eq m ρ m' c hag
  rw [e1]
  refine e2.trans ?_
  refine Eq.trans ?_ e3.symm
  rw [hact1]
  exact congrArg _ e4

/-! ## The second message passing -/

set_option maxHeartbeats 1000000 in
/-- The kernel side's input to the classifier is the reference's second message passing, reshaped to 20000 × 768. -/
theorem mp2_eq (hag : Agree m m' c)
    (hrow : W1 (F := Ideal) m ρ c (Proc.devRef .tc Cert.KernelIdeal.main_v1) = R1 m' c (Proc.devRef .tc Cert.ReferenceIdeal.main_v1))
    (hcol : W1 (F := Ideal) m ρ c (Proc.devRef .tc Cert.KernelIdeal.main_v3) = R1 m' c (Proc.devRef .tc Cert.ReferenceIdeal.main_v3))
    (halpha : W5 (F := Ideal) m ρ c (Proc.devRef .tc Cert.KernelIdeal.main_v29) = R4 m' c (Proc.devRef .tc Cert.ReferenceIdeal.main_v35))
    (hact1 : W13 (F := Ideal) m ρ c (Proc.devRef .tc Cert.KernelIdeal.main_v94) = R7 m' c (Proc.devRef .tc Cert.ReferenceIdeal.main_v98)) :
    W20 (F := Ideal) m ρ c (Proc.devRef .tc Cert.KernelIdeal.main_v159)
      = shapeCast Cert.ReferenceIdeal.S20000x768 (R9 m' c (Proc.devRef .tc Cert.ReferenceIdeal.main_v160))
          Cert.ReferenceIdeal.Gen.shapeCasts_S20000x6x128_S20000x768 :=
  stage8 (W15 (F := Ideal) m ρ c) (R8 m' c)
    (proj2_eq m ρ m' c hag hact1)
    ((W15_v29 m ρ c).trans (halpha.trans (R8_v35 m' c).symm))
    ((W15_v1 m ρ c).trans (hrow.trans (R8_v1 m' c).symm))
    ((W15_v3 m ρ c).trans (hcol.trans (R8_v3 m' c).symm))
    (arg8_eq m ρ m' c hag)

/-! ## The classifier, and the returned array -/

set_option maxHeartbeats 1000000 in
theorem result (hag : Agree m m' c)
    (hrow : Cert.KernelIdeal.Gen.W1 (F := Ideal) m ρ c (Proc.devRef .tc Cert.KernelIdeal.main_v1) = R1 m' c (Proc.devRef .tc Cert.ReferenceIdeal.main_v1))
    (hcol : Cert.KernelIdeal.Gen.W1 (F := Ideal) m ρ c (Proc.devRef .tc Cert.KernelIdeal.main_v3) = R1 m' c (Proc.devRef .tc Cert.ReferenceIdeal.main_v3))
    (halpha : Cert.KernelIdeal.Gen.W5 (F := Ideal) m ρ c (Proc.devRef .tc Cert.KernelIdeal.main_v29) = R4 m' c (Proc.devRef .tc Cert.ReferenceIdeal.main_v35))
    (hact1 : Cert.KernelIdeal.Gen.W13 (F := Ideal) m ρ c (Proc.devRef .tc Cert.KernelIdeal.main_v94) = R7 m' c (Proc.devRef .tc Cert.ReferenceIdeal.main_v98)) :
    Cert.KernelIdeal.Gen.W21 (F := Ideal) m ρ c (Proc.devRef .tc Cert.KernelIdeal.main_v160) = R10 m' c (Proc.devRef .tc Cert.ReferenceIdeal.main_v162) := by
  have e1 : W21 (F := Ideal) m ρ c (Proc.devRef .tc Cert.KernelIdeal.main_v160) = (dat6 (V20 m ρ) c).arrAt 2 Cert.KernelIdeal.cfg6.N :=
    W21_arr m ρ c 2
  have e2 := region6 (V20 (F := Ideal) m ρ) c
  have e3 := ref_final (R9 m' c)
  have e4 := mp2_eq m ρ m' c hag hrow hcol halpha hact1
  have e5 := arg9_eq m ρ m' c hag
  refine e1.trans (e2.trans (Eq.trans ?_ e3.symm))
  show Host.dotGeneral (F := Ideal) (φ₁ := .f32) (φ₂ := .f32) Cert.ReferenceIdeal.dot_S20000x768_S768x40_S20000x40_1_0_0_1_n_n none
      (W20 (F := Ideal) m ρ c (Proc.devRef .tc Cert.KernelIdeal.main_v159)) (W20 (F := Ideal) m ρ c (Proc.devRef .tc Cert.KernelIdeal.main_arg9)) = _
  rw [e4]
  exact congrArg _ e5

end Cert.Bridge

end
-- ==== Proof.lean ====
/-
  The certificate of a diagonal-sheaf hypergraph network written with Pallas kernels against its jnp reference.

  The network: two feature projections (nodes and hyperedges, 128 → 6·128), per-incidence sheaf coefficients (the means over
  the sheaf axis gathered along the incidence pairs, concatenated, projected to 6 logits and passed through the logistic
  map), two diagonal-sheaf convolutions — a channel mixing followed by degree-normalised message passing node → hyperedge →
  node with scatter-adds, plus a bias — with an exponential linear unit between them, and a final classifier product.

  The kernel program computes the six matrix products and the exponential linear unit in seven pallas_call regions (row
  blocks of 2000, the weights whole, operands rounded to bf16 on the way into the product) and everything else with the same
  host operations as the reference. Over the extended reals a rounding is the identity, a blocked product into a zero
  accumulator is the plain sum over the contracted index, a product of the [120000, 128] reshape of a [20000, 6, 128] array is
  the three-axis contraction reshaped, `tpu.logistic` is `1 / (1 + e^(-z))`, and `select (x > 0) x (e^x - 1)` is the guarded
  `select (x > 0) x (1 · expm1 (select (x > 0) 0 x))`; so the two programs compute one function of the arguments, with no
  appeal to finiteness. The frames of the two kernel programs are the generated ones; the reference's is its run as a
  straight line of 231 host operations; nothing was rewritten by the idealization, so `preserves` is trivial.
-/
import proofs.«106504_j2594160246965_1_alg».proof.Defs
import proofs.«106504_j2594160246965_1_alg».proof.Proof.Gen.Kernel
import proofs.«106504_j2594160246965_1_alg».proof.Proof.Gen.Kernel.Frame
import proofs.«106504_j2594160246965_1_alg».proof.Proof.Gen.KernelIdeal
import proofs.«106504_j2594160246965_1_alg».proof.Proof.Gen.KernelIdeal.Frame
import proofs.«106504_j2594160246965_1_alg».proof.Proof.Gen.ReferenceIdeal
import proofs.«106504_j2594160246965_1_alg».proof.Proof.Gen.Pre_finite_inputs
import proofs.«106504_j2594160246965_1_alg».proof.Proof.KRun
import proofs.«106504_j2594160246965_1_alg».proof.Proof.RefRun
import proofs.«106504_j2594160246965_1_alg».proof.Proof.Chain1
import proofs.«106504_j2594160246965_1_alg».proof.Proof.Chain2
import proofs.«106504_j2594160246965_1_alg».proof.Proof.Chain3
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations: it runs, and none of them writes an argument. -/
theorem frame_ri : Cert.frame_ReferenceIdeal := fun m ρ _ => Cert.ReferenceIdeal.RefRun.frame (F := Ideal) m ρ

theorem preserves : Cert.preserves_Kernel_KernelIdeal := trivial

/-- Both idealized programs run, and the kernel program's returned array — the last region's write-backs over the fold of
    everything before it — is the reference's last operation's result, stage by stage. -/
theorem algebraic : Cert.algebraic_KernelIdeal_ReferenceIdeal := by
  intro m ρ m' ρ' _ hagree
  refine ⟨fun c => Cert.KernelIdeal.Gen.W21 (F := Ideal) m ρ c (Proc.devRef .tc Cert.KernelIdeal.main_v160),
    Cert.KernelIdeal.Gen.run_result (F := Ideal) m ρ, ?_⟩
  refine (θ_run Cert.ReferenceIdeal.defs _ _).mono (fun r h c => ⟨?_, ?_⟩)
    (Cert.ReferenceIdeal.RefRun.run_main (F := Ideal) m' ρ')
  · have hag : Cert.Bridge.Agree m m' c := hagree c
    have hrow := Cert.Bridge.row m ρ m' c hag
    have hcol := Cert.Bridge.col m ρ m' c hag
    have hxl6 := Cert.Bridge.xl6 m ρ m' c hag
    have halpha := Cert.Bridge.alpha m ρ m' c hag
    have hact1 := Cert.Bridge.act1 m ρ m' c hag hrow hcol hxl6 halpha
    have hres := Cert.Bridge.result m ρ m' c hag hrow hcol halpha hact1
    exact (h c Cert.ReferenceIdeal.main_v162).trans
      ((congrFun (Cert.Bridge.ops_fold m' c) _).trans hres.symm)
  · exact ⟨(h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
